-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v77) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v168) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100x65536 : Shape := ⟨2, ![100, 65536]⟩
abbrev S2x1600 : Shape := ⟨2, ![2, 1600]⟩
abbrev S1x3 : Shape := ⟨2, ![1, 3]⟩
abbrev S3x65536x60 : Shape := ⟨3, ![3, 65536, 60]⟩
abbrev S60 : Shape := ⟨1, ![60]⟩
abbrev S3x60 : Shape := ⟨2, ![3, 60]⟩
abbrev S6000x100 : Shape := ⟨2, ![6000, 100]⟩
abbrev S100 : Shape := ⟨1, ![100]⟩
abbrev S6000x1 : Shape := ⟨2, ![6000, 1]⟩
abbrev S1 : Shape := ⟨1, ![1]⟩
abbrev S_ : Shape := ⟨0, ![]⟩

class Facts : Prop where
  bcast_S_S100x65536 : S_.BroadcastsInDim S100x65536 (![] : Fin 0 → Fin S100x65536.rank)
  reducesTo_S100x65536_S_d0_1 : S100x65536.ReducesTo [0, 1] S_
  h_S_ : 0 < S_.numel
  bcast_S_S1x3 : S_.BroadcastsInDim S1x3 (![] : Fin 0 → Fin S1x3.rank)
  reducesTo_S1x3_S_d0_1 : S1x3.ReducesTo [0, 1] S_
  bcast_S_S3x65536x60 : S_.BroadcastsInDim S3x65536x60 (![] : Fin 0 → Fin S3x65536x60.rank)
  reducesTo_S3x65536x60_S_d0_1_2 : S3x65536x60.ReducesTo [0, 1, 2] S_
  bcast_S_S60 : S_.BroadcastsInDim S60 (![] : Fin 0 → Fin S60.rank)
  reducesTo_S60_S_d0 : S60.ReducesTo [0] S_
  bcast_S_S3x60 : S_.BroadcastsInDim S3x60 (![] : Fin 0 → Fin S3x60.rank)
  reducesTo_S3x60_S_d0_1 : S3x60.ReducesTo [0, 1] S_
  bcast_S_S6000x100 : S_.BroadcastsInDim S6000x100 (![] : Fin 0 → Fin S6000x100.rank)
  reducesTo_S6000x100_S_d0_1 : S6000x100.ReducesTo [0, 1] S_
  bcast_S_S100 : S_.BroadcastsInDim S100 (![] : Fin 0 → Fin S100.rank)
  reducesTo_S100_S_d0 : S100.ReducesTo [0] S_
  bcast_S_S6000x1 : S_.BroadcastsInDim S6000x1 (![] : Fin 0 → Fin S6000x1.rank)
  reducesTo_S6000x1_S_d0_1 : S6000x1.ReducesTo [0, 1] S_
  bcast_S_S1 : S_.BroadcastsInDim S1 (![] : Fin 0 → Fin S1.rank)
  reducesTo_S1_S_d0 : S1.ReducesTo [0] S_
  bcast_S_S2x1600 : S_.BroadcastsInDim S2x1600 (![] : Fin 0 → Fin S2x1600.rank)
  reducesTo_S2x1600_S_d0_1 : S2x1600.ReducesTo [0, 1] S_

variable [Facts]

def fn_part4 {F : FTy → Type} [FloatOps F] (main_arg1 : IVec S2x1600 32) (main_v63 : IVec S_ 1) (main_v67 : IVec S_ 1) : IVec S_ 1 :=
  let main_v68 : IVec S_ 1 := andi main_v63 main_v67
  let main_c_26 : IVec S_ 32 := constantI S_ 32 0#32
  let main_v69 : IVec S2x1600 32 := broadcastInDim S2x1600 ![] bcast_S_S2x1600 main_c_26
  let main_v70 : IVec S2x1600 1 := cmpi .sge main_arg1 main_v69
  let main_c_27 : IVec S_ 32 := constantI S_ 32 100#32
  let main_v71 : IVec S2x1600 32 := broadcastInDim S2x1600 ![] bcast_S_S2x1600 main_c_27
  let main_v72 : IVec S2x1600 1 := cmpi .slt main_arg1 main_v71
  let main_v73 : IVec S2x1600 1 := andi main_v70 main_v72
  let main_c_28 : IVec S_ 1 := constantI S_ 1 1#1
  let main_v74 : IVec S_ 1 := (fun x v => Host.reduce IntOp.andi x v reducesTo_S2x1600_S_d0_1 h_S_) main_v73 main_c_28
  let main_v75 : IVec S_ 1 := andi main_v68 main_v74
  main_v75

def fn_part3 {F : FTy → Type} [FloatOps F] (main_arg1 : IVec S2x1600 32) (main_arg12 : FVec F S100 .f32) (main_arg13 : FVec F S6000x1 .f32) (main_arg14 : FVec F S1 .f32) (main_v48 : IVec S_ 1) (main_v49 : FVec F S6000x100 .f32) (main_v50 : FVec F S6000x100 .f32) : IVec S_ 1 :=
  let main_v51 : IVec S6000x100 1 := cmpf .olt main_v49 main_v50
  let main_c_19 : IVec S_ 1 := constantI S_ 1 1#1
  let main_v52 : IVec S_ 1 := (fun x v => Host.reduce IntOp.andi x v reducesTo_S6000x100_S_d0_1 h_S_) main_v51 main_c_19
  let main_v53 : IVec S_ 1 := andi main_v48 main_v52
  let main_v54 : FVec F S100 .f32 := Host.absf main_arg12
  let main_cst_20 : FVec F S_ .f32 := constant S_ .f32 0x7F800000#32
  let main_v55 : FVec F S100 .f32 := broadcastInDim S100 ![] bcast_S_S100 main_cst_20
  let main_v56 : IVec S100 1 := cmpf .olt main_v54 main_v55
  let main_c_21 : IVec S_ 1 := constantI S_ 1 1#1
  let main_v57 : IVec S_ 1 := (fun x v => Host.reduce IntOp.andi x v reducesTo_S100_S_d0 h_S_) main_v56 main_c_21
  let main_v58 : IVec S_ 1 := andi main_v53 main_v57
  let main_v59 : FVec F S6000x1 .f32 := Host.absf main_arg13
  let main_cst_22 : FVec F S_ .f32 := constant S_ .f32 0x7F800000#32
  let main_v60 : FVec F S6000x1 .f32 := broadcastInDim S6000x1 ![] bcast_S_S6000x1 main_cst_22
  let main_v61 : IVec S6000x1 1 := cmpf .olt main_v59 main_v60
  let main_c_23 : IVec S_ 1 := constantI S_ 1 1#1
  let main_v62 : IVec S_ 1 := (fun x v => Host.reduce IntOp.andi x v reducesTo_S6000x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg1 main_v63 main_v67

def fn_part2 {F : FTy → Type} [FloatOps F] (main_arg1 : IVec S2x1600 32) (main_arg8 : FVec F S3x60 .f32) (main_arg9 : FVec F S3x60 .f32) (main_arg10 : FVec F S3x60 .f32) (main_arg11 : FVec F S6000x100 .f32) (main_arg12 : FVec F S100 .f32) (main_arg13 : FVec F S6000x1 .f32) (main_arg14 : FVec F S1 .f32) (main_v33 : IVec S_ 1) : IVec S_ 1 :=
  let main_v34 : FVec F S3x60 .f32 := Host.absf main_arg8
  let main_cst_12 : FVec F S_ .f32 := constant S_ .f32 0x7F800000#32
  let main_v35 : FVec F S3x60 .f32 := broadcastInDim S3x60 ![] bcast_S_S3x60 main_cst_12
  let main_v36 : IVec S3x60 1 := cmpf .olt main_v34 main_v35
  let main_c_13 : IVec S_ 1 := constantI S_ 1 1#1
  let main_v37 : IVec S_ 1 := (fun x v => Host.reduce IntOp.andi x v reducesTo_S3x60_S_d0_1 h_S_) main_v36 main_c_13
  let main_v38 : IVec S_ 1 := andi main_v33 main_v37
  let main_v39 : FVec F S3x60 .f32 := Host.absf main_arg9
  let main_cst_14 : FVec F S_ .f32 := constant S_ .f32 0x7F800000#32
  let main_v40 : FVec F S3x60 .f32 := broadcastInDim S3x60 ![] bcast_S_S3x60 main_cst_14
  let main_v41 : IVec S3x60 1 := cmpf .olt main_v39 main_v40
  let main_c_15 : IVec S_ 1 := constantI S_ 1 1#1
  let main_v42 : IVec S_ 1 := (fun x v => Host.reduce IntOp.andi x v reducesTo_S3x60_S_d0_1 h_S_) main_v41 main_c_15
  let main_v43 : IVec S_ 1 := andi main_v38 main_v42
  let main_v44 : FVec F S3x60 .f32 := Host.absf main_arg10
  let main_cst_16 : FVec F S_ .f32 := constant S_ .f32 0x7F800000#32
  let main_v45 : FVec F S3x60 .f32 := broadcastInDim S3x60 ![] bcast_S_S3x60 main_cst_16
  let main_v46 : IVec S3x60 1 := cmpf .olt main_v44 main_v45
  let main_c_17 : IVec S_ 1 := constantI S_ 1 1#1
  let main_v47 : IVec S_ 1 := (fun x v => Host.reduce IntOp.andi x v reducesTo_S3x60_S_d0_1 h_S_) main_v46 main_c_17
  let main_v48 : IVec S_ 1 := andi main_v43 main_v47
  let main_v49 : FVec F S6000x100 .f32 := Host.absf main_arg11
  let main_cst_18 : FVec F S_ .f32 := constant S_ .f32 0x7F800000#32
  let main_v50 : FVec F S6000x100 .f32 := broadcastInDim S6000x100 ![] bcast_S_S6000x100 main_cst_18
  fn_part3 (F := F) main_arg1 main_arg12 main_arg13 main_arg14 main_v48 main_v49 main_v50

def fn_part1 {F : FTy → Type} [FloatOps F] (main_arg1 : IVec S2x1600 32) (main_arg5 : FVec F S3x65536x60 .f32) (main_arg6 : FVec F S60 .f32) (main_arg7 : FVec F S3x60 .f32) (main_arg8 : FVec F S3x60 .f32) (main_arg9 : FVec F S3x60 .f32) (main_arg10 : FVec F S3x60 .f32) (main_arg11 : FVec F S6000x100 .f32) (main_arg12 : FVec F S100 .f32) (main_arg13 : FVec F S6000x1 .f32) (main_arg14 : FVec F S1 .f32) (main_v13 : IVec S_ 1) (main_v16 : IVec S60 1) : IVec S_ 1 :=
  let main_c_5 : IVec S_ 1 := constantI S_ 1 1#1
  let main_v17 : IVec S_ 1 := (fun x v => Host.reduce IntOp.andi x v reducesTo_S60_S_d0 h_S_) main_v16 main_c_5
  let main_v18 : IVec S_ 1 := andi main_v13 main_v17
  let main_v19 : FVec F S3x65536x60 .f32 := Host.absf main_arg5
  let main_cst_6 : FVec F S_ .f32 := constant S_ .f32 0x7F800000#32
  let main_v20 : FVec F S3x65536x60 .f32 := broadcastInDim S3x65536x60 ![] bcast_S_S3x65536x60 main_cst_6
  let main_v21 : IVec S3x65536x60 1 := cmpf .olt main_v19 main_v20
  let main_c_7 : IVec S_ 1 := constantI S_ 1 1#1
  let main_v22 : IVec S_ 1 := (fun x v => Host.reduce IntOp.andi x v reducesTo_S3x65536x60_S_d0_1_2 h_S_) main_v21 main_c_7
  let main_v23 : IVec S_ 1 := andi main_v18 main_v22
  let main_v24 : FVec F S60 .f32 := Host.absf main_arg6
  let main_cst_8 : FVec F S_ .f32 := constant S_ .f32 0x7F800000#32
  let main_v25 : FVec F S60 .f32 := broadcastInDim S60 ![] bcast_S_S60 main_cst_8
  let main_v26 : IVec S60 1 := cmpf .olt main_v24 main_v25
  let main_c_9 : IVec S_ 1 := constantI S_ 1 1#1
  let main_v27 : IVec S_ 1 := (fun x v => Host.reduce IntOp.andi x v reducesTo_S60_S_d0 h_S_) main_v26 main_c_9
  let main_v28 : IVec S_ 1 := andi main_v23 main_v27
  let main_v29 : FVec F S3x60 .f32 := Host.absf main_arg7
  let main_cst_10 : FVec F S_ .f32 := constant S_ .f32 0x7F800000#32
  let main_v30 : FVec F S3x60 .f32 := broadcastInDim S3x60 ![] bcast_S_S3x60 main_cst_10
  let main_v31 : IVec S3x60 1 := cmpf .olt main_v29 main_v30
  let main_c_11 : IVec S_ 1 := constantI S_ 1 1#1
  let main_v32 : IVec S_ 1 := (fun x v => Host.reduce IntOp.andi x v reducesTo_S3x60_S_d0_1 h_S_) main_v31 main_c_11
  let main_v33 : IVec S_ 1 := andi main_v28 main_v32
  fn_part2 (F := F) main_arg1 main_arg8 main_arg9 main_arg10 main_arg11 main_arg12 main_arg13 main_arg14 main_v33

def fn {F : FTy → Type} [FloatOps F] (main_arg0 : FVec F S100x65536 .f32) (main_arg1 : IVec S2x1600 32) (main_arg2 : FVec F S1x3 .f32) (main_arg3 : FVec F S3x65536x60 .f32) (main_arg4 : FVec F S60 .f32) (main_arg5 : FVec F S3x65536x60 .f32) (main_arg6 : FVec F S60 .f32) (main_arg7 : FVec F S3x60 .f32) (main_arg8 : FVec F S3x60 .f32) (main_arg9 : FVec F S3x60 .f32) (main_arg10 : FVec F S3x60 .f32) (main_arg11 : FVec F S6000x100 .f32) (main_arg12 : FVec F S100 .f32) (main_arg13 : FVec F S6000x1 .f32) (main_arg14 : FVec F S1 .f32) : IVec S_ 1 :=
  let main_v0 : FVec F S100x65536 .f32 := Host.absf main_arg0
  let main_cst : FVec F S_ .f32 := constant S_ .f32 0x7F800000#32
  let main_v1 : FVec F S100x65536 .f32 := broadcastInDim S100x65536 ![] bcast_S_S100x65536 main_cst
  let main_v2 : IVec S100x65536 1 := cmpf .olt main_v0 main_v1
  let main_c : IVec S_ 1 := constantI S_ 1 1#1
  let main_v3 : IVec S_ 1 := (fun x v => Host.reduce IntOp.andi x v reducesTo_S100x65536_S_d0_1 h_S_) main_v2 main_c
  let main_v4 : FVec F S1x3 .f32 := Host.absf main_arg2
  let main_cst_0 : FVec F S_ .f32 := constant S_ .f32 0x7F800000#32
  let main_v5 : FVec F S1x3 .f32 := broadcastInDim S1x3 ![] bcast_S_S1x3 main_cst_0
  let main_v6 : IVec S1x3 1 := cmpf .olt main_v4 main_v5
  let main_c_1 : IVec S_ 1 := constantI S_ 1 1#1
  let main_v7 : IVec S_ 1 := (fun x v => Host.reduce IntOp.andi x v reducesTo_S1x3_S_d0_1 h_S_) main_v6 main_c_1
  let main_v8 : IVec S_ 1 := andi main_v3 main_v7
  let main_v9 : FVec F S3x65536x60 .f32 := Host.absf main_arg3
  let main_cst_2 : FVec F S_ .f32 := constant S_ .f32 0x7F800000#32
  let main_v10 : FVec F S3x65536x60 .f32 := broadcastInDim S3x65536x60 ![] bcast_S_S3x65536x60 main_cst_2
  let main_v11 : IVec S3x65536x60 1 := cmpf .olt main_v9 main_v10
  let main_c_3 : IVec S_ 1 := constantI S_ 1 1#1
  let main_v12 : IVec S_ 1 := (fun x v => Host.reduce IntOp.andi x v reducesTo_S3x65536x60_S_d0_1_2 h_S_) main_v11 main_c_3
  let main_v13 : IVec S_ 1 := andi main_v8 main_v12
  let main_v14 : FVec F S60 .f32 := Host.absf main_arg4
  let main_cst_4 : FVec F S_ .f32 := constant S_ .f32 0x7F800000#32
  let main_v15 : FVec F S60 .f32 := broadcastInDim S60 ![] bcast_S_S60 main_cst_4
  let main_v16 : IVec S60 1 := cmpf .olt main_v14 main_v15
  fn_part1 (F := F) main_arg1 main_arg5 main_arg6 main_arg7 main_arg8 main_arg9 main_arg10 main_arg11 main_arg12 main_arg13 main_arg14 main_v13 main_v16
-- ==== Kernel.lean ====
abbrev S100x65536 : Shape := ⟨2, ![100, 65536]⟩
abbrev S2x1600 : Shape := ⟨2, ![2, 1600]⟩
abbrev S1x3 : Shape := ⟨2, ![1, 3]⟩
abbrev S3x65536x60 : Shape := ⟨3, ![3, 65536, 60]⟩
abbrev S60 : Shape := ⟨1, ![60]⟩
abbrev S3x60 : Shape := ⟨2, ![3, 60]⟩
abbrev S6000x100 : Shape := ⟨2, ![6000, 100]⟩
abbrev S100 : Shape := ⟨1, ![100]⟩
abbrev S6000x1 : Shape := ⟨2, ![6000, 1]⟩
abbrev S1 : Shape := ⟨1, ![1]⟩
abbrev S1x1600 : Shape := ⟨2, ![1, 1600]⟩
abbrev S1600 : Shape := ⟨1, ![1600]⟩
abbrev S_ : Shape := ⟨0, ![]⟩
abbrev S1600x1 : Shape := ⟨2, ![1600, 1]⟩
abbrev S100x100 : Shape := ⟨2, ![100, 100]⟩
abbrev S1600x2 : Shape := ⟨2, ![1600, 2]⟩
abbrev S3 : Shape := ⟨1, ![3]⟩
abbrev S3x1 : Shape := ⟨2, ![3, 1]⟩
abbrev S1x60 : Shape := ⟨2, ![1, 60]⟩
abbrev S2x60 : Shape := ⟨2, ![2, 60]⟩
abbrev S2x1x60 : Shape := ⟨3, ![2, 1, 60]⟩
abbrev S2x100x60 : Shape := ⟨3, ![2, 100, 60]⟩
abbrev S100x4096 : Shape := ⟨2, ![100, 4096]⟩
abbrev S3x4096x60 : Shape := ⟨3, ![3, 4096, 60]⟩
abbrev S1x1x60 : Shape := ⟨3, ![1, 1, 60]⟩
abbrev S1x100x60 : Shape := ⟨3, ![1, 100, 60]⟩
abbrev S100x60 : Shape := ⟨2, ![100, 60]⟩
abbrev S1x4096x60 : Shape := ⟨3, ![1, 4096, 60]⟩
abbrev S4096x60 : Shape := ⟨2, ![4096, 60]⟩
abbrev S1x6000 : Shape := ⟨2, ![1, 6000]⟩
abbrev S1x100 : Shape := ⟨2, ![1, 100]⟩
abbrev S1x1 : Shape := ⟨2, ![1, 1]⟩

abbrev nBuf : Space → Nat
  | .hbm => 111
  | .vmem => 11
  | .smem => 0
  | _ => 0

abbrev bufTy : (tb : Table) → Fin (tcTables nBuf tb) → BufTy
  | .hbm, ⟨0, _⟩ => ⟨S100x65536, .f32⟩
  | .hbm, ⟨1, _⟩ => ⟨S2x1600, .i32⟩
  | .hbm, ⟨2, _⟩ => ⟨S1x3, .f32⟩
  | .hbm, ⟨3, _⟩ => ⟨S3x65536x60, .f32⟩
  | .hbm, ⟨4, _⟩ => ⟨S60, .f32⟩
  | .hbm, ⟨5, _⟩ => ⟨S3x65536x60, .f32⟩
  | .hbm, ⟨6, _⟩ => ⟨S60, .f32⟩
  | .hbm, ⟨7, _⟩ => ⟨S3x60, .f32⟩
  | .hbm, ⟨8, _⟩ => ⟨S3x60, .f32⟩
  | .hbm, ⟨9, _⟩ => ⟨S3x60, .f32⟩
  | .hbm, ⟨10, _⟩ => ⟨S3x60, .f32⟩
  | .hbm, ⟨11, _⟩ => ⟨S6000x100, .f32⟩
  | .hbm, ⟨12, _⟩ => ⟨S100, .f32⟩
  | .hbm, ⟨13, _⟩ => ⟨S6000x1, .f32⟩
  | .hbm, ⟨14, _⟩ => ⟨S1, .f32⟩
  | .hbm, ⟨15, _⟩ => ⟨S1x1600, .i32⟩
  | .hbm, ⟨16, _⟩ => ⟨S1600, .i32⟩
  | .hbm, ⟨17, _⟩ => ⟨S1x1600, .i32⟩
  | .hbm, ⟨18, _⟩ => ⟨S1600, .i32⟩
  | .hbm, ⟨19, _⟩ => ⟨S_, .f32⟩
  | .hbm, ⟨20, _⟩ => ⟨S1600, .f32⟩
  | .hbm, ⟨21, _⟩ => ⟨S_, .f32⟩
  | .hbm, ⟨22, _⟩ => ⟨S100, .f32⟩
  | .hbm, ⟨23, _⟩ => ⟨S1600x1, .i32⟩
  | .hbm, ⟨24, _⟩ => ⟨S100, .f32⟩
  | .hbm, ⟨25, _⟩ => ⟨S_, .f32⟩
  | .hbm, ⟨26, _⟩ => ⟨S100, .f32⟩
  | .hbm, ⟨27, _⟩ => ⟨S100, .i1⟩
  | .hbm, ⟨28, _⟩ => ⟨S_, .f32⟩
  | .hbm, ⟨29, _⟩ => ⟨S100, .f32⟩
  | .hbm, ⟨30, _⟩ => ⟨S100, .f32⟩
  | .hbm, ⟨31, _⟩ => ⟨S100, .f32⟩
  | .hbm, ⟨32, _⟩ => ⟨S_, .f32⟩
  | .hbm, ⟨33, _⟩ => ⟨S_, .f32⟩
  | .hbm, ⟨34, _⟩ => ⟨S100, .f32⟩
  | .hbm, ⟨35, _⟩ => ⟨S100, .f32⟩
  | .hbm, ⟨36, _⟩ => ⟨S_, .i32⟩
  | .hbm, ⟨37, _⟩ => ⟨S1600, .i32⟩
  | .hbm, ⟨38, _⟩ => ⟨S1600, .i1⟩
  | .hbm, ⟨39, _⟩ => ⟨S_, .i32⟩
  | .hbm, ⟨40, _⟩ => ⟨S1600, .i32⟩
  | .hbm, ⟨41, _⟩ => ⟨S1600, .i32⟩
  | .hbm, ⟨42, _⟩ => ⟨S1600, .i32⟩
  | .hbm, ⟨43, _⟩ => ⟨S1600x1, .i32⟩
  | .hbm, ⟨44, _⟩ => ⟨S1600, .f32⟩
  | .hbm, ⟨45, _⟩ => ⟨S1600, .f32⟩
  | .hbm, ⟨46, _⟩ => ⟨S_, .i32⟩
  | .hbm, ⟨47, _⟩ => ⟨S1600, .i32⟩
  | .hbm, ⟨48, _⟩ => ⟨S1600, .i1⟩
  | .hbm, ⟨49, _⟩ => ⟨S_, .i32⟩
  | .hbm, ⟨50, _⟩ => ⟨S1600, .i32⟩
  | .hbm, ⟨51, _⟩ => ⟨S1600, .i32⟩
  | .hbm, ⟨52, _⟩ => ⟨S1600, .i32⟩
  | .hbm, ⟨53, _⟩ => ⟨S1600x1, .i32⟩
  | .hbm, ⟨54, _⟩ => ⟨S1600, .f32⟩
  | .hbm, ⟨55, _⟩ => ⟨S1600, .f32⟩
  | .hbm, ⟨56, _⟩ => ⟨S_, .f32⟩
  | .hbm, ⟨57, _⟩ => ⟨S100x100, .f32⟩
  | .hbm, ⟨58, _⟩ => ⟨S_, .i32⟩
  | .hbm, ⟨59, _⟩ => ⟨S1600, .i32⟩
  | .hbm, ⟨60, _⟩ => ⟨S1600, .i1⟩
  | .hbm, ⟨61, _⟩ => ⟨S_, .i32⟩
  | .hbm, ⟨62, _⟩ => ⟨S1600, .i32⟩
  | .hbm, ⟨63, _⟩ => ⟨S1600, .i32⟩
  | .hbm, ⟨64, _⟩ => ⟨S1600, .i32⟩
  | .hbm, ⟨65, _⟩ => ⟨S_, .i32⟩
  | .hbm, ⟨66, _⟩ => ⟨S1600, .i32⟩
  | .hbm, ⟨67, _⟩ => ⟨S1600, .i1⟩
  | .hbm, ⟨68, _⟩ => ⟨S_, .i32⟩
  | .hbm, ⟨69, _⟩ => ⟨S1600, .i32⟩
  | .hbm, ⟨70, _⟩ => ⟨S1600, .i32⟩
  | .hbm, ⟨71, _⟩ => ⟨S1600, .i32⟩
  | .hbm, ⟨72, _⟩ => ⟨S1600x1, .i32⟩
  | .hbm, ⟨73, _⟩ => ⟨S1600x1, .i32⟩
  | .hbm, ⟨74, _⟩ => ⟨S1600x2, .i32⟩
  | .hbm, ⟨75, _⟩ => ⟨S100x100, .f32⟩
  | .hbm, ⟨76, _⟩ => ⟨S100x100, .bf16⟩
  | .hbm, ⟨77, _⟩ => ⟨S3, .f32⟩
  | .hbm, ⟨78, _⟩ => ⟨S3x1, .f32⟩
  | .hbm, ⟨79, _⟩ => ⟨S3x60, .f32⟩
  | .hbm, ⟨80, _⟩ => ⟨S3x60, .f32⟩
  | .hbm, ⟨81, _⟩ => ⟨S3x60, .f32⟩
  | .hbm, ⟨82, _⟩ => ⟨S_, .f32⟩
  | .hbm, ⟨83, _⟩ => ⟨S60, .f32⟩
  | .hbm, ⟨84, _⟩ => ⟨S3x1, .f32⟩
  | .hbm, ⟨85, _⟩ => ⟨S3x60, .f32⟩
  | .hbm, ⟨86, _⟩ => ⟨S3x60, .f32⟩
  | .hbm, ⟨87, _⟩ => ⟨S3x60, .f32⟩
  | .hbm, ⟨88, _⟩ => ⟨S_, .f32⟩
  | .hbm, ⟨89, _⟩ => ⟨S60, .f32⟩
  | .hbm, ⟨90, _⟩ => ⟨S1x60, .f32⟩
  | .hbm, ⟨91, _⟩ => ⟨S1x60, .f32⟩
  | .hbm, ⟨92, _⟩ => ⟨S2x60, .f32⟩
  | .hbm, ⟨93, _⟩ => ⟨S2x1x60, .f32⟩
  | .hbm, ⟨94, _⟩ => ⟨S1x60, .f32⟩
  | .hbm, ⟨95, _⟩ => ⟨S1x60, .f32⟩
  | .hbm, ⟨96, _⟩ => ⟨S2x60, .f32⟩
  | .hbm, ⟨97, _⟩ => ⟨S2x1x60, .f32⟩
  | .hbm, ⟨98, _⟩ => ⟨S2x100x60, .f32⟩
  | .hbm, ⟨99, _⟩ => ⟨S1x100x60, .f32⟩
  | .hbm, ⟨100, _⟩ => ⟨S100x60, .f32⟩
  | .hbm, ⟨101, _⟩ => ⟨S1x100x60, .f32⟩
  | .hbm, ⟨102, _⟩ => ⟨S100x60, .f32⟩
  | .hbm, ⟨103, _⟩ => ⟨S1x6000, .f32⟩
  | .hbm, ⟨104, _⟩ => ⟨S1x100, .f32⟩
  | .hbm, ⟨105, _⟩ => ⟨S1x100, .f32⟩
  | .hbm, ⟨106, _⟩ => ⟨S1x100, .f32⟩
  | .hbm, ⟨107, _⟩ => ⟨S1x6000, .f32⟩
  | .hbm, ⟨108, _⟩ => ⟨S1x1, .f32⟩
  | .hbm, ⟨109, _⟩ => ⟨S1x1, .f32⟩
  | .hbm, ⟨110, _⟩ => ⟨S1x1, .f32⟩
  | .local _ .vmem, ⟨0, _⟩ => ⟨S100x4096, .f32⟩
  | .local _ .vmem, ⟨1, _⟩ => ⟨S100x4096, .f32⟩
  | .local _ .vmem, ⟨2, _⟩ => ⟨S100x100, .bf16⟩
  | .local _ .vmem, ⟨3, _⟩ => ⟨S3x4096x60, .f32⟩
  | .local _ .vmem, ⟨4, _⟩ => ⟨S3x4096x60, .f32⟩
  | .local _ .vmem, ⟨5, _⟩ => ⟨S3x4096x60, .f32⟩
  | .local _ .vmem, ⟨6, _⟩ => ⟨S3x4096x60, .f32⟩
  | .local _ .vmem, ⟨7, _⟩ => ⟨S1x1x60, .f32⟩
  | .local _ .vmem, ⟨8, _⟩ => ⟨S1x1x60, .f32⟩
  | .local _ .vmem, ⟨9, _⟩ => ⟨S1x100x60, .f32⟩
  | .local _ .vmem, ⟨10, _⟩ => ⟨S1x100x60, .f32⟩
  | _, _ => ⟨S100x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v13 : Ref sig .tc := ⟨.hbm, 35, rfl⟩
abbrev main_c : Ref sig .tc := ⟨.hbm, 36, rfl⟩
abbrev main_v14 : Ref sig .tc := ⟨.hbm, 37, rfl⟩
abbrev main_v15 : Ref sig .tc := ⟨.hbm, 38, rfl⟩
abbrev main_c_4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_5 : Ref sig .tc := ⟨.hbm, 46, rfl⟩
abbrev main_v22 : Ref sig .tc := ⟨.hbm, 47, rfl⟩
abbrev main_v23 : Ref sig .tc := ⟨.hbm, 48, rfl⟩
abbrev main_c_6 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_7 : Ref sig .tc := ⟨.hbm, 56, rfl⟩
abbrev main_v30 : Ref sig .tc := ⟨.hbm, 57, rfl⟩
abbrev main_c_8 : Ref sig .tc := ⟨.hbm, 58, rfl⟩
abbrev main_v31 : Ref sig .tc := ⟨.hbm, 59, rfl⟩
abbrev main_v32 : Ref sig .tc := ⟨.hbm, 60, rfl⟩
abbrev main_c_9 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_c_10 : Ref sig .tc := ⟨.hbm, 65, rfl⟩
abbrev main_v36 : Ref sig .tc := ⟨.hbm, 66, rfl⟩
abbrev main_v37 : Ref sig .tc := ⟨.hbm, 67, rfl⟩
abbrev main_c_11 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_12 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_13 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_6 : BitVec 32 := 0#32
  let v14 : BitVec 1 := Scalar.cmpi .eq arg0 c0_i32_6
  let v15 : BitVec 32 := Scalar.extui v14
  let c0_i32_7 : BitVec 32 := 0#32
  let v16 : BitVec 1 := Scalar.cmpi .ne v15 c0_i32_7
  v16

def k0_cond3 (i : grid0.Coords) : BitVec 1 :=
  let arg0 : BitVec 32 := BitVec.ofNat 32 (i 0).val
  let c1_i32 : BitVec 32 := 1#32
  let v17 : BitVec 1 := Scalar.cmpi .eq arg0 c1_i32
  let v18 : BitVec 32 := Scalar.extui v17
  let c0_i32_8 : BitVec 32 := 0#32
  let v19 : BitVec 1 := Scalar.cmpi .ne v18 c0_i32_8
  v19

def k0_cond4 (i : grid0.Coords) : BitVec 1 :=
  let arg1 : BitVec 32 := BitVec.ofNat 32 (i 1).val
  let c15_i32 : BitVec 32 := 15#32
  let v20 : BitVec 1 := Scalar.cmpi .eq arg1 c15_i32
  let v21 : BitVec 32 := Scalar.extui v20
  let c0_i32_9 : BitVec 32 := 0#32
  let v22 : BitVec 1 := Scalar.cmpi .ne v21 c0_i32_9
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S100x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S100x100 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S3x4096x60 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x4096x60 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1x60 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1x60 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1x100x60 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S2x1600_S1x1600_0_0 : S2x1600.Slices ![0, 0] S1x1600
  shapeCasts_S1x1600_S1600 : S1x1600.ShapeCasts S1600
  slices_S2x1600_S1x1600_1_0 : S2x1600.Slices ![1, 0] S1x1600
  bcast_S_S1600 : S_.BroadcastsInDim S1600 (![] : Fin 0 → Fin S1600.rank)
  bcast_S_S100 : S_.BroadcastsInDim S100 (![] : Fin 0 → Fin S100.rank)
  bcast_S1600_S1600x1_0 : S1600.BroadcastsInDim S1600x1 (![0] : Fin 1 → Fin S1600x1.rank)
  bcast_S_S100x100 : S_.BroadcastsInDim S100x100 (![] : Fin 0 → Fin S100x100.rank)
  concatenates_S1600x1_S1600x1_S1600x2_d1 : Shape.Concatenates [S1600x1, S1600x1] S1600x2 1
  bitsLt_bf16_f32 : FTy.bits .bf16 < FTy.bits .f32
  shapeCasts_S1x3_S3 : S1x3.ShapeCasts S3
  bcast_S3_S3x1_0 : S3.BroadcastsInDim S3x1 (![0] : Fin 1 → Fin S3x1.rank)
  bcast_S3x1_S3x60_0_1 : S3x1.BroadcastsInDim S3x60 (![0, 1] : Fin 2 → Fin S3x60.rank)
  reducesTo_S3x60_S60_d0 : S3x60.ReducesTo [0] S60
  h_S_ : 0 < S_.numel
  bcast_S60_S1x60_1 : S60.BroadcastsInDim S1x60 (![1] : Fin 1 → Fin S1x60.rank)
  concatenates_S1x60_S1x60_S2x60_d0 : Shape.Concatenates [S1x60, S1x60] S2x60 0
  bcast_S2x60_S2x1x60_0_2 : S2x60.BroadcastsInDim S2x1x60 (![0, 2] : Fin 2 → Fin S2x1x60.rank)
  inb_S1x100x60_S1x100x60_0_0_0 : ∀ a, (![0, 0, 0] : Fin 3 → Nat) a + S1x100x60.size a ≤ S1x100x60.size a
  h_S1x100x60 : 0 < S1x100x60.numel
  shapeCasts_S1x100x60_S100x60 : S1x100x60.ShapeCasts S100x60
  shapeCasts_S100x60_S1x100x60 : S100x60.ShapeCasts S1x100x60
  inb_S100x4096_S100x4096_0_0 : ∀ a, (![0, 0] : Fin 2 → Nat) a + S100x4096.size a ≤ S100x4096.size a
  h_S100x4096 : 0 < S100x4096.numel
  inb_S100x100_S100x100_0_0 : ∀ a, (![0, 0] : Fin 2 → Nat) a + S100x100.size a ≤ S100x100.size a
  h_S100x100 : 0 < S100x100.numel
  shapeCasts_S100x100_S100x100 : S100x100.ShapeCasts S100x100
  inb_S3x4096x60_S1x4096x60_0_0_0 : ∀ a, (![0, 0, 0] : Fin 3 → Nat) a + S1x4096x60.size a ≤ S3x4096x60.size a
  h_S1x4096x60 : 0 < S1x4096x60.numel
  shapeCasts_S1x4096x60_S4096x60 : S1x4096x60.ShapeCasts S4096x60
  inb_S3x4096x60_S1x4096x60_1_0_0 : ∀ a, (![1, 0, 0] : Fin 3 → Nat) a + S1x4096x60.size a ≤ S3x4096x60.size a
  inb_S3x4096x60_S1x4096x60_2_0_0 : ∀ a, (![2, 0, 0] : Fin 3 → Nat) a + S1x4096x60.size a ≤ S3x4096x60.size a
  inb_S1x1x60_S1x1x60_0_0_0 : ∀ a, (![0, 0, 0] : Fin 3 → Nat) a + S1x1x60.size a ≤ S1x1x60.size a
  h_S1x1x60 : 0 < S1x1x60.numel
  shapeCasts_S1x1x60_S1x60 : S1x1x60.ShapeCasts S1x60
  broadcasts_S1x60_S100x60 : S1x60.Broadcasts S100x60
  slices_S2x100x60_S1x100x60_0_0_0 : S2x100x60.Slices ![0, 0, 0] S1x100x60
  slices_S2x100x60_S1x100x60_1_0_0 : S2x100x60.Slices ![1, 0, 0] S1x100x60
  shapeCasts_S100x60_S1x6000 : S100x60.ShapeCasts S1x6000
  bcast_S100_S1x100_1 : S100.BroadcastsInDim S1x100 (![1] : Fin 1 → Fin S1x100.rank)
  bcast_S1_S1x1_1 : S1.BroadcastsInDim S1x1 (![1] : Fin 1 → Fin S1x1.rank)
  scatter_S100_S1600x1_S1600_n_0_0_1_wf : ScatterDims.WF S100 S1600x1 S1600 [] [0] [0] 1
  gather_S100_S1600x1_S1600_n_0_n_n_0_1_1_wf : GatherDims.WF S100 S1600x1 S1600 [] [0] [] [0] [] 1 ![1]
  scatter_S100x100_S1600x2_S1600_n_01_01_1_wf : ScatterDims.WF S100x100 S1600x2 S1600 [] [0, 1] [0, 1] 1
  dot_S100x100_S100x4096_S100x4096_1_0_0_1_n_n_wf : DotDims.WF S100x100 S100x4096 S100x4096 [1] [0] [0] [1] [] []
  dot_S100x4096_S4096x60_S100x60_1_0_0_1_n_n_wf : DotDims.WF S100x4096 S4096x60 S100x60 [1] [0] [0] [1] [] []
  dot_S1x6000_S6000x100_S1x100_1_0_0_1_n_n_wf : DotDims.WF S1x6000 S6000x100 S1x100 [1] [0] [0] [1] [] []
  dot_S1x6000_S6000x1_S1x1_1_0_0_1_n_n_wf : DotDims.WF S1x6000 S6000x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S100x4096.size a ≤ S100x65536.size a
  hwx0_0 : ∀ i : grid0.Coords, EltTy.bits .f32 = 32 ∨ (Rect.block (s := S100x65536) S100x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x100.size a ≤ S100x100.size a
  hwx0_1 : ∀ i : grid0.Coords, EltTy.bits .bf16 = 32 ∨ (Rect.block (s := S100x100) S100x100.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x4096x60.size a ≤ S3x65536x60.size a
  hwx0_2 : ∀ i : grid0.Coords, EltTy.bits .f32 = 32 ∨ (Rect.block (s := S3x65536x60) S3x4096x60.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x4096x60.size a ≤ S3x65536x60.size a
  hwx0_3 : ∀ i : grid0.Coords, EltTy.bits .f32 = 32 ∨ (Rect.block (s := S3x65536x60) S3x4096x60.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x60.size a ≤ S2x1x60.size a
  hwx0_4 : ∀ i : grid0.Coords, EltTy.bits .f32 = 32 ∨ (Rect.block (s := S2x1x60) S1x1x60.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1x60.size a ≤ S2x1x60.size a
  hwx0_5 : ∀ i : grid0.Coords, EltTy.bits .f32 = 32 ∨ (Rect.block (s := S2x1x60) S1x1x60.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x100x60.size a ≤ S2x100x60.size a
  hwx0_6 : ∀ i : grid0.Coords, EltTy.bits .f32 = 32 ∨ (Rect.block (s := S2x100x60) S1x100x60.size (cc0_transform_6 i) (hinb0_6 i)).WholeWords (EltTy.packing .f32)

variable [Facts₀]

def scatter_S100_S1600x1_S1600_n_0_0_1 : ScatterDims S100 S1600x1 S1600 where
  updateWindowDims := []
  insertedWindowDims := [0]
  scatterDimsToOperandDims := [0]
  indexVectorDim := 1
  wf := scatter_S100_S1600x1_S1600_n_0_0_1_wf
def gather_S100_S1600x1_S1600_n_0_n_n_0_1_1 : GatherDims S100 S1600x1 S1600 where
  offsetDims := []
  collapsedSliceDims := [0]
  operandBatchingDims := []
  startIndicesBatchingDims := []
  startIndexMap := [0]
  indexVectorDim := 1
  sliceSizes := ![1]
  wf := gather_S100_S1600x1_S1600_n_0_n_n_0_1_1_wf
def scatter_S100x100_S1600x2_S1600_n_01_01_1 : ScatterDims S100x100 S1600x2 S1600 where
  updateWindowDims := []
  insertedWindowDims := [0, 1]
  scatterDimsToOperandDims := [0, 1]
  indexVectorDim := 1
  wf := scatter_S100x100_S1600x2_S1600_n_01_01_1_wf
def dot_S100x100_S100x4096_S100x4096_1_0_0_1_n_n : DotDims S100x100 S100x4096 S100x4096 where
  lhsContracting := [1]
  rhsContracting := [0]
  lhsNonContracting := [0]
  rhsNonContracting := [1]
  lhsBatch := []
  rhsBatch := []
  wf := dot_S100x100_S100x4096_S100x4096_1_0_0_1_n_n_wf
def dot_S100x4096_S4096x60_S100x60_1_0_0_1_n_n : DotDims S100x4096 S4096x60 S100x60 where
  lhsContracting := [1]
  rhsContracting := [0]
  lhsNonContracting := [0]
  rhsNonContracting := [1]
  lhsBatch := []
  rhsBatch := []
  wf := dot_S100x4096_S4096x60_S100x60_1_0_0_1_n_n_wf
def dot_S1x6000_S6000x100_S1x100_1_0_0_1_n_n : DotDims S1x6000 S6000x100 S1x100 where
  lhsContracting := [1]
  rhsContracting := [0]
  lhsNonContracting := [0]
  rhsNonContracting := [1]
  lhsBatch := []
  rhsBatch := []
  wf := dot_S1x6000_S6000x100_S1x100_1_0_0_1_n_n_wf
def dot_S1x6000_S6000x1_S1x1_1_0_0_1_n_n : DotDims S1x6000 S6000x1 S1x1 where
  lhsContracting := [1]
  rhsContracting := [0]
  lhsNonContracting := [0]
  rhsNonContracting := [1]
  lhsBatch := []
  rhsBatch := []
  wf := dot_S1x6000_S6000x1_S1x1_1_0_0_1_n_n_wf

abbrev win0_0 : Pipeline.Window sig grid0 :=
  Pipeline.Window.ofSpec (Memref.whole main_arg0) S100x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S100x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3x4096x60.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S3x4096x60.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v60) S1x1x60.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v64) S1x1x60.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v65) S1x100x60.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond1 i == 1#1) && !(k0_cond2 i == 1#1) && !(k0_cond3 i == 1#1) && !(k0_cond4 i == 1#1) | ⟨_ + 7, h⟩ => absurd h (Nat.not_lt.2 (Nat.le_add_left _ _))

class Facts : Prop extends Facts₀ where

variable [Facts]
-- ==== ReferenceIdeal.lean ====
abbrev S100x65536 : Shape := ⟨2, ![100, 65536]⟩
abbrev S2x1600 : Shape := ⟨2, ![2, 1600]⟩
abbrev S1x3 : Shape := ⟨2, ![1, 3]⟩
abbrev S3x65536x60 : Shape := ⟨3, ![3, 65536, 60]⟩
abbrev S60 : Shape := ⟨1, ![60]⟩
abbrev S3x60 : Shape := ⟨2, ![3, 60]⟩
abbrev S6000x100 : Shape := ⟨2, ![6000, 100]⟩
abbrev S100 : Shape := ⟨1, ![100]⟩
abbrev S6000x1 : Shape := ⟨2, ![6000, 1]⟩
abbrev S1 : Shape := ⟨1, ![1]⟩
abbrev S1x1600 : Shape := ⟨2, ![1, 1600]⟩
abbrev S1600 : Shape := ⟨1, ![1600]⟩
abbrev S3 : Shape := ⟨1, ![3]⟩
abbrev S_ : Shape := ⟨0, ![]⟩
abbrev S1600x1 : Shape := ⟨2, ![1600, 1]⟩
abbrev S1600x65536 : Shape := ⟨2, ![1600, 65536]⟩
abbrev S1x65536x60 : Shape := ⟨3, ![1, 65536, 60]⟩
abbrev S65536x60 : Shape := ⟨2, ![65536, 60]⟩
abbrev S100x60 : Shape := ⟨2, ![100, 60]⟩
abbrev S1x60 : Shape := ⟨2, ![1, 60]⟩
abbrev S3x1 : Shape := ⟨2, ![3, 1]⟩
abbrev S1x6000 : Shape := ⟨2, ![1, 6000]⟩
abbrev S1x100 : Shape := ⟨2, ![1, 100]⟩
abbrev S1x1 : Shape := ⟨2, ![1, 1]⟩

abbrev nBuf : Space → Nat
  | .hbm => 222
  | .vmem => 0
  | .smem => 0
  | _ => 0

abbrev hbmTy0_0 (i : Nat) : BufTy := match i % 128 with
  | 0 => ⟨S100x65536, .f32⟩
  | 1 => ⟨S2x1600, .i32⟩
  | 2 => ⟨S1x3, .f32⟩
  | 3 => ⟨S3x65536x60, .f32⟩
  | 4 => ⟨S60, .f32⟩
  | 5 => ⟨S3x65536x60, .f32⟩
  | 6 => ⟨S60, .f32⟩
  | 7 => ⟨S3x60, .f32⟩
  | 8 => ⟨S3x60, .f32⟩
  | 9 => ⟨S3x60, .f32⟩
  | 10 => ⟨S3x60, .f32⟩
  | 11 => ⟨S6000x100, .f32⟩
  | 12 => ⟨S100, .f32⟩
  | 13 => ⟨S6000x1, .f32⟩
  | 14 => ⟨S1, .f32⟩
  | 15 => ⟨S1x1600, .i32⟩
  | 16 => ⟨S1600, .i32⟩
  | 17 => ⟨S1x1600, .i32⟩
  | 18 => ⟨S1600, .i32⟩
  | 19 => ⟨S3, .f32⟩
  | 20 => ⟨S_, .f32⟩
  | 21 => ⟨S1600, .f32⟩
  | 22 => ⟨S_, .f32⟩
  | 23 => ⟨S100, .f32⟩
  | 24 => ⟨S1600x1, .i32⟩
  | 25 => ⟨S100, .f32⟩
  | 26 => ⟨S_, .f32⟩
  | 27 => ⟨S100, .f32⟩
  | 28 => ⟨S100, .i1⟩
  | 29 => ⟨S_, .f32⟩
  | 30 => ⟨S100, .f32⟩
  | 31 => ⟨S100, .f32⟩
  | 32 => ⟨S100, .f32⟩
  | 33 => ⟨S_, .f32⟩
  | 34 => ⟨S_, .f32⟩
  | 35 => ⟨S100, .f32⟩
  | 36 => ⟨S100, .f32⟩
  | 37 => ⟨S_, .i32⟩
  | 38 => ⟨S1600, .i32⟩
  | 39 => ⟨S1600, .i1⟩
  | 40 => ⟨S_, .i32⟩
  | 41 => ⟨S1600, .i32⟩
  | 42 => ⟨S1600, .i32⟩
  | 43 => ⟨S1600, .i32⟩
  | 44 => ⟨S1600x1, .i32⟩
  | 45 => ⟨S1600, .f32⟩
  | 46 => ⟨S1600, .f32⟩
  | 47 => ⟨S_, .i32⟩
  | 48 => ⟨S1600, .i32⟩
  | 49 => ⟨S1600, .i1⟩
  | 50 => ⟨S_, .i32⟩
  | 51 => ⟨S1600, .i32⟩
  | 52 => ⟨S1600, .i32⟩
  | 53 => ⟨S1600, .i32⟩
  | 54 => ⟨S1600x1, .i32⟩
  | 55 => ⟨S1600, .f32⟩
  | 56 => ⟨S1600, .f32⟩
  | 57 => ⟨S1600x1, .f32⟩
  | 58 => ⟨S_, .i32⟩
  | 59 => ⟨S1600, .i32⟩
  | 60 => ⟨S1600, .i1⟩
  | 61 => ⟨S_, .i32⟩
  | 62 => ⟨S1600, .i32⟩
  | 63 => ⟨S1600, .i32⟩
  | 64 => ⟨S1600, .i32⟩
  | 65 => ⟨S1600x1, .i32⟩
  | 66 => ⟨S1600x65536, .f32⟩
  | 67 => ⟨S1600x65536, .f32⟩
  | 68 => ⟨S1600x65536, .f32⟩
  | 69 => ⟨S_, .f32⟩
  | 70 => ⟨S100x65536, .f32⟩
  | 71 => ⟨S1600x1, .i32⟩
  | 72 => ⟨S100x65536, .f32⟩
  | 73 => ⟨S1600x1, .f32⟩
  | 74 => ⟨S_, .i32⟩
  | 75 => ⟨S1600, .i32⟩
  | 76 => ⟨S1600, .i1⟩
  | 77 => ⟨S_, .i32⟩
  | 78 => ⟨S1600, .i32⟩
  | 79 => ⟨S1600, .i32⟩
  | 80 => ⟨S1600, .i32⟩
  | 81 => ⟨S1600x1, .i32⟩
  | 82 => ⟨S1600x65536, .f32⟩
  | 83 => ⟨S1600x65536, .f32⟩
  | 84 => ⟨S1600x65536, .f32⟩
  | 85 => ⟨S_, .f32⟩
  | 86 => ⟨S100x65536, .f32⟩
  | 87 => ⟨S1600x1, .i32⟩
  | 88 => ⟨S100x65536, .f32⟩
  | 89 => ⟨S_, .f32⟩
  | 90 => ⟨S100x65536, .f32⟩
  | 91 => ⟨S100x65536, .f32⟩
  | 92 => ⟨S100x65536, .f32⟩
  | 93 => ⟨S1x65536x60, .f32⟩
  | 94 => ⟨S65536x60, .f32⟩
  | 95 => ⟨S100x60, .f32⟩
  | 96 => ⟨S1x65536x60, .f32⟩
  | 97 => ⟨S65536x60, .f32⟩
  | 98 => ⟨S100x60, .f32⟩
  | 99 => ⟨S100x60, .f32⟩
  | 100 => ⟨S1x65536x60, .f32⟩
  | 101 => ⟨S65536x60, .f32⟩
  | 102 => ⟨S100x60, .f32⟩
  | 103 => ⟨S100x60, .f32⟩
  | 104 => ⟨S1x60, .f32⟩
  | 105 => ⟨S100x60, .f32⟩
  | 106 => ⟨S100x60, .f32⟩
  | 107 => ⟨S100x60, .f32⟩
  | 108 => ⟨S3x1, .f32⟩
  | 109 => ⟨S3x60, .f32⟩
  | 110 => ⟨S3x60, .f32⟩
  | 111 => ⟨S3x60, .f32⟩
  | 112 => ⟨S_, .f32⟩
  | 113 => ⟨S60, .f32⟩
  | 114 => ⟨S1x60, .f32⟩
  | 115 => ⟨S100x60, .f32⟩
  | 116 => ⟨S100x60, .f32⟩
  | 117 => ⟨S1x6000, .f32⟩
  | 118 => ⟨S1x100, .f32⟩
  | 119 => ⟨S1x100, .f32⟩
  | 120 => ⟨S1x100, .f32⟩
  | 121 => ⟨S_, .f32⟩
  | 122 => ⟨S1600, .f32⟩
  | 123 => ⟨S_, .f32⟩
  | 124 => ⟨S100, .f32⟩
  | 125 => ⟨S1600x1, .i32⟩
  | 126 => ⟨S100, .f32⟩
  | 127 => ⟨S_, .f32⟩
  | _ => ⟨S100x65536, .f32⟩

abbrev hbmTy0_1 (i : Nat) : BufTy := match i % 128 with
  | 0 => ⟨S100, .f32⟩
  | 1 => ⟨S100, .i1⟩
  | 2 => ⟨S_, .f32⟩
  | 3 => ⟨S100, .f32⟩
  | 4 => ⟨S100, .f32⟩
  | 5 => ⟨S100, .f32⟩
  | 6 => ⟨S_, .f32⟩
  | 7 => ⟨S_, .f32⟩
  | 8 => ⟨S100, .f32⟩
  | 9 => ⟨S100, .f32⟩
  | 10 => ⟨S_, .i32⟩
  | 11 => ⟨S1600, .i32⟩
  | 12 => ⟨S1600, .i1⟩
  | 13 => ⟨S_, .i32⟩
  | 14 => ⟨S1600, .i32⟩
  | 15 => ⟨S1600, .i32⟩
  | 16 => ⟨S1600, .i32⟩
  | 17 => ⟨S1600x1, .i32⟩
  | 18 => ⟨S1600, .f32⟩
  | 19 => ⟨S1600, .f32⟩
  | 20 => ⟨S_, .i32⟩
  | 21 => ⟨S1600, .i32⟩
  | 22 => ⟨S1600, .i1⟩
  | 23 => ⟨S_, .i32⟩
  | 24 => ⟨S1600, .i32⟩
  | 25 => ⟨S1600, .i32⟩
  | 26 => ⟨S1600, .i32⟩
  | 27 => ⟨S1600x1, .i32⟩
  | 28 => ⟨S1600, .f32⟩
  | 29 => ⟨S1600, .f32⟩
  | 30 => ⟨S1600x1, .f32⟩
  | 31 => ⟨S_, .i32⟩
  | 32 => ⟨S1600, .i32⟩
  | 33 => ⟨S1600, .i1⟩
  | 34 => ⟨S_, .i32⟩
  | 35 => ⟨S1600, .i32⟩
  | 36 => ⟨S1600, .i32⟩
  | 37 => ⟨S1600, .i32⟩
  | 38 => ⟨S1600x1, .i32⟩
  | 39 => ⟨S1600x65536, .f32⟩
  | 40 => ⟨S1600x65536, .f32⟩
  | 41 => ⟨S1600x65536, .f32⟩
  | 42 => ⟨S_, .f32⟩
  | 43 => ⟨S100x65536, .f32⟩
  | 44 => ⟨S1600x1, .i32⟩
  | 45 => ⟨S100x65536, .f32⟩
  | 46 => ⟨S1600x1, .f32⟩
  | 47 => ⟨S_, .i32⟩
  | 48 => ⟨S1600, .i32⟩
  | 49 => ⟨S1600, .i1⟩
  | 50 => ⟨S_, .i32⟩
  | 51 => ⟨S1600, .i32⟩
  | 52 => ⟨S1600, .i32⟩
  | 53 => ⟨S1600, .i32⟩
  | 54 => ⟨S1600x1, .i32⟩
  | 55 => ⟨S1600x65536, .f32⟩
  | 56 => ⟨S1600x65536, .f32⟩
  | 57 => ⟨S1600x65536, .f32⟩
  | 58 => ⟨S_, .f32⟩
  | 59 => ⟨S100x65536, .f32⟩
  | 60 => ⟨S1600x1, .i32⟩
  | 61 => ⟨S100x65536, .f32⟩
  | 62 => ⟨S_, .f32⟩
  | 63 => ⟨S100x65536, .f32⟩
  | 64 => ⟨S100x65536, .f32⟩
  | 65 => ⟨S100x65536, .f32⟩
  | 66 => ⟨S1x65536x60, .f32⟩
  | 67 => ⟨S65536x60, .f32⟩
  | 68 => ⟨S100x60, .f32⟩
  | 69 => ⟨S1x65536x60, .f32⟩
  | 70 => ⟨S65536x60, .f32⟩
  | 71 => ⟨S100x60, .f32⟩
  | 72 => ⟨S100x60, .f32⟩
  | 73 => ⟨S1x65536x60, .f32⟩
  | 74 => ⟨S65536x60, .f32⟩
  | 75 => ⟨S100x60, .f32⟩
  | 76 => ⟨S100x60, .f32⟩
  | 77 => ⟨S1x60, .f32⟩
  | 78 => ⟨S100x60, .f32⟩
  | 79 => ⟨S100x60, .f32⟩
  | 80 => ⟨S100x60, .f32⟩
  | 81 => ⟨S3x1, .f32⟩
  | 82 => ⟨S3x60, .f32⟩
  | 83 => ⟨S3x60, .f32⟩
  | 84 => ⟨S3x60, .f32⟩
  | 85 => ⟨S_, .f32⟩
  | 86 => ⟨S60, .f32⟩
  | 87 => ⟨S1x60, .f32⟩
  | 88 => ⟨S100x60, .f32⟩
  | 89 => ⟨S100x60, .f32⟩
  | 90 => ⟨S1x6000, .f32⟩
  | 91 => ⟨S1x1, .f32⟩
  | 92 => ⟨S1x1, .f32⟩
  | 93 => ⟨S1x1, .f32⟩
  | _ => ⟨S100x65536, .f32⟩

abbrev hbmTy (i : Nat) : BufTy := match i / 128 with
  | 0 => hbmTy0_0 i
  | 1 => hbmTy0_1 i
  | _ => ⟨S100x65536, .f32⟩

abbrev bufTy : (tb : Table) → Fin (tcTables nBuf tb) → BufTy
  | .hbm, ⟨i, _⟩ => hbmTy i
  | _, _ => ⟨S100x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_4 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_5 : Ref sig .tc := ⟨.hbm, 47, rfl⟩
abbrev main_v23 : Ref sig .tc := ⟨.hbm, 48, rfl⟩
abbrev main_v24 : Ref sig .tc := ⟨.hbm, 49, rfl⟩
abbrev main_c_6 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_7 : Ref sig .tc := ⟨.hbm, 58, rfl⟩
abbrev main_v32 : Ref sig .tc := ⟨.hbm, 59, rfl⟩
abbrev main_v33 : Ref sig .tc := ⟨.hbm, 60, rfl⟩
abbrev main_c_8 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_9 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_10 : Ref sig .tc := ⟨.hbm, 74, rfl⟩
abbrev main_v45 : Ref sig .tc := ⟨.hbm, 75, rfl⟩
abbrev main_v46 : Ref sig .tc := ⟨.hbm, 76, rfl⟩
abbrev main_c_11 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_12 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_13 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_14 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_15 : Ref sig .tc := ⟨.hbm, 121, rfl⟩
abbrev main_v87 : Ref sig .tc := ⟨.hbm, 122, rfl⟩
abbrev main_cst_16 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_17 : Ref sig .tc := ⟨.hbm, 127, rfl⟩
abbrev main_v91 : Ref sig .tc := ⟨.hbm, 128, rfl⟩
abbrev main_v92 : Ref sig .tc := ⟨.hbm, 129, rfl⟩
abbrev main_cst_18 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_19 : Ref sig .tc := ⟨.hbm, 134, rfl⟩
abbrev main_call1_v0 : Ref sig .tc := ⟨.hbm, 135, rfl⟩
abbrev main_call1_v1 : Ref sig .tc := ⟨.hbm, 136, rfl⟩
abbrev main_v96 : Ref sig .tc := ⟨.hbm, 137, rfl⟩
abbrev main_c_20 : Ref sig .tc := ⟨.hbm, 138, rfl⟩
abbrev main_v97 : Ref sig .tc := ⟨.hbm, 139, rfl⟩
abbrev main_v98 : Ref sig .tc := ⟨.hbm, 140, rfl⟩
abbrev main_c_21 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_c_22 : Ref sig .tc := ⟨.hbm, 148, rfl⟩
abbrev main_v105 : Ref sig .tc := ⟨.hbm, 149, rfl⟩
abbrev main_v106 : Ref sig .tc := ⟨.hbm, 150, rfl⟩
abbrev main_c_23 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_c_24 : Ref sig .tc := ⟨.hbm, 159, rfl⟩
abbrev main_v114 : Ref sig .tc := ⟨.hbm, 160, rfl⟩
abbrev main_v115 : Ref sig .tc := ⟨.hbm, 161, rfl⟩
abbrev main_c_25 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_cst_26 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_c_27 : Ref sig .tc := ⟨.hbm, 175, rfl⟩
abbrev main_v127 : Ref sig .tc := ⟨.hbm, 176, rfl⟩
abbrev main_v128 : Ref sig .tc := ⟨.hbm, 177, rfl⟩
abbrev main_c_28 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_cst_29 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_cst_30 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_cst_31 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩

abbrev nD : Nat := 1
abbrev τ : Topo := Topo.v7x

variable {F : FTy → Type} [FloatOps F]

class Facts₀ : Prop where
  slices_S2x1600_S1x1600_0_0 : S2x1600.Slices ![0, 0] S1x1600
  shapeCasts_S1x1600_S1600 : S1x1600.ShapeCasts S1600
  slices_S2x1600_S1x1600_1_0 : S2x1600.Slices ![1, 0] S1x1600
  shapeCasts_S1x3_S3 : S1x3.ShapeCasts S3
  bcast_S_S1600 : S_.BroadcastsInDim S1600 (![] : Fin 0 → Fin S1600.rank)
  bcast_S_S100 : S_.BroadcastsInDim S100 (![] : Fin 0 → Fin S100.rank)
  bcast_S1600_S1600x1_0 : S1600.BroadcastsInDim S1600x1 (![0] : Fin 1 → Fin S1600x1.rank)
  bcast_S1600x1_S1600x65536_0_1 : S1600x1.BroadcastsInDim S1600x65536 (![0, 1] : Fin 2 → Fin S1600x65536.rank)
  bcast_S_S100x65536 : S_.BroadcastsInDim S100x65536 (![] : Fin 0 → Fin S100x65536.rank)
  slices_S3x65536x60_S1x65536x60_0_0_0 : S3x65536x60.Slices ![0, 0, 0] S1x65536x60
  shapeCasts_S1x65536x60_S65536x60 : S1x65536x60.ShapeCasts S65536x60
  slices_S3x65536x60_S1x65536x60_1_0_0 : S3x65536x60.Slices ![1, 0, 0] S1x65536x60
  slices_S3x65536x60_S1x65536x60_2_0_0 : S3x65536x60.Slices ![2, 0, 0] S1x65536x60
  bcast_S60_S1x60_1 : S60.BroadcastsInDim S1x60 (![1] : Fin 1 → Fin S1x60.rank)
  bcast_S1x60_S100x60_0_1 : S1x60.BroadcastsInDim S100x60 (![0, 1] : Fin 2 → Fin S100x60.rank)
  bcast_S3_S3x1_0 : S3.BroadcastsInDim S3x1 (![0] : Fin 1 → Fin S3x1.rank)
  bcast_S3x1_S3x60_0_1 : S3x1.BroadcastsInDim S3x60 (![0, 1] : Fin 2 → Fin S3x60.rank)
  reducesTo_S3x60_S60_d0 : S3x60.ReducesTo [0] S60
  h_S_ : 0 < S_.numel
  shapeCasts_S100x60_S1x6000 : S100x60.ShapeCasts S1x6000
  bcast_S100_S1x100_1 : S100.BroadcastsInDim S1x100 (![1] : Fin 1 → Fin S1x100.rank)
  bcast_S1_S1x1_1 : S1.BroadcastsInDim S1x1 (![1] : Fin 1 → Fin S1x1.rank)
  scatter_S100_S1600x1_S1600_n_0_0_1_wf : ScatterDims.WF S100 S1600x1 S1600 [] [0] [0] 1
  gather_S100_S1600x1_S1600_n_0_n_n_0_1_1_wf : GatherDims.WF S100 S1600x1 S1600 [] [0] [] [0] [] 1 ![1]
  gather_S100x65536_S1600x1_S1600x65536_1_0_n_n_0_1_165536_wf : GatherDims.WF S100x65536 S1600x1 S1600x65536 [1] [0] [] [0] [] 1 ![1, 65536]
  scatter_S100x65536_S1600x1_S1600x65536_1_0_0_1_wf : ScatterDims.WF S100x65536 S1600x1 S1600x65536 [1] [0] [0] 1
  dot_S100x65536_S65536x60_S100x60_1_0_0_1_n_n_wf : DotDims.WF S100x65536 S65536x60 S100x60 [1] [0] [0] [1] [] []
  dot_S1x6000_S6000x100_S1x100_1_0_0_1_n_n_wf : DotDims.WF S1x6000 S6000x100 S1x100 [1] [0] [0] [1] [] []
  dot_S1x6000_S6000x1_S1x1_1_0_0_1_n_n_wf : DotDims.WF S1x6000 S6000x1 S1x1 [1] [0] [0] [1] [] []

variable [Facts₀]

def scatter_S100_S1600x1_S1600_n_0_0_1 : ScatterDims S100 S1600x1 S1600 where
  updateWindowDims := []
  insertedWindowDims := [0]
  scatterDimsToOperandDims := [0]
  indexVectorDim := 1
  wf := scatter_S100_S1600x1_S1600_n_0_0_1_wf
def gather_S100_S1600x1_S1600_n_0_n_n_0_1_1 : GatherDims S100 S1600x1 S1600 where
  offsetDims := []
  collapsedSliceDims := [0]
  operandBatchingDims := []
  startIndicesBatchingDims := []
  startIndexMap := [0]
  indexVectorDim := 1
  sliceSizes := ![1]
  wf := gather_S100_S1600x1_S1600_n_0_n_n_0_1_1_wf
def gather_S100x65536_S1600x1_S1600x65536_1_0_n_n_0_1_165536 : GatherDims S100x65536 S1600x1 S1600x65536 where
  offsetDims := [1]
  collapsedSliceDims := [0]
  operandBatchingDims := []
  startIndicesBatchingDims := []
  startIndexMap := [0]
  indexVectorDim := 1
  sliceSizes := ![1, 65536]
  wf := gather_S100x65536_S1600x1_S1600x65536_1_0_n_n_0_1_165536_wf
def scatter_S100x65536_S1600x1_S1600x65536_1_0_0_1 : ScatterDims S100x65536 S1600x1 S1600x65536 where
  updateWindowDims := [1]
  insertedWindowDims := [0]
  scatterDimsToOperandDims := [0]
  indexVectorDim := 1
  wf := scatter_S100x65536_S1600x1_S1600x65536_1_0_0_1_wf
def dot_S100x65536_S65536x60_S100x60_1_0_0_1_n_n : DotDims S100x65536 S65536x60 S100x60 where
  lhsContracting := [1]
  rhsContracting := [0]
  lhsNonContracting := [0]
  rhsNonContracting := [1]
  lhsBatch := []
  rhsBatch := []
  wf := dot_S100x65536_S65536x60_S100x60_1_0_0_1_n_n_wf
def dot_S1x6000_S6000x100_S1x100_1_0_0_1_n_n : DotDims S1x6000 S6000x100 S1x100 where
  lhsContracting := [1]
  rhsContracting := [0]
  lhsNonContracting := [0]
  rhsNonContracting := [1]
  lhsBatch := []
  rhsBatch := []
  wf := dot_S1x6000_S6000x100_S1x100_1_0_0_1_n_n_wf
def dot_S1x6000_S6000x1_S1x1_1_0_0_1_n_n : DotDims S1x6000 S6000x1 S1x1 where
  lhsContracting := [1]
  rhsContracting := [0]
  lhsNonContracting := [0]
  rhsNonContracting := [1]
  lhsBatch := []
  rhsBatch := []
  wf := dot_S1x6000_S6000x1_S1x1_1_0_0_1_n_n_wf

class Facts : Prop extends Facts₀ where

variable [Facts]
-- ==== Proof.BitsCases.lean ====
/-
  The grid of the convolution kernel has 2 × 16 points: point t works on head t / 16 (0 the actor, 1 the critic) and on
  channel tile t % 16. Four conditions on the point steer the body: the tile is the first one (the accumulator is
  reset), the head is the actor's, the head is the critic's, the tile is the last one (bias, tanh and offset are
  applied). This file states the four conditions, decides each over the grid in closed form, and names the staging
  buffers the body is called with.
-/
import proofs.«132327_j50706383897350_2_alg».proof.Proof.Gen.Kernel.Frame
import proofs.«132327_j50706383897350_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The channel tile is the first of its head. -/
abbrev cFirst (i : grid0.Coords) : Prop := k0_cond1 i = 1#1
/-- The head is the actor's. -/
abbrev cActor (i : grid0.Coords) : Prop := k0_cond2 i = 1#1
/-- The head is the critic's. -/
abbrev cCritic (i : grid0.Coords) : Prop := k0_cond3 i = 1#1
/-- The channel tile is the last of its head. -/
abbrev cLast (i : grid0.Coords) : Prop := k0_cond4 i = 1#1

theorem hFirst : ∀ t : Fin cfg0.N, cFirst (grid0.coords t) ↔ t.val % 16 = 0 :=
  (by decide +kernel : ∀ t : Fin grid0.N, cFirst (grid0.coords t) ↔ t.val % 16 = 0)
theorem hActor : ∀ t : Fin cfg0.N, cActor (grid0.coords t) ↔ t.val < 16 :=
  (by decide +kernel : ∀ t : Fin grid0.N, cActor (grid0.coords t) ↔ t.val < 16)
theorem hCritic : ∀ t : Fin cfg0.N, cCritic (grid0.coords t) ↔ 16 ≤ t.val :=
  (by decide +kernel : ∀ t : Fin grid0.N, cCritic (grid0.coords t) ↔ 16 ≤ t.val)
theorem hLast : ∀ t : Fin cfg0.N, cLast (grid0.coords t) ↔ t.val % 16 = 15 :=
  (by decide +kernel : ∀ t : Fin grid0.N, cLast (grid0.coords t) ↔ t.val % 16 = 15)

/-- Every point stores into the output block (one of the two heads' branches runs), so no window is idle anywhere. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
/-- The same at every setting of the two coordinates. -/
theorem live6_all : ∀ i : grid0.Coords, cfg0.idle 6 i = false := by decide +kernel

/-- One staging buffer of the output window, through which its contents are stated. -/
abbrev VO : View sig .tc .vmem S1x100x60 .f32 := (Memref.whole cc0_stg6_0 : Memref sig .tc .vmem S1x100x60 .f32).view

/-- Each window's current staging buffer at point `t`, as the pipeline passes it to the body, and its wholeness. -/
abbrev ms0 (t : Fin cfg0.N) : Memref sig .tc .vmem S100x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S100x100 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S3x4096x60 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S3x4096x60 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x60 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x60 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x100x60 .f32 := win0_6.stage (cfg0.slots t 6)
abbrev hs6 (t : Fin cfg0.N) : (ms6 t).IsWhole := hstage0_6 ((cfg0.slots t 6).cast nbuf0_6)

end Cert.Kernel.Body

end
-- ==== Proof.BitsRunA.lean ====
/-
  The body of the convolution kernel run at a point of one kind: the first channel tile of the actor's head: the accumulator is reset, then the tile's contribution is added.
  The stores the run makes into the output block are found by running the body; the inputs' buffers are handed back as
  they were.
-/
import proofs.«132327_j50706383897350_2_alg».proof.Proof.BitsCases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores into the output block's buffer (last first) at such a point, with the proof that the body, given every
    window's buffer whole at its contents, runs to its end handing the inputs back unchanged and the output's buffer
    with those stores written. -/
noncomputable def runA (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : cFirst i) (hc1 : cActor i) (hc2 : ¬cCritic i) (hc3 : ¬cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) :
    { L : List (View.Piece (Elt F) S1x100x60 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc0__cheb_kernel i arg2 harg2 arg3 harg3 arg4 harg4 arg5 harg5 arg6 harg6 arg7 harg7 arg8 harg8) K } := by
  refine ⟨?_, fun E K => ?run⟩
  case run =>
    simp only [cc0__cheb_kernel_eq_skeleton]; unfold cc0__cheb_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.Kernel.Body

end
-- ==== Proof.BitsRunB.lean ====
/-
  The body of the convolution kernel run at a point of one kind: a middle channel tile of the actor's head: the tile's contribution is added to what the point before left.
  The stores the run makes into the output block are found by running the body; the inputs' buffers are handed back as
  they were.
-/
import proofs.«132327_j50706383897350_2_alg».proof.Proof.BitsRunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores into the output block's buffer (last first) at such a point, with the proof that the body, given every
    window's buffer whole at its contents, runs to its end handing the inputs back unchanged and the output's buffer
    with those stores written. -/
noncomputable def runB (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : ¬cFirst i) (hc1 : cActor i) (hc2 : ¬cCritic i) (hc3 : ¬cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (xo : Vec F S1x100x60 .f32) :
    { L : List (View.Piece (Elt F) S1x100x60 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc0__cheb_kernel i arg2 harg2 arg3 harg3 arg4 harg4 arg5 harg5 arg6 harg6 arg7 harg7 arg8 harg8) K } := by
  refine ⟨?_, fun E K => ?run⟩
  case run =>
    simp only [cc0__cheb_kernel_eq_skeleton]; unfold cc0__cheb_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.Kernel.Body

end
-- ==== Proof.BitsRunC.lean ====
/-
  The body of the convolution kernel run at a point of one kind: the last channel tile of the actor's head: the contribution is added, then bias, tanh and offset are applied.
  The stores the run makes into the output block are found by running the body; the inputs' buffers are handed back as
  they were.
-/
import proofs.«132327_j50706383897350_2_alg».proof.Proof.BitsRunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores into the output block's buffer (last first) at such a point, with the proof that the body, given every
    window's buffer whole at its contents, runs to its end handing the inputs back unchanged and the output's buffer
    with those stores written. -/
noncomputable def runC (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : ¬cFirst i) (hc1 : cActor i) (hc2 : ¬cCritic i) (hc3 : cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (xo : Vec F S1x100x60 .f32) :
    { L : List (View.Piece (Elt F) S1x100x60 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc0__cheb_kernel i arg2 harg2 arg3 harg3 arg4 harg4 arg5 harg5 arg6 harg6 arg7 harg7 arg8 harg8) K } := by
  refine ⟨?_, fun E K => ?run⟩
  case run =>
    simp only [cc0__cheb_kernel_eq_skeleton]; unfold cc0__cheb_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.Kernel.Body

end
-- ==== Proof.BitsRunD.lean ====
/-
  The body of the convolution kernel run at a point of one kind: the first channel tile of the critic's head: the accumulator is reset, then the tile's contribution is added.
  The stores the run makes into the output block are found by running the body; the inputs' buffers are handed back as
  they were.
-/
import proofs.«132327_j50706383897350_2_alg».proof.Proof.BitsRunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores into the output block's buffer (last first) at such a point, with the proof that the body, given every
    window's buffer whole at its contents, runs to its end handing the inputs back unchanged and the output's buffer
    with those stores written. -/
noncomputable def runD (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : cFirst i) (hc1 : ¬cActor i) (hc2 : cCritic i) (hc3 : ¬cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) :
    { L : List (View.Piece (Elt F) S1x100x60 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc0__cheb_kernel i arg2 harg2 arg3 harg3 arg4 harg4 arg5 harg5 arg6 harg6 arg7 harg7 arg8 harg8) K } := by
  refine ⟨?_, fun E K => ?run⟩
  case run =>
    simp only [cc0__cheb_kernel_eq_skeleton]; unfold cc0__cheb_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.Kernel.Body

end
-- ==== Proof.BitsRunE.lean ====
/-
  The body of the convolution kernel run at a point of one kind: a middle channel tile of the critic's head: the tile's contribution is added to what the point before left.
  The stores the run makes into the output block are found by running the body; the inputs' buffers are handed back as
  they were.
-/
import proofs.«132327_j50706383897350_2_alg».proof.Proof.BitsRunD

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores into the output block's buffer (last first) at such a point, with the proof that the body, given every
    window's buffer whole at its contents, runs to its end handing the inputs back unchanged and the output's buffer
    with those stores written. -/
noncomputable def runE (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : ¬cFirst i) (hc1 : ¬cActor i) (hc2 : cCritic i) (hc3 : ¬cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (xo : Vec F S1x100x60 .f32) :
    { L : List (View.Piece (Elt F) S1x100x60 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc0__cheb_kernel i arg2 harg2 arg3 harg3 arg4 harg4 arg5 harg5 arg6 harg6 arg7 harg7 arg8 harg8) K } := by
  refine ⟨?_, fun E K => ?run⟩
  case run =>
    simp only [cc0__cheb_kernel_eq_skeleton]; unfold cc0__cheb_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.Kernel.Body

end
-- ==== Proof.BitsRunF.lean ====
/-
  The body of the convolution kernel run at a point of one kind: the last channel tile of the critic's head: the contribution is added, then bias, tanh and offset are applied.
  The stores the run makes into the output block are found by running the body; the inputs' buffers are handed back as
  they were.
-/
import proofs.«132327_j50706383897350_2_alg».proof.Proof.BitsRunE

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores into the output block's buffer (last first) at such a point, with the proof that the body, given every
    window's buffer whole at its contents, runs to its end handing the inputs back unchanged and the output's buffer
    with those stores written. -/
noncomputable def runF (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : ¬cFirst i) (hc1 : ¬cActor i) (hc2 : cCritic i) (hc3 : cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (xo : Vec F S1x100x60 .f32) :
    { L : List (View.Piece (Elt F) S1x100x60 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc0__cheb_kernel i arg2 harg2 arg3 harg3 arg4 harg4 arg5 harg5 arg6 harg6 arg7 harg7 arg8 harg8) K } := by
  refine ⟨?_, fun E K => ?run⟩
  case run =>
    simp only [cc0__cheb_kernel_eq_skeleton]; unfold cc0__cheb_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.Kernel.Body

end
-- ==== Proof.BitsBody.lean ====
/-
  The convolution kernel's body at every grid point, and the run of the whole program around it.

  The output block of a head is an accumulator carried over the head's 16 channel tiles: the first tile resets it and
  adds its contribution, every later tile adds its own to what the tile before left (the block is not written back in
  between), and the last tile also applies bias, tanh and the offset before the block is written back. What the block
  holds after each point is therefore defined by recursion on the point (`outsAt`); the six kinds of point are told
  apart by arithmetic on the point's number.
-/
import proofs.«132327_j50706383897350_2_alg».proof.Proof.BitsRunF

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores of a point of kind A cover the output block (the last one is a store of the whole block). -/
theorem coverA (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : cFirst i) (hc1 : cActor i) (hc2 : ¬cCritic i) (hc3 : ¬cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (y : S1x100x60.Idx) :
    ∃ pc ∈ (runA c i arg2 harg2 arg3 harg3 arg4 harg4 arg5 harg5 arg6 harg6 arg7 harg7 arg8 harg8 hc0 hc1 hc2 hc3 x0 x1 x2 x3 x4 x5).1, y ∈ pc.1.set :=
  View.cover_of_tiledL (runA c i arg2 harg2 arg3 harg3 arg4 harg4 arg5 harg5 arg6 harg6 arg7 harg7 arg8 harg8 hc0 hc1 hc2 hc3 x0 x1 x2 x3 x4 x5).1 S1x100x60.size (by sl_kernel_rfl) y

/-- What a point of kind A leaves in the output block's buffer: its stores read back. -/
def outA (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : cFirst i) (hc1 : cActor i) (hc2 : ¬cCritic i) (hc3 : ¬cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) : Vec F S1x100x60 .f32 :=
  VO.read (Elt F) (VO.writes (Elt F) VO.junk (runA c i arg2 harg2 arg3 harg3 arg4 harg4 arg5 harg5 arg6 harg6 arg7 harg7 arg8 harg8 hc0 hc1 hc2 hc3 x0 x1 x2 x3 x4 x5).1)

/-- The stores of a point of kind B cover the output block (the last one is a store of the whole block). -/
theorem coverB (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : ¬cFirst i) (hc1 : cActor i) (hc2 : ¬cCritic i) (hc3 : ¬cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (xo : Vec F S1x100x60 .f32) (y : S1x100x60.Idx) :
    ∃ pc ∈ (runB c i arg2 harg2 arg3 harg3 arg4 harg4 arg5 harg5 arg6 harg6 arg7 harg7 arg8 harg8 hc0 hc1 hc2 hc3 x0 x1 x2 x3 x4 x5 xo).1, y ∈ pc.1.set :=
  View.cover_of_tiledL (runB c i arg2 harg2 arg3 harg3 arg4 harg4 arg5 harg5 arg6 harg6 arg7 harg7 arg8 harg8 hc0 hc1 hc2 hc3 x0 x1 x2 x3 x4 x5 xo).1 S1x100x60.size (by sl_kernel_rfl) y

/-- What a point of kind B leaves in the output block's buffer: its stores read back. -/
def outB (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : ¬cFirst i) (hc1 : cActor i) (hc2 : ¬cCritic i) (hc3 : ¬cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (xo : Vec F S1x100x60 .f32) : Vec F S1x100x60 .f32 :=
  VO.read (Elt F) (VO.writes (Elt F) VO.junk (runB c i arg2 harg2 arg3 harg3 arg4 harg4 arg5 harg5 arg6 harg6 arg7 harg7 arg8 harg8 hc0 hc1 hc2 hc3 x0 x1 x2 x3 x4 x5 xo).1)

/-- The stores of a point of kind C cover the output block (the last one is a store of the whole block). -/
theorem coverC (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : ¬cFirst i) (hc1 : cActor i) (hc2 : ¬cCritic i) (hc3 : cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (xo : Vec F S1x100x60 .f32) (y : S1x100x60.Idx) :
    ∃ pc ∈ (runC c i arg2 harg2 arg3 harg3 arg4 harg4 arg5 harg5 arg6 harg6 arg7 harg7 arg8 harg8 hc0 hc1 hc2 hc3 x0 x1 x2 x3 x4 x5 xo).1, y ∈ pc.1.set :=
  View.cover_of_tiledL (runC c i arg2 harg2 arg3 harg3 arg4 harg4 arg5 harg5 arg6 harg6 arg7 harg7 arg8 harg8 hc0 hc1 hc2 hc3 x0 x1 x2 x3 x4 x5 xo).1 S1x100x60.size (by sl_kernel_rfl) y

/-- What a point of kind C leaves in the output block's buffer: its stores read back. -/
def outC (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : ¬cFirst i) (hc1 : cActor i) (hc2 : ¬cCritic i) (hc3 : cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (xo : Vec F S1x100x60 .f32) : Vec F S1x100x60 .f32 :=
  VO.read (Elt F) (VO.writes (Elt F) VO.junk (runC c i arg2 harg2 arg3 harg3 arg4 harg4 arg5 harg5 arg6 harg6 arg7 harg7 arg8 harg8 hc0 hc1 hc2 hc3 x0 x1 x2 x3 x4 x5 xo).1)

/-- The stores of a point of kind D cover the output block (the last one is a store of the whole block). -/
theorem coverD (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : cFirst i) (hc1 : ¬cActor i) (hc2 : cCritic i) (hc3 : ¬cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (y : S1x100x60.Idx) :
    ∃ pc ∈ (runD c i arg2 harg2 arg3 harg3 arg4 harg4 arg5 harg5 arg6 harg6 arg7 harg7 arg8 harg8 hc0 hc1 hc2 hc3 x0 x1 x2 x3 x4 x5).1, y ∈ pc.1.set :=
  View.cover_of_tiledL (runD c i arg2 harg2 arg3 harg3 arg4 harg4 arg5 harg5 arg6 harg6 arg7 harg7 arg8 harg8 hc0 hc1 hc2 hc3 x0 x1 x2 x3 x4 x5).1 S1x100x60.size (by sl_kernel_rfl) y

/-- What a point of kind D leaves in the output block's buffer: its stores read back. -/
def outD (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : cFirst i) (hc1 : ¬cActor i) (hc2 : cCritic i) (hc3 : ¬cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) : Vec F S1x100x60 .f32 :=
  VO.read (Elt F) (VO.writes (Elt F) VO.junk (runD c i arg2 harg2 arg3 harg3 arg4 harg4 arg5 harg5 arg6 harg6 arg7 harg7 arg8 harg8 hc0 hc1 hc2 hc3 x0 x1 x2 x3 x4 x5).1)

/-- The stores of a point of kind E cover the output block (the last one is a store of the whole block). -/
theorem coverE (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : ¬cFirst i) (hc1 : ¬cActor i) (hc2 : cCritic i) (hc3 : ¬cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (xo : Vec F S1x100x60 .f32) (y : S1x100x60.Idx) :
    ∃ pc ∈ (runE c i arg2 harg2 arg3 harg3 arg4 harg4 arg5 harg5 arg6 harg6 arg7 harg7 arg8 harg8 hc0 hc1 hc2 hc3 x0 x1 x2 x3 x4 x5 xo).1, y ∈ pc.1.set :=
  View.cover_of_tiledL (runE c i arg2 harg2 arg3 harg3 arg4 harg4 arg5 harg5 arg6 harg6 arg7 harg7 arg8 harg8 hc0 hc1 hc2 hc3 x0 x1 x2 x3 x4 x5 xo).1 S1x100x60.size (by sl_kernel_rfl) y

/-- What a point of kind E leaves in the output block's buffer: its stores read back. -/
def outE (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : ¬cFirst i) (hc1 : ¬cActor i) (hc2 : cCritic i) (hc3 : ¬cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (xo : Vec F S1x100x60 .f32) : Vec F S1x100x60 .f32 :=
  VO.read (Elt F) (VO.writes (Elt F) VO.junk (runE c i arg2 harg2 arg3 harg3 arg4 harg4 arg5 harg5 arg6 harg6 arg7 harg7 arg8 harg8 hc0 hc1 hc2 hc3 x0 x1 x2 x3 x4 x5 xo).1)

/-- The stores of a point of kind F cover the output block (the last one is a store of the whole block). -/
theorem coverF (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : ¬cFirst i) (hc1 : ¬cActor i) (hc2 : cCritic i) (hc3 : cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (xo : Vec F S1x100x60 .f32) (y : S1x100x60.Idx) :
    ∃ pc ∈ (runF c i arg2 harg2 arg3 harg3 arg4 harg4 arg5 harg5 arg6 harg6 arg7 harg7 arg8 harg8 hc0 hc1 hc2 hc3 x0 x1 x2 x3 x4 x5 xo).1, y ∈ pc.1.set :=
  View.cover_of_tiledL (runF c i arg2 harg2 arg3 harg3 arg4 harg4 arg5 harg5 arg6 harg6 arg7 harg7 arg8 harg8 hc0 hc1 hc2 hc3 x0 x1 x2 x3 x4 x5 xo).1 S1x100x60.size (by sl_kernel_rfl) y

/-- What a point of kind F leaves in the output block's buffer: its stores read back. -/
def outF (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : ¬cFirst i) (hc1 : ¬cActor i) (hc2 : cCritic i) (hc3 : cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (xo : Vec F S1x100x60 .f32) : Vec F S1x100x60 .f32 :=
  VO.read (Elt F) (VO.writes (Elt F) VO.junk (runF c i arg2 harg2 arg3 harg3 arg4 harg4 arg5 harg5 arg6 harg6 arg7 harg7 arg8 harg8 hc0 hc1 hc2 hc3 x0 x1 x2 x3 x4 x5 xo).1)

/-! ## What the output block holds after each point -/

/-- What point `t` leaves in the output block's buffer, given what the point before left (`prev`, unused at the first
    tile of a head). The point's kind is read off its number: tile `t % 16` of head `t / 16`. -/
def stepAt (c : Dev nD) (t : Fin cfg0.N) (prev : Vec F S1x100x60 .f32) : Vec F S1x100x60 .f32 :=
  if hF : t.val % 16 = 0 then
    if hA : t.val < 16 then outA c (grid0.coords t) (ms0 t) (hs0 t) (ms1 t) (hs1 t) (ms2 t) (hs2 t) (ms3 t) (hs3 t) (ms4 t) (hs4 t) (ms5 t) (hs5 t) (ms6 t) (hs6 t) ((hFirst t).mpr hF) ((hActor t).mpr hA) (fun h => Nat.not_le_of_lt hA ((hCritic t).mp h)) (fun h => absurd ((hLast t).mp h) (by omega)) (iblk m c 0 t) (iblk m c 1 t) (iblk m c 2 t) (iblk m c 3 t) (iblk m c 4 t) (iblk m c 5 t)
    else outD c (grid0.coords t) (ms0 t) (hs0 t) (ms1 t) (hs1 t) (ms2 t) (hs2 t) (ms3 t) (hs3 t) (ms4 t) (hs4 t) (ms5 t) (hs5 t) (ms6 t) (hs6 t) ((hFirst t).mpr hF) (fun h => hA ((hActor t).mp h)) ((hCritic t).mpr (Nat.le_of_not_lt hA)) (fun h => absurd ((hLast t).mp h) (by omega)) (iblk m c 0 t) (iblk m c 1 t) (iblk m c 2 t) (iblk m c 3 t) (iblk m c 4 t) (iblk m c 5 t)
  else if hL : t.val % 16 = 15 then
    if hA : t.val < 16 then outC c (grid0.coords t) (ms0 t) (hs0 t) (ms1 t) (hs1 t) (ms2 t) (hs2 t) (ms3 t) (hs3 t) (ms4 t) (hs4 t) (ms5 t) (hs5 t) (ms6 t) (hs6 t) (fun h => hF ((hFirst t).mp h)) ((hActor t).mpr hA) (fun h => Nat.not_le_of_lt hA ((hCritic t).mp h)) ((hLast t).mpr hL) (iblk m c 0 t) (iblk m c 1 t) (iblk m c 2 t) (iblk m c 3 t) (iblk m c 4 t) (iblk m c 5 t) prev
    else outF c (grid0.coords t) (ms0 t) (hs0 t) (ms1 t) (hs1 t) (ms2 t) (hs2 t) (ms3 t) (hs3 t) (ms4 t) (hs4 t) (ms5 t) (hs5 t) (ms6 t) (hs6 t) (fun h => hF ((hFirst t).mp h)) (fun h => hA ((hActor t).mp h)) ((hCritic t).mpr (Nat.le_of_not_lt hA)) ((hLast t).mpr hL) (iblk m c 0 t) (iblk m c 1 t) (iblk m c 2 t) (iblk m c 3 t) (iblk m c 4 t) (iblk m c 5 t) prev
  else
    if hA : t.val < 16 then outB c (grid0.coords t) (ms0 t) (hs0 t) (ms1 t) (hs1 t) (ms2 t) (hs2 t) (ms3 t) (hs3 t) (ms4 t) (hs4 t) (ms5 t) (hs5 t) (ms6 t) (hs6 t) (fun h => hF ((hFirst t).mp h)) ((hActor t).mpr hA) (fun h => Nat.not_le_of_lt hA ((hCritic t).mp h)) (fun h => hL ((hLast t).mp h)) (iblk m c 0 t) (iblk m c 1 t) (iblk m c 2 t) (iblk m c 3 t) (iblk m c 4 t) (iblk m c 5 t) prev
    else outE c (grid0.coords t) (ms0 t) (hs0 t) (ms1 t) (hs1 t) (ms2 t) (hs2 t) (ms3 t) (hs3 t) (ms4 t) (hs4 t) (ms5 t) (hs5 t) (ms6 t) (hs6 t) (fun h => hF ((hFirst t).mp h)) (fun h => hA ((hActor t).mp h)) ((hCritic t).mpr (Nat.le_of_not_lt hA)) (fun h => hL ((hLast t).mp h)) (iblk m c 0 t) (iblk m c 1 t) (iblk m c 2 t) (iblk m c 3 t) (iblk m c 4 t) (iblk m c 5 t) prev

theorem stepAt_A (c : Dev nD) (t : Fin cfg0.N) (hF : t.val % 16 = 0) (hA : t.val < 16) (prev : Vec F S1x100x60 .f32) :
    stepAt m c t prev = outA c (grid0.coords t) (ms0 t) (hs0 t) (ms1 t) (hs1 t) (ms2 t) (hs2 t) (ms3 t) (hs3 t) (ms4 t) (hs4 t) (ms5 t) (hs5 t) (ms6 t) (hs6 t) ((hFirst t).mpr hF) ((hActor t).mpr hA) (fun h => Nat.not_le_of_lt hA ((hCritic t).mp h)) (fun h => absurd ((hLast t).mp h) (by omega)) (iblk m c 0 t) (iblk m c 1 t) (iblk m c 2 t) (iblk m c 3 t) (iblk m c 4 t) (iblk m c 5 t) := by
  unfold stepAt; rw [dif_pos hF, dif_pos hA]

theorem stepAt_B (c : Dev nD) (t : Fin cfg0.N) (hF : ¬t.val % 16 = 0) (hL : ¬t.val % 16 = 15) (hA : t.val < 16) (prev : Vec F S1x100x60 .f32) :
    stepAt m c t prev = outB c (grid0.coords t) (ms0 t) (hs0 t) (ms1 t) (hs1 t) (ms2 t) (hs2 t) (ms3 t) (hs3 t) (ms4 t) (hs4 t) (ms5 t) (hs5 t) (ms6 t) (hs6 t) (fun h => hF ((hFirst t).mp h)) ((hActor t).mpr hA) (fun h => Nat.not_le_of_lt hA ((hCritic t).mp h)) (fun h => hL ((hLast t).mp h)) (iblk m c 0 t) (iblk m c 1 t) (iblk m c 2 t) (iblk m c 3 t) (iblk m c 4 t) (iblk m c 5 t) prev := by
  unfold stepAt; rw [dif_neg hF, dif_neg hL, dif_pos hA]

theorem stepAt_C (c : Dev nD) (t : Fin cfg0.N) (hF : ¬t.val % 16 = 0) (hL : t.val % 16 = 15) (hA : t.val < 16) (prev : Vec F S1x100x60 .f32) :
    stepAt m c t prev = outC c (grid0.coords t) (ms0 t) (hs0 t) (ms1 t) (hs1 t) (ms2 t) (hs2 t) (ms3 t) (hs3 t) (ms4 t) (hs4 t) (ms5 t) (hs5 t) (ms6 t) (hs6 t) (fun h => hF ((hFirst t).mp h)) ((hActor t).mpr hA) (fun h => Nat.not_le_of_lt hA ((hCritic t).mp h)) ((hLast t).mpr hL) (iblk m c 0 t) (iblk m c 1 t) (iblk m c 2 t) (iblk m c 3 t) (iblk m c 4 t) (iblk m c 5 t) prev := by
  unfold stepAt; rw [dif_neg hF, dif_pos hL, dif_pos hA]

theorem stepAt_D (c : Dev nD) (t : Fin cfg0.N) (hF : t.val % 16 = 0) (hA : ¬t.val < 16) (prev : Vec F S1x100x60 .f32) :
    stepAt m c t prev = outD c (grid0.coords t) (ms0 t) (hs0 t) (ms1 t) (hs1 t) (ms2 t) (hs2 t) (ms3 t) (hs3 t) (ms4 t) (hs4 t) (ms5 t) (hs5 t) (ms6 t) (hs6 t) ((hFirst t).mpr hF) (fun h => hA ((hActor t).mp h)) ((hCritic t).mpr (Nat.le_of_not_lt hA)) (fun h => absurd ((hLast t).mp h) (by omega)) (iblk m c 0 t) (iblk m c 1 t) (iblk m c 2 t) (iblk m c 3 t) (iblk m c 4 t) (iblk m c 5 t) := by
  unfold stepAt; rw [dif_pos hF, dif_neg hA]

theorem stepAt_E (c : Dev nD) (t : Fin cfg0.N) (hF : ¬t.val % 16 = 0) (hL : ¬t.val % 16 = 15) (hA : ¬t.val < 16) (prev : Vec F S1x100x60 .f32) :
    stepAt m c t prev = outE c (grid0.coords t) (ms0 t) (hs0 t) (ms1 t) (hs1 t) (ms2 t) (hs2 t) (ms3 t) (hs3 t) (ms4 t) (hs4 t) (ms5 t) (hs5 t) (ms6 t) (hs6 t) (fun h => hF ((hFirst t).mp h)) (fun h => hA ((hActor t).mp h)) ((hCritic t).mpr (Nat.le_of_not_lt hA)) (fun h => hL ((hLast t).mp h)) (iblk m c 0 t) (iblk m c 1 t) (iblk m c 2 t) (iblk m c 3 t) (iblk m c 4 t) (iblk m c 5 t) prev := by
  unfold stepAt; rw [dif_neg hF, dif_neg hL, dif_neg hA]

theorem stepAt_F (c : Dev nD) (t : Fin cfg0.N) (hF : ¬t.val % 16 = 0) (hL : t.val % 16 = 15) (hA : ¬t.val < 16) (prev : Vec F S1x100x60 .f32) :
    stepAt m c t prev = outF c (grid0.coords t) (ms0 t) (hs0 t) (ms1 t) (hs1 t) (ms2 t) (hs2 t) (ms3 t) (hs3 t) (ms4 t) (hs4 t) (ms5 t) (hs5 t) (ms6 t) (hs6 t) (fun h => hF ((hFirst t).mp h)) (fun h => hA ((hActor t).mp h)) ((hCritic t).mpr (Nat.le_of_not_lt hA)) ((hLast t).mpr hL) (iblk m c 0 t) (iblk m c 1 t) (iblk m c 2 t) (iblk m c 3 t) (iblk m c 4 t) (iblk m c 5 t) prev := by
  unfold stepAt; rw [dif_neg hF, dif_pos hL, dif_neg hA]

/-- THE ACCUMULATION: what the output block's buffer holds after the body at position `n`. -/
def outsAt (c : Dev nD) : (n : ℕ) → (hn : n < cfg0.N) → Vec F S1x100x60 .f32
  | 0, hn => stepAt m c ⟨0, hn⟩ (VO.read (Elt F) VO.junk)
  | n + 1, hn => stepAt m c ⟨n + 1, hn⟩ (outsAt c n (Nat.lt_of_succ_lt hn))

/-- After the first point of a head the previous contents do not matter. -/
theorem stepAt_first (c : Dev nD) (t : Fin cfg0.N) (hF : t.val % 16 = 0) (p q : Vec F S1x100x60 .f32) :
    stepAt m c t p = stepAt m c t q := by
  unfold stepAt; rw [dif_pos hF, dif_pos hF]

theorem outsAt_pos (c : Dev nD) (t : Fin cfg0.N) (ht : t.val ≠ 0) :
    outsAt m c t.val t.isLt = stepAt m c t (outsAt m c (t.val - 1) (Nat.lt_of_le_of_lt (Nat.sub_le _ _) t.isLt)) := by
  obtain ⟨n, hn⟩ := t
  cases n with
  | zero => exact absurd rfl ht
  | succ n => rfl

theorem outsAt_first (c : Dev nD) (t : Fin cfg0.N) (hF : t.val % 16 = 0) :
    outsAt m c t.val t.isLt = stepAt m c t (VO.read (Elt F) VO.junk) := by
  obtain ⟨n, hn⟩ := t
  cases n with
  | zero => rfl
  | succ n => exact (outsAt_pos m c ⟨n + 1, hn⟩ (Nat.succ_ne_zero n)).trans (stepAt_first m c _ hF _ _)

/-! ## The pipeline's proof data -/

/-- The proof data of the one pipeline on core `c`: the arrays as the region finds them; after the body at point `t`
    each input's buffer at its block and the output's at `outsAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outsAt m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- At a point that is not the first tile of a head the output block's buffer holds what the body left at the point
    before: the buffer is written back only after a head's last tile. -/
theorem before6_kept (c : Dev nD) (t : Fin cfg0.N) (hF : ¬t.val % 16 = 0) (d) :
    (dats m 0 c).before 6 t d = outsAt m c (t.val - 1) (Nat.lt_of_le_of_lt (Nat.sub_le _ _) t.isLt) := by
  have hN : t.val < 32 := lt_of_lt_of_eq t.isLt (show cfg0.N = 32 from N_0)
  rw [Dat.before_out_kept _ 6 rfl t (fun h0 => hF (by rw [h0])) (Bool.eq_false_iff.mpr fun h => by have := (flush0_6 _).mp h; dsimp only at this; omega)
    live6_all (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point: the inputs' buffers hold their blocks; arithmetic on the point's number says which kind of
    point it is; at a point after the first tile of a head the output's buffer holds what the point before left; so
    that kind's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (ms0 t) fullShare ((dats m 0 c).after 0 t) from by
      unfold Dat.leavesExact; rw [live0 t],
    show (dats m 0 c).leavesExact 1 t = owns (c : Thread nD τ) (ms1 t) fullShare ((dats m 0 c).after 1 t) from by
      unfold Dat.leavesExact; rw [live1 t],
    show (dats m 0 c).leavesExact 2 t = owns (c : Thread nD τ) (ms2 t) fullShare ((dats m 0 c).after 2 t) from by
      unfold Dat.leavesExact; rw [live2 t],
    show (dats m 0 c).leavesExact 3 t = owns (c : Thread nD τ) (ms3 t) fullShare ((dats m 0 c).after 3 t) from by
      unfold Dat.leavesExact; rw [live3 t],
    show (dats m 0 c).leavesExact 4 t = owns (c : Thread nD τ) (ms4 t) fullShare ((dats m 0 c).after 4 t) from by
      unfold Dat.leavesExact; rw [live4 t],
    show (dats m 0 c).leavesExact 5 t = owns (c : Thread nD τ) (ms5 t) fullShare ((dats m 0 c).after 5 t) from by
      unfold Dat.leavesExact; rw [live5 t],
    show (dats m 0 c).leavesExact 6 t = owns (c : Thread nD τ) (ms6 t) fullShare ((dats m 0 c).after 6 t) from by
      unfold Dat.leavesExact; rw [live6 t],
    after0, after1, after2, after3, after4, after5, after6]
  have hN : t.val < 32 := lt_of_lt_of_eq t.isLt (show cfg0.N = 32 from N_0)
  by_cases hF : t.val % 16 = 0
  · by_cases hA : t.val < 16
    · have hL : ¬t.val % 16 = 15 := by omega
      rw [outsAt_first m c t hF, stepAt_A m c t hF hA]
      unfold outA
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runA c (grid0.coords t) _ _ _ _ _ _ _ _ _ _ _ _ _ _ ((hFirst t).mpr hF) ((hActor t).mpr hA) (fun h => Nat.not_le_of_lt hA ((hCritic t).mp h)) (fun h => absurd ((hLast t).mp h) (by omega)) (iblk m c 0 t) (iblk m c 1 t) (iblk m c 2 t) (iblk m c 3 t) (iblk m c 4 t) (iblk m c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverA c _ _ _ _ _ _ _ _ _ _ _ _ _ _ _ _ _ _ _ _ _ _ _ _ _)
    · have hL : ¬t.val % 16 = 15 := by omega
      rw [outsAt_first m c t hF, stepAt_D m c t hF hA]
      unfold outD
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runD c (grid0.coords t) _ _ _ _ _ _ _ _ _ _ _ _ _ _ ((hFirst t).mpr hF) (fun h => hA ((hActor t).mp h)) ((hCritic t).mpr (Nat.le_of_not_lt hA)) (fun h => absurd ((hLast t).mp h) (by omega)) (iblk m c 0 t) (iblk m c 1 t) (iblk m c 2 t) (iblk m c 3 t) (iblk m c 4 t) (iblk m c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverD c _ _ _ _ _ _ _ _ _ _ _ _ _ _ _ _ _ _ _ _ _ _ _ _ _)
  · by_cases hL : t.val % 16 = 15
    · by_cases hA : t.val < 16
      · rw [outsAt_pos m c t (fun h0 => hF (by rw [h0])), stepAt_C m c t hF hL hA]
        simp only [before6_kept m c t hF]
        unfold outC
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((runC c (grid0.coords t) _ _ _ _ _ _ _ _ _ _ _ _ _ _ (fun h => hF ((hFirst t).mp h)) ((hActor t).mpr hA) (fun h => Nat.not_le_of_lt hA ((hCritic t).mp h)) ((hLast t).mpr hL) (iblk m c 0 t) (iblk m c 1 t) (iblk m c 2 t) (iblk m c 3 t) (iblk m c 4 t) (iblk m c 5 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        iintro ⟨H0, H1, H2, H3, H4, H5, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (coverC c _ _ _ _ _ _ _ _ _ _ _ _ _ _ _ _ _ _ _ _ _ _ _ _ _ _)
      · rw [outsAt_pos m c t (fun h0 => hF (by rw [h0])), stepAt_F m c t hF hL hA]
        simp only [before6_kept m c t hF]
        unfold outF
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((runF c (grid0.coords t) _ _ _ _ _ _ _ _ _ _ _ _ _ _ (fun h => hF ((hFirst t).mp h)) (fun h => hA ((hActor t).mp h)) ((hCritic t).mpr (Nat.le_of_not_lt hA)) ((hLast t).mpr hL) (iblk m c 0 t) (iblk m c 1 t) (iblk m c 2 t) (iblk m c 3 t) (iblk m c 4 t) (iblk m c 5 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        iintro ⟨H0, H1, H2, H3, H4, H5, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (coverF c _ _ _ _ _ _ _ _ _ _ _ _ _ _ _ _ _ _ _ _ _ _ _ _ _ _)
    · by_cases hA : t.val < 16
      · rw [outsAt_pos m c t (fun h0 => hF (by rw [h0])), stepAt_B m c t hF hL hA]
        simp only [before6_kept m c t hF]
        unfold outB
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((runB c (grid0.coords t) _ _ _ _ _ _ _ _ _ _ _ _ _ _ (fun h => hF ((hFirst t).mp h)) ((hActor t).mpr hA) (fun h => Nat.not_le_of_lt hA ((hCritic t).mp h)) (fun h => hL ((hLast t).mp h)) (iblk m c 0 t) (iblk m c 1 t) (iblk m c 2 t) (iblk m c 3 t) (iblk m c 4 t) (iblk m c 5 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        iintro ⟨H0, H1, H2, H3, H4, H5, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (coverB c _ _ _ _ _ _ _ _ _ _ _ _ _ _ _ _ _ _ _ _ _ _ _ _ _ _)
      · rw [outsAt_pos m c t (fun h0 => hF (by rw [h0])), stepAt_E m c t hF hL hA]
        simp only [before6_kept m c t hF]
        unfold outE
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((runE c (grid0.coords t) _ _ _ _ _ _ _ _ _ _ _ _ _ _ (fun h => hF ((hFirst t).mp h)) (fun h => hA ((hActor t).mp h)) ((hCritic t).mpr (Nat.le_of_not_lt hA)) (fun h => hL ((hLast t).mp h)) (iblk m c 0 t) (iblk m c 1 t) (iblk m c 2 t) (iblk m c 3 t) (iblk m c 4 t) (iblk m c 5 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        iintro ⟨H0, H1, H2, H3, H4, H5, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (coverE c _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates, every array of the pipeline ends at what the proof data says
    and every other unscoped buffer at what the host operations after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.Kernel.Body

end
-- ==== Proof.IdealCases.lean ====
/-
  The grid of the convolution kernel has 2 × 16 points: point t works on head t / 16 (0 the actor, 1 the critic) and on
  channel tile t % 16. Four conditions on the point steer the body: the tile is the first one (the accumulator is
  reset), the head is the actor's, the head is the critic's, the tile is the last one (bias, tanh and offset are
  applied). This file states the four conditions, decides each over the grid in closed form, and names the staging
  buffers the body is called with.
-/
import proofs.«132327_j50706383897350_2_alg».proof.Proof.Gen.KernelIdeal.Frame
import proofs.«132327_j50706383897350_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The channel tile is the first of its head. -/
abbrev cFirst (i : grid0.Coords) : Prop := k0_cond1 i = 1#1
/-- The head is the actor's. -/
abbrev cActor (i : grid0.Coords) : Prop := k0_cond2 i = 1#1
/-- The head is the critic's. -/
abbrev cCritic (i : grid0.Coords) : Prop := k0_cond3 i = 1#1
/-- The channel tile is the last of its head. -/
abbrev cLast (i : grid0.Coords) : Prop := k0_cond4 i = 1#1

theorem hFirst : ∀ t : Fin cfg0.N, cFirst (grid0.coords t) ↔ t.val % 16 = 0 :=
  (by decide +kernel : ∀ t : Fin grid0.N, cFirst (grid0.coords t) ↔ t.val % 16 = 0)
theorem hActor : ∀ t : Fin cfg0.N, cActor (grid0.coords t) ↔ t.val < 16 :=
  (by decide +kernel : ∀ t : Fin grid0.N, cActor (grid0.coords t) ↔ t.val < 16)
theorem hCritic : ∀ t : Fin cfg0.N, cCritic (grid0.coords t) ↔ 16 ≤ t.val :=
  (by decide +kernel : ∀ t : Fin grid0.N, cCritic (grid0.coords t) ↔ 16 ≤ t.val)
theorem hLast : ∀ t : Fin cfg0.N, cLast (grid0.coords t) ↔ t.val % 16 = 15 :=
  (by decide +kernel : ∀ t : Fin grid0.N, cLast (grid0.coords t) ↔ t.val % 16 = 15)

/-- Every point stores into the output block (one of the two heads' branches runs), so no window is idle anywhere. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
/-- The same at every setting of the two coordinates. -/
theorem live6_all : ∀ i : grid0.Coords, cfg0.idle 6 i = false := by decide +kernel

/-- One staging buffer of the output window, through which its contents are stated. -/
abbrev VO : View sig .tc .vmem S1x100x60 .f32 := (Memref.whole cc0_stg6_0 : Memref sig .tc .vmem S1x100x60 .f32).view

/-- Each window's current staging buffer at point `t`, as the pipeline passes it to the body, and its wholeness. -/
abbrev ms0 (t : Fin cfg0.N) : Memref sig .tc .vmem S100x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S100x100 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S3x4096x60 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S3x4096x60 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x60 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x60 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x100x60 .f32 := win0_6.stage (cfg0.slots t 6)
abbrev hs6 (t : Fin cfg0.N) : (ms6 t).IsWhole := hstage0_6 ((cfg0.slots t 6).cast nbuf0_6)

end Cert.KernelIdeal.Body

end
-- ==== Proof.IdealRunA.lean ====
/-
  The body of the convolution kernel run at a point of one kind: the first channel tile of the actor's head: the accumulator is reset, then the tile's contribution is added.
  The stores the run makes into the output block are found by running the body; the inputs' buffers are handed back as
  they were.
-/
import proofs.«132327_j50706383897350_2_alg».proof.Proof.IdealCases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores into the output block's buffer (last first) at such a point, with the proof that the body, given every
    window's buffer whole at its contents, runs to its end handing the inputs back unchanged and the output's buffer
    with those stores written. -/
noncomputable def runA (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : cFirst i) (hc1 : cActor i) (hc2 : ¬cCritic i) (hc3 : ¬cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) :
    { L : List (View.Piece (Elt F) S1x100x60 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc0__cheb_kernel i arg2 harg2 arg3 harg3 arg4 harg4 arg5 harg5 arg6 harg6 arg7 harg7 arg8 harg8) K } := by
  refine ⟨?_, fun E K => ?run⟩
  case run =>
    simp only [cc0__cheb_kernel_eq_skeleton]; unfold cc0__cheb_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.KernelIdeal.Body

end
-- ==== Proof.IdealRunB.lean ====
/-
  The body of the convolution kernel run at a point of one kind: a middle channel tile of the actor's head: the tile's contribution is added to what the point before left.
  The stores the run makes into the output block are found by running the body; the inputs' buffers are handed back as
  they were.
-/
import proofs.«132327_j50706383897350_2_alg».proof.Proof.IdealRunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores into the output block's buffer (last first) at such a point, with the proof that the body, given every
    window's buffer whole at its contents, runs to its end handing the inputs back unchanged and the output's buffer
    with those stores written. -/
noncomputable def runB (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : ¬cFirst i) (hc1 : cActor i) (hc2 : ¬cCritic i) (hc3 : ¬cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (xo : Vec F S1x100x60 .f32) :
    { L : List (View.Piece (Elt F) S1x100x60 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc0__cheb_kernel i arg2 harg2 arg3 harg3 arg4 harg4 arg5 harg5 arg6 harg6 arg7 harg7 arg8 harg8) K } := by
  refine ⟨?_, fun E K => ?run⟩
  case run =>
    simp only [cc0__cheb_kernel_eq_skeleton]; unfold cc0__cheb_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.KernelIdeal.Body

end
-- ==== Proof.IdealRunC.lean ====
/-
  The body of the convolution kernel run at a point of one kind: the last channel tile of the actor's head: the contribution is added, then bias, tanh and offset are applied.
  The stores the run makes into the output block are found by running the body; the inputs' buffers are handed back as
  they were.
-/
import proofs.«132327_j50706383897350_2_alg».proof.Proof.IdealRunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores into the output block's buffer (last first) at such a point, with the proof that the body, given every
    window's buffer whole at its contents, runs to its end handing the inputs back unchanged and the output's buffer
    with those stores written. -/
noncomputable def runC (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : ¬cFirst i) (hc1 : cActor i) (hc2 : ¬cCritic i) (hc3 : cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (xo : Vec F S1x100x60 .f32) :
    { L : List (View.Piece (Elt F) S1x100x60 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc0__cheb_kernel i arg2 harg2 arg3 harg3 arg4 harg4 arg5 harg5 arg6 harg6 arg7 harg7 arg8 harg8) K } := by
  refine ⟨?_, fun E K => ?run⟩
  case run =>
    simp only [cc0__cheb_kernel_eq_skeleton]; unfold cc0__cheb_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.KernelIdeal.Body

end
-- ==== Proof.IdealRunD.lean ====
/-
  The body of the convolution kernel run at a point of one kind: the first channel tile of the critic's head: the accumulator is reset, then the tile's contribution is added.
  The stores the run makes into the output block are found by running the body; the inputs' buffers are handed back as
  they were.
-/
import proofs.«132327_j50706383897350_2_alg».proof.Proof.IdealRunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores into the output block's buffer (last first) at such a point, with the proof that the body, given every
    window's buffer whole at its contents, runs to its end handing the inputs back unchanged and the output's buffer
    with those stores written. -/
noncomputable def runD (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : cFirst i) (hc1 : ¬cActor i) (hc2 : cCritic i) (hc3 : ¬cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) :
    { L : List (View.Piece (Elt F) S1x100x60 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc0__cheb_kernel i arg2 harg2 arg3 harg3 arg4 harg4 arg5 harg5 arg6 harg6 arg7 harg7 arg8 harg8) K } := by
  refine ⟨?_, fun E K => ?run⟩
  case run =>
    simp only [cc0__cheb_kernel_eq_skeleton]; unfold cc0__cheb_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.KernelIdeal.Body

end
-- ==== Proof.IdealRunE.lean ====
/-
  The body of the convolution kernel run at a point of one kind: a middle channel tile of the critic's head: the tile's contribution is added to what the point before left.
  The stores the run makes into the output block are found by running the body; the inputs' buffers are handed back as
  they were.
-/
import proofs.«132327_j50706383897350_2_alg».proof.Proof.IdealRunD

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores into the output block's buffer (last first) at such a point, with the proof that the body, given every
    window's buffer whole at its contents, runs to its end handing the inputs back unchanged and the output's buffer
    with those stores written. -/
noncomputable def runE (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : ¬cFirst i) (hc1 : ¬cActor i) (hc2 : cCritic i) (hc3 : ¬cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (xo : Vec F S1x100x60 .f32) :
    { L : List (View.Piece (Elt F) S1x100x60 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc0__cheb_kernel i arg2 harg2 arg3 harg3 arg4 harg4 arg5 harg5 arg6 harg6 arg7 harg7 arg8 harg8) K } := by
  refine ⟨?_, fun E K => ?run⟩
  case run =>
    simp only [cc0__cheb_kernel_eq_skeleton]; unfold cc0__cheb_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.KernelIdeal.Body

end
-- ==== Proof.IdealRunF.lean ====
/-
  The body of the convolution kernel run at a point of one kind: the last channel tile of the critic's head: the contribution is added, then bias, tanh and offset are applied.
  The stores the run makes into the output block are found by running the body; the inputs' buffers are handed back as
  they were.
-/
import proofs.«132327_j50706383897350_2_alg».proof.Proof.IdealRunE

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores into the output block's buffer (last first) at such a point, with the proof that the body, given every
    window's buffer whole at its contents, runs to its end handing the inputs back unchanged and the output's buffer
    with those stores written. -/
noncomputable def runF (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : ¬cFirst i) (hc1 : ¬cActor i) (hc2 : cCritic i) (hc3 : cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (xo : Vec F S1x100x60 .f32) :
    { L : List (View.Piece (Elt F) S1x100x60 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc0__cheb_kernel i arg2 harg2 arg3 harg3 arg4 harg4 arg5 harg5 arg6 harg6 arg7 harg7 arg8 harg8) K } := by
  refine ⟨?_, fun E K => ?run⟩
  case run =>
    simp only [cc0__cheb_kernel_eq_skeleton]; unfold cc0__cheb_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.KernelIdeal.Body

end
-- ==== Proof.IdealBody.lean ====
/-
  The convolution kernel's body at every grid point, and the run of the whole program around it.

  The output block of a head is an accumulator carried over the head's 16 channel tiles: the first tile resets it and
  adds its contribution, every later tile adds its own to what the tile before left (the block is not written back in
  between), and the last tile also applies bias, tanh and the offset before the block is written back. What the block
  holds after each point is therefore defined by recursion on the point (`outsAt`); the six kinds of point are told
  apart by arithmetic on the point's number.
-/
import proofs.«132327_j50706383897350_2_alg».proof.Proof.IdealRunF

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores of a point of kind A cover the output block (the last one is a store of the whole block). -/
theorem coverA (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : cFirst i) (hc1 : cActor i) (hc2 : ¬cCritic i) (hc3 : ¬cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (y : S1x100x60.Idx) :
    ∃ pc ∈ (runA c i arg2 harg2 arg3 harg3 arg4 harg4 arg5 harg5 arg6 harg6 arg7 harg7 arg8 harg8 hc0 hc1 hc2 hc3 x0 x1 x2 x3 x4 x5).1, y ∈ pc.1.set :=
  View.cover_of_tiledL (runA c i arg2 harg2 arg3 harg3 arg4 harg4 arg5 harg5 arg6 harg6 arg7 harg7 arg8 harg8 hc0 hc1 hc2 hc3 x0 x1 x2 x3 x4 x5).1 S1x100x60.size (by sl_kernel_rfl) y

/-- What a point of kind A leaves in the output block's buffer: its stores read back. -/
def outA (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : cFirst i) (hc1 : cActor i) (hc2 : ¬cCritic i) (hc3 : ¬cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) : Vec F S1x100x60 .f32 :=
  VO.read (Elt F) (VO.writes (Elt F) VO.junk (runA c i arg2 harg2 arg3 harg3 arg4 harg4 arg5 harg5 arg6 harg6 arg7 harg7 arg8 harg8 hc0 hc1 hc2 hc3 x0 x1 x2 x3 x4 x5).1)

/-- The stores of a point of kind B cover the output block (the last one is a store of the whole block). -/
theorem coverB (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : ¬cFirst i) (hc1 : cActor i) (hc2 : ¬cCritic i) (hc3 : ¬cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (xo : Vec F S1x100x60 .f32) (y : S1x100x60.Idx) :
    ∃ pc ∈ (runB c i arg2 harg2 arg3 harg3 arg4 harg4 arg5 harg5 arg6 harg6 arg7 harg7 arg8 harg8 hc0 hc1 hc2 hc3 x0 x1 x2 x3 x4 x5 xo).1, y ∈ pc.1.set :=
  View.cover_of_tiledL (runB c i arg2 harg2 arg3 harg3 arg4 harg4 arg5 harg5 arg6 harg6 arg7 harg7 arg8 harg8 hc0 hc1 hc2 hc3 x0 x1 x2 x3 x4 x5 xo).1 S1x100x60.size (by sl_kernel_rfl) y

/-- What a point of kind B leaves in the output block's buffer: its stores read back. -/
def outB (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : ¬cFirst i) (hc1 : cActor i) (hc2 : ¬cCritic i) (hc3 : ¬cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (xo : Vec F S1x100x60 .f32) : Vec F S1x100x60 .f32 :=
  VO.read (Elt F) (VO.writes (Elt F) VO.junk (runB c i arg2 harg2 arg3 harg3 arg4 harg4 arg5 harg5 arg6 harg6 arg7 harg7 arg8 harg8 hc0 hc1 hc2 hc3 x0 x1 x2 x3 x4 x5 xo).1)

/-- The stores of a point of kind C cover the output block (the last one is a store of the whole block). -/
theorem coverC (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : ¬cFirst i) (hc1 : cActor i) (hc2 : ¬cCritic i) (hc3 : cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (xo : Vec F S1x100x60 .f32) (y : S1x100x60.Idx) :
    ∃ pc ∈ (runC c i arg2 harg2 arg3 harg3 arg4 harg4 arg5 harg5 arg6 harg6 arg7 harg7 arg8 harg8 hc0 hc1 hc2 hc3 x0 x1 x2 x3 x4 x5 xo).1, y ∈ pc.1.set :=
  View.cover_of_tiledL (runC c i arg2 harg2 arg3 harg3 arg4 harg4 arg5 harg5 arg6 harg6 arg7 harg7 arg8 harg8 hc0 hc1 hc2 hc3 x0 x1 x2 x3 x4 x5 xo).1 S1x100x60.size (by sl_kernel_rfl) y

/-- What a point of kind C leaves in the output block's buffer: its stores read back. -/
def outC (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : ¬cFirst i) (hc1 : cActor i) (hc2 : ¬cCritic i) (hc3 : cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (xo : Vec F S1x100x60 .f32) : Vec F S1x100x60 .f32 :=
  VO.read (Elt F) (VO.writes (Elt F) VO.junk (runC c i arg2 harg2 arg3 harg3 arg4 harg4 arg5 harg5 arg6 harg6 arg7 harg7 arg8 harg8 hc0 hc1 hc2 hc3 x0 x1 x2 x3 x4 x5 xo).1)

/-- The stores of a point of kind D cover the output block (the last one is a store of the whole block). -/
theorem coverD (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : cFirst i) (hc1 : ¬cActor i) (hc2 : cCritic i) (hc3 : ¬cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (y : S1x100x60.Idx) :
    ∃ pc ∈ (runD c i arg2 harg2 arg3 harg3 arg4 harg4 arg5 harg5 arg6 harg6 arg7 harg7 arg8 harg8 hc0 hc1 hc2 hc3 x0 x1 x2 x3 x4 x5).1, y ∈ pc.1.set :=
  View.cover_of_tiledL (runD c i arg2 harg2 arg3 harg3 arg4 harg4 arg5 harg5 arg6 harg6 arg7 harg7 arg8 harg8 hc0 hc1 hc2 hc3 x0 x1 x2 x3 x4 x5).1 S1x100x60.size (by sl_kernel_rfl) y

/-- What a point of kind D leaves in the output block's buffer: its stores read back. -/
def outD (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : cFirst i) (hc1 : ¬cActor i) (hc2 : cCritic i) (hc3 : ¬cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) : Vec F S1x100x60 .f32 :=
  VO.read (Elt F) (VO.writes (Elt F) VO.junk (runD c i arg2 harg2 arg3 harg3 arg4 harg4 arg5 harg5 arg6 harg6 arg7 harg7 arg8 harg8 hc0 hc1 hc2 hc3 x0 x1 x2 x3 x4 x5).1)

/-- The stores of a point of kind E cover the output block (the last one is a store of the whole block). -/
theorem coverE (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : ¬cFirst i) (hc1 : ¬cActor i) (hc2 : cCritic i) (hc3 : ¬cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (xo : Vec F S1x100x60 .f32) (y : S1x100x60.Idx) :
    ∃ pc ∈ (runE c i arg2 harg2 arg3 harg3 arg4 harg4 arg5 harg5 arg6 harg6 arg7 harg7 arg8 harg8 hc0 hc1 hc2 hc3 x0 x1 x2 x3 x4 x5 xo).1, y ∈ pc.1.set :=
  View.cover_of_tiledL (runE c i arg2 harg2 arg3 harg3 arg4 harg4 arg5 harg5 arg6 harg6 arg7 harg7 arg8 harg8 hc0 hc1 hc2 hc3 x0 x1 x2 x3 x4 x5 xo).1 S1x100x60.size (by sl_kernel_rfl) y

/-- What a point of kind E leaves in the output block's buffer: its stores read back. -/
def outE (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : ¬cFirst i) (hc1 : ¬cActor i) (hc2 : cCritic i) (hc3 : ¬cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (xo : Vec F S1x100x60 .f32) : Vec F S1x100x60 .f32 :=
  VO.read (Elt F) (VO.writes (Elt F) VO.junk (runE c i arg2 harg2 arg3 harg3 arg4 harg4 arg5 harg5 arg6 harg6 arg7 harg7 arg8 harg8 hc0 hc1 hc2 hc3 x0 x1 x2 x3 x4 x5 xo).1)

/-- The stores of a point of kind F cover the output block (the last one is a store of the whole block). -/
theorem coverF (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : ¬cFirst i) (hc1 : ¬cActor i) (hc2 : cCritic i) (hc3 : cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (xo : Vec F S1x100x60 .f32) (y : S1x100x60.Idx) :
    ∃ pc ∈ (runF c i arg2 harg2 arg3 harg3 arg4 harg4 arg5 harg5 arg6 harg6 arg7 harg7 arg8 harg8 hc0 hc1 hc2 hc3 x0 x1 x2 x3 x4 x5 xo).1, y ∈ pc.1.set :=
  View.cover_of_tiledL (runF c i arg2 harg2 arg3 harg3 arg4 harg4 arg5 harg5 arg6 harg6 arg7 harg7 arg8 harg8 hc0 hc1 hc2 hc3 x0 x1 x2 x3 x4 x5 xo).1 S1x100x60.size (by sl_kernel_rfl) y

/-- What a point of kind F leaves in the output block's buffer: its stores read back. -/
def outF (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : ¬cFirst i) (hc1 : ¬cActor i) (hc2 : cCritic i) (hc3 : cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (xo : Vec F S1x100x60 .f32) : Vec F S1x100x60 .f32 :=
  VO.read (Elt F) (VO.writes (Elt F) VO.junk (runF c i arg2 harg2 arg3 harg3 arg4 harg4 arg5 harg5 arg6 harg6 arg7 harg7 arg8 harg8 hc0 hc1 hc2 hc3 x0 x1 x2 x3 x4 x5 xo).1)

/-! ## What the output block holds after each point -/

/-- What point `t` leaves in the output block's buffer, given what the point before left (`prev`, unused at the first
    tile of a head). The point's kind is read off its number: tile `t % 16` of head `t / 16`. -/
def stepAt (c : Dev nD) (t : Fin cfg0.N) (prev : Vec F S1x100x60 .f32) : Vec F S1x100x60 .f32 :=
  if hF : t.val % 16 = 0 then
    if hA : t.val < 16 then outA c (grid0.coords t) (ms0 t) (hs0 t) (ms1 t) (hs1 t) (ms2 t) (hs2 t) (ms3 t) (hs3 t) (ms4 t) (hs4 t) (ms5 t) (hs5 t) (ms6 t) (hs6 t) ((hFirst t).mpr hF) ((hActor t).mpr hA) (fun h => Nat.not_le_of_lt hA ((hCritic t).mp h)) (fun h => absurd ((hLast t).mp h) (by omega)) (iblk m c 0 t) (iblk m c 1 t) (iblk m c 2 t) (iblk m c 3 t) (iblk m c 4 t) (iblk m c 5 t)
    else outD c (grid0.coords t) (ms0 t) (hs0 t) (ms1 t) (hs1 t) (ms2 t) (hs2 t) (ms3 t) (hs3 t) (ms4 t) (hs4 t) (ms5 t) (hs5 t) (ms6 t) (hs6 t) ((hFirst t).mpr hF) (fun h => hA ((hActor t).mp h)) ((hCritic t).mpr (Nat.le_of_not_lt hA)) (fun h => absurd ((hLast t).mp h) (by omega)) (iblk m c 0 t) (iblk m c 1 t) (iblk m c 2 t) (iblk m c 3 t) (iblk m c 4 t) (iblk m c 5 t)
  else if hL : t.val % 16 = 15 then
    if hA : t.val < 16 then outC c (grid0.coords t) (ms0 t) (hs0 t) (ms1 t) (hs1 t) (ms2 t) (hs2 t) (ms3 t) (hs3 t) (ms4 t) (hs4 t) (ms5 t) (hs5 t) (ms6 t) (hs6 t) (fun h => hF ((hFirst t).mp h)) ((hActor t).mpr hA) (fun h => Nat.not_le_of_lt hA ((hCritic t).mp h)) ((hLast t).mpr hL) (iblk m c 0 t) (iblk m c 1 t) (iblk m c 2 t) (iblk m c 3 t) (iblk m c 4 t) (iblk m c 5 t) prev
    else outF c (grid0.coords t) (ms0 t) (hs0 t) (ms1 t) (hs1 t) (ms2 t) (hs2 t) (ms3 t) (hs3 t) (ms4 t) (hs4 t) (ms5 t) (hs5 t) (ms6 t) (hs6 t) (fun h => hF ((hFirst t).mp h)) (fun h => hA ((hActor t).mp h)) ((hCritic t).mpr (Nat.le_of_not_lt hA)) ((hLast t).mpr hL) (iblk m c 0 t) (iblk m c 1 t) (iblk m c 2 t) (iblk m c 3 t) (iblk m c 4 t) (iblk m c 5 t) prev
  else
    if hA : t.val < 16 then outB c (grid0.coords t) (ms0 t) (hs0 t) (ms1 t) (hs1 t) (ms2 t) (hs2 t) (ms3 t) (hs3 t) (ms4 t) (hs4 t) (ms5 t) (hs5 t) (ms6 t) (hs6 t) (fun h => hF ((hFirst t).mp h)) ((hActor t).mpr hA) (fun h => Nat.not_le_of_lt hA ((hCritic t).mp h)) (fun h => hL ((hLast t).mp h)) (iblk m c 0 t) (iblk m c 1 t) (iblk m c 2 t) (iblk m c 3 t) (iblk m c 4 t) (iblk m c 5 t) prev
    else outE c (grid0.coords t) (ms0 t) (hs0 t) (ms1 t) (hs1 t) (ms2 t) (hs2 t) (ms3 t) (hs3 t) (ms4 t) (hs4 t) (ms5 t) (hs5 t) (ms6 t) (hs6 t) (fun h => hF ((hFirst t).mp h)) (fun h => hA ((hActor t).mp h)) ((hCritic t).mpr (Nat.le_of_not_lt hA)) (fun h => hL ((hLast t).mp h)) (iblk m c 0 t) (iblk m c 1 t) (iblk m c 2 t) (iblk m c 3 t) (iblk m c 4 t) (iblk m c 5 t) prev

theorem stepAt_A (c : Dev nD) (t : Fin cfg0.N) (hF : t.val % 16 = 0) (hA : t.val < 16) (prev : Vec F S1x100x60 .f32) :
    stepAt m c t prev = outA c (grid0.coords t) (ms0 t) (hs0 t) (ms1 t) (hs1 t) (ms2 t) (hs2 t) (ms3 t) (hs3 t) (ms4 t) (hs4 t) (ms5 t) (hs5 t) (ms6 t) (hs6 t) ((hFirst t).mpr hF) ((hActor t).mpr hA) (fun h => Nat.not_le_of_lt hA ((hCritic t).mp h)) (fun h => absurd ((hLast t).mp h) (by omega)) (iblk m c 0 t) (iblk m c 1 t) (iblk m c 2 t) (iblk m c 3 t) (iblk m c 4 t) (iblk m c 5 t) := by
  unfold stepAt; rw [dif_pos hF, dif_pos hA]

theorem stepAt_B (c : Dev nD) (t : Fin cfg0.N) (hF : ¬t.val % 16 = 0) (hL : ¬t.val % 16 = 15) (hA : t.val < 16) (prev : Vec F S1x100x60 .f32) :
    stepAt m c t prev = outB c (grid0.coords t) (ms0 t) (hs0 t) (ms1 t) (hs1 t) (ms2 t) (hs2 t) (ms3 t) (hs3 t) (ms4 t) (hs4 t) (ms5 t) (hs5 t) (ms6 t) (hs6 t) (fun h => hF ((hFirst t).mp h)) ((hActor t).mpr hA) (fun h => Nat.not_le_of_lt hA ((hCritic t).mp h)) (fun h => hL ((hLast t).mp h)) (iblk m c 0 t) (iblk m c 1 t) (iblk m c 2 t) (iblk m c 3 t) (iblk m c 4 t) (iblk m c 5 t) prev := by
  unfold stepAt; rw [dif_neg hF, dif_neg hL, dif_pos hA]

theorem stepAt_C (c : Dev nD) (t : Fin cfg0.N) (hF : ¬t.val % 16 = 0) (hL : t.val % 16 = 15) (hA : t.val < 16) (prev : Vec F S1x100x60 .f32) :
    stepAt m c t prev = outC c (grid0.coords t) (ms0 t) (hs0 t) (ms1 t) (hs1 t) (ms2 t) (hs2 t) (ms3 t) (hs3 t) (ms4 t) (hs4 t) (ms5 t) (hs5 t) (ms6 t) (hs6 t) (fun h => hF ((hFirst t).mp h)) ((hActor t).mpr hA) (fun h => Nat.not_le_of_lt hA ((hCritic t).mp h)) ((hLast t).mpr hL) (iblk m c 0 t) (iblk m c 1 t) (iblk m c 2 t) (iblk m c 3 t) (iblk m c 4 t) (iblk m c 5 t) prev := by
  unfold stepAt; rw [dif_neg hF, dif_pos hL, dif_pos hA]

theorem stepAt_D (c : Dev nD) (t : Fin cfg0.N) (hF : t.val % 16 = 0) (hA : ¬t.val < 16) (prev : Vec F S1x100x60 .f32) :
    stepAt m c t prev = outD c (grid0.coords t) (ms0 t) (hs0 t) (ms1 t) (hs1 t) (ms2 t) (hs2 t) (ms3 t) (hs3 t) (ms4 t) (hs4 t) (ms5 t) (hs5 t) (ms6 t) (hs6 t) ((hFirst t).mpr hF) (fun h => hA ((hActor t).mp h)) ((hCritic t).mpr (Nat.le_of_not_lt hA)) (fun h => absurd ((hLast t).mp h) (by omega)) (iblk m c 0 t) (iblk m c 1 t) (iblk m c 2 t) (iblk m c 3 t) (iblk m c 4 t) (iblk m c 5 t) := by
  unfold stepAt; rw [dif_pos hF, dif_neg hA]

theorem stepAt_E (c : Dev nD) (t : Fin cfg0.N) (hF : ¬t.val % 16 = 0) (hL : ¬t.val % 16 = 15) (hA : ¬t.val < 16) (prev : Vec F S1x100x60 .f32) :
    stepAt m c t prev = outE c (grid0.coords t) (ms0 t) (hs0 t) (ms1 t) (hs1 t) (ms2 t) (hs2 t) (ms3 t) (hs3 t) (ms4 t) (hs4 t) (ms5 t) (hs5 t) (ms6 t) (hs6 t) (fun h => hF ((hFirst t).mp h)) (fun h => hA ((hActor t).mp h)) ((hCritic t).mpr (Nat.le_of_not_lt hA)) (fun h => hL ((hLast t).mp h)) (iblk m c 0 t) (iblk m c 1 t) (iblk m c 2 t) (iblk m c 3 t) (iblk m c 4 t) (iblk m c 5 t) prev := by
  unfold stepAt; rw [dif_neg hF, dif_neg hL, dif_neg hA]

theorem stepAt_F (c : Dev nD) (t : Fin cfg0.N) (hF : ¬t.val % 16 = 0) (hL : t.val % 16 = 15) (hA : ¬t.val < 16) (prev : Vec F S1x100x60 .f32) :
    stepAt m c t prev = outF c (grid0.coords t) (ms0 t) (hs0 t) (ms1 t) (hs1 t) (ms2 t) (hs2 t) (ms3 t) (hs3 t) (ms4 t) (hs4 t) (ms5 t) (hs5 t) (ms6 t) (hs6 t) (fun h => hF ((hFirst t).mp h)) (fun h => hA ((hActor t).mp h)) ((hCritic t).mpr (Nat.le_of_not_lt hA)) ((hLast t).mpr hL) (iblk m c 0 t) (iblk m c 1 t) (iblk m c 2 t) (iblk m c 3 t) (iblk m c 4 t) (iblk m c 5 t) prev := by
  unfold stepAt; rw [dif_neg hF, dif_pos hL, dif_neg hA]

/-- THE ACCUMULATION: what the output block's buffer holds after the body at position `n`. -/
def outsAt (c : Dev nD) : (n : ℕ) → (hn : n < cfg0.N) → Vec F S1x100x60 .f32
  | 0, hn => stepAt m c ⟨0, hn⟩ (VO.read (Elt F) VO.junk)
  | n + 1, hn => stepAt m c ⟨n + 1, hn⟩ (outsAt c n (Nat.lt_of_succ_lt hn))

/-- After the first point of a head the previous contents do not matter. -/
theorem stepAt_first (c : Dev nD) (t : Fin cfg0.N) (hF : t.val % 16 = 0) (p q : Vec F S1x100x60 .f32) :
    stepAt m c t p = stepAt m c t q := by
  unfold stepAt; rw [dif_pos hF, dif_pos hF]

theorem outsAt_pos (c : Dev nD) (t : Fin cfg0.N) (ht : t.val ≠ 0) :
    outsAt m c t.val t.isLt = stepAt m c t (outsAt m c (t.val - 1) (Nat.lt_of_le_of_lt (Nat.sub_le _ _) t.isLt)) := by
  obtain ⟨n, hn⟩ := t
  cases n with
  | zero => exact absurd rfl ht
  | succ n => rfl

theorem outsAt_first (c : Dev nD) (t : Fin cfg0.N) (hF : t.val % 16 = 0) :
    outsAt m c t.val t.isLt = stepAt m c t (VO.read (Elt F) VO.junk) := by
  obtain ⟨n, hn⟩ := t
  cases n with
  | zero => rfl
  | succ n => exact (outsAt_pos m c ⟨n + 1, hn⟩ (Nat.succ_ne_zero n)).trans (stepAt_first m c _ hF _ _)

/-! ## The pipeline's proof data -/

/-- The proof data of the one pipeline on core `c`: the arrays as the region finds them; after the body at point `t`
    each input's buffer at its block and the output's at `outsAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outsAt m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- At a point that is not the first tile of a head the output block's buffer holds what the body left at the point
    before: the buffer is written back only after a head's last tile. -/
theorem before6_kept (c : Dev nD) (t : Fin cfg0.N) (hF : ¬t.val % 16 = 0) (d) :
    (dats m 0 c).before 6 t d = outsAt m c (t.val - 1) (Nat.lt_of_le_of_lt (Nat.sub_le _ _) t.isLt) := by
  have hN : t.val < 32 := lt_of_lt_of_eq t.isLt (show cfg0.N = 32 from N_0)
  rw [Dat.before_out_kept _ 6 rfl t (fun h0 => hF (by rw [h0])) (Bool.eq_false_iff.mpr fun h => by have := (flush0_6 _).mp h; dsimp only at this; omega)
    live6_all (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point: the inputs' buffers hold their blocks; arithmetic on the point's number says which kind of
    point it is; at a point after the first tile of a head the output's buffer holds what the point before left; so
    that kind's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (ms0 t) fullShare ((dats m 0 c).after 0 t) from by
      unfold Dat.leavesExact; rw [live0 t],
    show (dats m 0 c).leavesExact 1 t = owns (c : Thread nD τ) (ms1 t) fullShare ((dats m 0 c).after 1 t) from by
      unfold Dat.leavesExact; rw [live1 t],
    show (dats m 0 c).leavesExact 2 t = owns (c : Thread nD τ) (ms2 t) fullShare ((dats m 0 c).after 2 t) from by
      unfold Dat.leavesExact; rw [live2 t],
    show (dats m 0 c).leavesExact 3 t = owns (c : Thread nD τ) (ms3 t) fullShare ((dats m 0 c).after 3 t) from by
      unfold Dat.leavesExact; rw [live3 t],
    show (dats m 0 c).leavesExact 4 t = owns (c : Thread nD τ) (ms4 t) fullShare ((dats m 0 c).after 4 t) from by
      unfold Dat.leavesExact; rw [live4 t],
    show (dats m 0 c).leavesExact 5 t = owns (c : Thread nD τ) (ms5 t) fullShare ((dats m 0 c).after 5 t) from by
      unfold Dat.leavesExact; rw [live5 t],
    show (dats m 0 c).leavesExact 6 t = owns (c : Thread nD τ) (ms6 t) fullShare ((dats m 0 c).after 6 t) from by
      unfold Dat.leavesExact; rw [live6 t],
    after0, after1, after2, after3, after4, after5, after6]
  have hN : t.val < 32 := lt_of_lt_of_eq t.isLt (show cfg0.N = 32 from N_0)
  by_cases hF : t.val % 16 = 0
  · by_cases hA : t.val < 16
    · have hL : ¬t.val % 16 = 15 := by omega
      rw [outsAt_first m c t hF, stepAt_A m c t hF hA]
      unfold outA
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runA c (grid0.coords t) _ _ _ _ _ _ _ _ _ _ _ _ _ _ ((hFirst t).mpr hF) ((hActor t).mpr hA) (fun h => Nat.not_le_of_lt hA ((hCritic t).mp h)) (fun h => absurd ((hLast t).mp h) (by omega)) (iblk m c 0 t) (iblk m c 1 t) (iblk m c 2 t) (iblk m c 3 t) (iblk m c 4 t) (iblk m c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverA c _ _ _ _ _ _ _ _ _ _ _ _ _ _ _ _ _ _ _ _ _ _ _ _ _)
    · have hL : ¬t.val % 16 = 15 := by omega
      rw [outsAt_first m c t hF, stepAt_D m c t hF hA]
      unfold outD
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runD c (grid0.coords t) _ _ _ _ _ _ _ _ _ _ _ _ _ _ ((hFirst t).mpr hF) (fun h => hA ((hActor t).mp h)) ((hCritic t).mpr (Nat.le_of_not_lt hA)) (fun h => absurd ((hLast t).mp h) (by omega)) (iblk m c 0 t) (iblk m c 1 t) (iblk m c 2 t) (iblk m c 3 t) (iblk m c 4 t) (iblk m c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverD c _ _ _ _ _ _ _ _ _ _ _ _ _ _ _ _ _ _ _ _ _ _ _ _ _)
  · by_cases hL : t.val % 16 = 15
    · by_cases hA : t.val < 16
      · rw [outsAt_pos m c t (fun h0 => hF (by rw [h0])), stepAt_C m c t hF hL hA]
        simp only [before6_kept m c t hF]
        unfold outC
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((runC c (grid0.coords t) _ _ _ _ _ _ _ _ _ _ _ _ _ _ (fun h => hF ((hFirst t).mp h)) ((hActor t).mpr hA) (fun h => Nat.not_le_of_lt hA ((hCritic t).mp h)) ((hLast t).mpr hL) (iblk m c 0 t) (iblk m c 1 t) (iblk m c 2 t) (iblk m c 3 t) (iblk m c 4 t) (iblk m c 5 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        iintro ⟨H0, H1, H2, H3, H4, H5, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (coverC c _ _ _ _ _ _ _ _ _ _ _ _ _ _ _ _ _ _ _ _ _ _ _ _ _ _)
      · rw [outsAt_pos m c t (fun h0 => hF (by rw [h0])), stepAt_F m c t hF hL hA]
        simp only [before6_kept m c t hF]
        unfold outF
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((runF c (grid0.coords t) _ _ _ _ _ _ _ _ _ _ _ _ _ _ (fun h => hF ((hFirst t).mp h)) (fun h => hA ((hActor t).mp h)) ((hCritic t).mpr (Nat.le_of_not_lt hA)) ((hLast t).mpr hL) (iblk m c 0 t) (iblk m c 1 t) (iblk m c 2 t) (iblk m c 3 t) (iblk m c 4 t) (iblk m c 5 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        iintro ⟨H0, H1, H2, H3, H4, H5, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (coverF c _ _ _ _ _ _ _ _ _ _ _ _ _ _ _ _ _ _ _ _ _ _ _ _ _ _)
    · by_cases hA : t.val < 16
      · rw [outsAt_pos m c t (fun h0 => hF (by rw [h0])), stepAt_B m c t hF hL hA]
        simp only [before6_kept m c t hF]
        unfold outB
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((runB c (grid0.coords t) _ _ _ _ _ _ _ _ _ _ _ _ _ _ (fun h => hF ((hFirst t).mp h)) ((hActor t).mpr hA) (fun h => Nat.not_le_of_lt hA ((hCritic t).mp h)) (fun h => hL ((hLast t).mp h)) (iblk m c 0 t) (iblk m c 1 t) (iblk m c 2 t) (iblk m c 3 t) (iblk m c 4 t) (iblk m c 5 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        iintro ⟨H0, H1, H2, H3, H4, H5, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (coverB c _ _ _ _ _ _ _ _ _ _ _ _ _ _ _ _ _ _ _ _ _ _ _ _ _ _)
      · rw [outsAt_pos m c t (fun h0 => hF (by rw [h0])), stepAt_E m c t hF hL hA]
        simp only [before6_kept m c t hF]
        unfold outE
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((runE c (grid0.coords t) _ _ _ _ _ _ _ _ _ _ _ _ _ _ (fun h => hF ((hFirst t).mp h)) (fun h => hA ((hActor t).mp h)) ((hCritic t).mpr (Nat.le_of_not_lt hA)) (fun h => hL ((hLast t).mp h)) (iblk m c 0 t) (iblk m c 1 t) (iblk m c 2 t) (iblk m c 3 t) (iblk m c 4 t) (iblk m c 5 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        iintro ⟨H0, H1, H2, H3, H4, H5, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (coverE c _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates, every array of the pipeline ends at what the proof data says
    and every other unscoped buffer at what the host operations after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Body

end
-- ==== Proof.RefFrame.lean ====
/-
  The reference program leaves its arguments unchanged.

  The reference program is a list of host operations; its run ends with each result at the operations' composed
  value and with every argument at its initial contents. The frame claim is the second part.
-/
import proofs.«132327_j50706383897350_2_alg».proof.Defs
import proofs.«132327_j50706383897350_2_alg».proof.Proof.RunP

noncomputable section

namespace Cert.Proof.Ref

open Idealize.ShloMosaic Idealize.SL.Sem

/-- Every weakly fair execution of the reference program terminates with the fifteen arguments unchanged. -/
theorem frame_ref [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

end Cert.Proof.Ref

end
-- ==== Proof.IdealPieces.lean ====
/-
  What each kind of grid point leaves in the output block, as the body's own arithmetic: the accumulator update
  (the head's three matrix products of the channel tile, added to the accumulator so far — a zero block at the head's
  first tile) and, at the head's last tile, bias, tanh and offset on top of it. The weight block staged for a tile has
  three slabs, one per Chebyshev order; the body loads them one by one.
-/
import proofs.«132327_j50706383897350_2_alg».proof.Proof.IdealBody
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl
theorem hz2 : (![0, 0] : Fin 2 → Nat) = fun _ => 0 := funext fun a => by fin_cases a <;> rfl

/-- The three slabs of a staged weight block (orders 0, 1, 2). -/
abbrev slab0 : Rect S3x4096x60 := Rect.unit (s := S3x4096x60) ![0, 0, 0] S1x4096x60.size inb_S3x4096x60_S1x4096x60_0_0_0
abbrev slab1 : Rect S3x4096x60 := Rect.unit (s := S3x4096x60) ![1, 0, 0] S1x4096x60.size inb_S3x4096x60_S1x4096x60_1_0_0
abbrev slab2 : Rect S3x4096x60 := Rect.unit (s := S3x4096x60) ![2, 0, 0] S1x4096x60.size inb_S3x4096x60_S1x4096x60_2_0_0

theorem outA_eq (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : cFirst i) (hc1 : cActor i) (hc2 : ¬cCritic i) (hc3 : ¬cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) :
    outA c i arg2 harg2 arg3 harg3 arg4 harg4 arg5 harg5 arg6 harg6 arg7 harg7 arg8 harg8 hc0 hc1 hc2 hc3 x0 x1 x2 x3 x4 x5 = k0_pay6 x0 x1 (View.ld x2 slab0) (View.ld x2 slab1) (View.ld x2 slab2) (k0_pay1 (F := F)) := by
  unfold outA
  rw [View.read_writes_eq_canon _ _ _ (coverA c i arg2 harg2 arg3 harg3 arg4 harg4 arg5 harg5 arg6 harg6 arg7 harg7 arg8 harg8 hc0 hc1 hc2 hc3 x0 x1 x2 x3 x4 x5)]
  unfold runA
  dsimp only
  try sl_unfold_words
  rw [View.canon_cons_unit_zero hz3]
  simp only [View.readAt_eq_ld, harg2.read_unread, harg3.read_unread, harg4.read_unread, harg6.read_unread, harg7.read_unread, harg8.read_unread,
    View.ld_unit_zero (S := S100x4096) hz2, View.ld_unit_zero (S := S100x100) hz2, View.ld_unit_zero (S := S1x100x60) hz3,
    View.ld_unit_zero (S := S1x1x60) hz3]
  rw [View.readCov_unit_zero (S := S1x100x60) arg8.view hz3]

theorem outB_eq (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : ¬cFirst i) (hc1 : cActor i) (hc2 : ¬cCritic i) (hc3 : ¬cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (xo : Vec F S1x100x60 .f32) :
    outB c i arg2 harg2 arg3 harg3 arg4 harg4 arg5 harg5 arg6 harg6 arg7 harg7 arg8 harg8 hc0 hc1 hc2 hc3 x0 x1 x2 x3 x4 x5 xo = k0_pay6 x0 x1 (View.ld x2 slab0) (View.ld x2 slab1) (View.ld x2 slab2) xo := by
  unfold outB
  rw [View.read_writes_eq_canon _ _ _ (coverB c i arg2 harg2 arg3 harg3 arg4 harg4 arg5 harg5 arg6 harg6 arg7 harg7 arg8 harg8 hc0 hc1 hc2 hc3 x0 x1 x2 x3 x4 x5 xo)]
  unfold runB
  dsimp only
  try sl_unfold_words
  rw [View.canon_unit_zero hz3]
  simp only [View.readAt_eq_ld, harg2.read_unread, harg3.read_unread, harg4.read_unread, harg6.read_unread, harg7.read_unread, harg8.read_unread,
    View.ld_unit_zero (S := S100x4096) hz2, View.ld_unit_zero (S := S100x100) hz2, View.ld_unit_zero (S := S1x100x60) hz3,
    View.ld_unit_zero (S := S1x1x60) hz3]

theorem outC_eq (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : ¬cFirst i) (hc1 : cActor i) (hc2 : ¬cCritic i) (hc3 : cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (xo : Vec F S1x100x60 .f32) :
    outC c i arg2 harg2 arg3 harg3 arg4 harg4 arg5 harg5 arg6 harg6 arg7 harg7 arg8 harg8 hc0 hc1 hc2 hc3 x0 x1 x2 x3 x4 x5 xo = k0_pay8 (k0_pay6 x0 x1 (View.ld x2 slab0) (View.ld x2 slab1) (View.ld x2 slab2) xo) x4 x5 := by
  unfold outC
  rw [View.read_writes_eq_canon _ _ _ (coverC c i arg2 harg2 arg3 harg3 arg4 harg4 arg5 harg5 arg6 harg6 arg7 harg7 arg8 harg8 hc0 hc1 hc2 hc3 x0 x1 x2 x3 x4 x5 xo)]
  unfold runC
  dsimp only
  try sl_unfold_words
  rw [View.canon_cons_unit_zero hz3]
  simp only [View.readAt_eq_ld, harg2.read_unread, harg3.read_unread, harg4.read_unread, harg6.read_unread, harg7.read_unread, harg8.read_unread,
    View.ld_unit_zero (S := S100x4096) hz2, View.ld_unit_zero (S := S100x100) hz2, View.ld_unit_zero (S := S1x100x60) hz3,
    View.ld_unit_zero (S := S1x1x60) hz3]
  rw [View.readCov_unit_zero (S := S1x100x60) arg8.view hz3]

theorem outD_eq (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : cFirst i) (hc1 : ¬cActor i) (hc2 : cCritic i) (hc3 : ¬cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) :
    outD c i arg2 harg2 arg3 harg3 arg4 harg4 arg5 harg5 arg6 harg6 arg7 harg7 arg8 harg8 hc0 hc1 hc2 hc3 x0 x1 x2 x3 x4 x5 = k0_pay7 x0 x1 (View.ld x3 slab0) (View.ld x3 slab1) (View.ld x3 slab2) (k0_pay1 (F := F)) := by
  unfold outD
  rw [View.read_writes_eq_canon _ _ _ (coverD c i arg2 harg2 arg3 harg3 arg4 harg4 arg5 harg5 arg6 harg6 arg7 harg7 arg8 harg8 hc0 hc1 hc2 hc3 x0 x1 x2 x3 x4 x5)]
  unfold runD
  dsimp only
  try sl_unfold_words
  rw [View.canon_cons_unit_zero hz3]
  simp only [View.readAt_eq_ld, harg2.read_unread, harg3.read_unread, harg5.read_unread, harg6.read_unread, harg7.read_unread, harg8.read_unread,
    View.ld_unit_zero (S := S100x4096) hz2, View.ld_unit_zero (S := S100x100) hz2, View.ld_unit_zero (S := S1x100x60) hz3,
    View.ld_unit_zero (S := S1x1x60) hz3]
  rw [View.readCov_unit_zero (S := S1x100x60) arg8.view hz3]

theorem outE_eq (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : ¬cFirst i) (hc1 : ¬cActor i) (hc2 : cCritic i) (hc3 : ¬cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (xo : Vec F S1x100x60 .f32) :
    outE c i arg2 harg2 arg3 harg3 arg4 harg4 arg5 harg5 arg6 harg6 arg7 harg7 arg8 harg8 hc0 hc1 hc2 hc3 x0 x1 x2 x3 x4 x5 xo = k0_pay7 x0 x1 (View.ld x3 slab0) (View.ld x3 slab1) (View.ld x3 slab2) xo := by
  unfold outE
  rw [View.read_writes_eq_canon _ _ _ (coverE c i arg2 harg2 arg3 harg3 arg4 harg4 arg5 harg5 arg6 harg6 arg7 harg7 arg8 harg8 hc0 hc1 hc2 hc3 x0 x1 x2 x3 x4 x5 xo)]
  unfold runE
  dsimp only
  try sl_unfold_words
  rw [View.canon_unit_zero hz3]
  simp only [View.readAt_eq_ld, harg2.read_unread, harg3.read_unread, harg5.read_unread, harg6.read_unread, harg7.read_unread, harg8.read_unread,
    View.ld_unit_zero (S := S100x4096) hz2, View.ld_unit_zero (S := S100x100) hz2, View.ld_unit_zero (S := S1x100x60) hz3,
    View.ld_unit_zero (S := S1x1x60) hz3]

theorem outF_eq (c : Dev nD) (i : grid0.Coords) (arg2 : Memref sig .tc .vmem S100x4096 .f32) (harg2 : arg2.IsWhole) (arg3 : Memref sig .tc .vmem S100x100 .bf16) (harg3 : arg3.IsWhole) (arg4 : Memref sig .tc .vmem S3x4096x60 .f32) (harg4 : arg4.IsWhole) (arg5 : Memref sig .tc .vmem S3x4096x60 .f32) (harg5 : arg5.IsWhole) (arg6 : Memref sig .tc .vmem S1x1x60 .f32) (harg6 : arg6.IsWhole) (arg7 : Memref sig .tc .vmem S1x1x60 .f32) (harg7 : arg7.IsWhole) (arg8 : Memref sig .tc .vmem S1x100x60 .f32) (harg8 : arg8.IsWhole) (hc0 : ¬cFirst i) (hc1 : ¬cActor i) (hc2 : cCritic i) (hc3 : cLast i)
    (x0 : Vec F S100x4096 .f32) (x1 : Vec F S100x100 .bf16) (x2 : Vec F S3x4096x60 .f32) (x3 : Vec F S3x4096x60 .f32) (x4 : Vec F S1x1x60 .f32) (x5 : Vec F S1x1x60 .f32) (xo : Vec F S1x100x60 .f32) :
    outF c i arg2 harg2 arg3 harg3 arg4 harg4 arg5 harg5 arg6 harg6 arg7 harg7 arg8 harg8 hc0 hc1 hc2 hc3 x0 x1 x2 x3 x4 x5 xo = k0_pay8 (k0_pay7 x0 x1 (View.ld x3 slab0) (View.ld x3 slab1) (View.ld x3 slab2) xo) x4 x5 := by
  unfold outF
  rw [View.read_writes_eq_canon _ _ _ (coverF c i arg2 harg2 arg3 harg3 arg4 harg4 arg5 harg5 arg6 harg6 arg7 harg7 arg8 harg8 hc0 hc1 hc2 hc3 x0 x1 x2 x3 x4 x5 xo)]
  unfold runF
  dsimp only
  try sl_unfold_words
  rw [View.canon_cons_unit_zero hz3]
  simp only [View.readAt_eq_ld, harg2.read_unread, harg3.read_unread, harg5.read_unread, harg6.read_unread, harg7.read_unread, harg8.read_unread,
    View.ld_unit_zero (S := S100x4096) hz2, View.ld_unit_zero (S := S100x100) hz2, View.ld_unit_zero (S := S1x100x60) hz3,
    View.ld_unit_zero (S := S1x1x60) hz3]
  rw [View.readCov_unit_zero (S := S1x100x60) arg8.view hz3]

end Cert.KernelIdeal.Body

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.Spec.lean ====
/-
  The common value of the two programs, on the extended reals, for one head (actor or critic).

  A graph on 100 nodes has 1600 directed edges; edge `a` goes from node `s a` to node `d a` and carries a weight
  `w a`. One propagation step sends a feature matrix `Z` (100 nodes by 65536 channels) to the matrix whose row `r` is
  the weighted sum, over the edges ending at `r`, of the rows of `Z` at the edges' starting nodes. The order-3
  Chebyshev convolution uses `T0 = X`, `T1 = prop X`, `T2 = 2 · prop (prop X) − X`, multiplies each by its own
  65536 × 60 weight matrix, adds the three products and a bias, applies tanh and adds a per-column offset.
-/
import Idealize.ShloMosaic.PureOps.Ideal
import Idealize.ShloMosaic.Lib.ValueIdx

noncomputable section

namespace Cert.Spec

open Idealize.ShloMosaic

/-- The float literal 2.0 as the programs carry it. -/
def two : EReal := Ideal.ofBits .f32 0x40000000#32

/-- One propagation step: entry `(r, c)` is the sum over the edges `a` ending at `r` of `w a · Z (s a, c)`. -/
def prop (s d : Fin 1600 → Fin 100) (w : Fin 1600 → EReal) (Z : Fin 100 → Fin 65536 → EReal)
    (r : Fin 100) (c : Fin 65536) : EReal :=
  ∑ a : Fin 1600, if d a = r then w a * Z (s a) c else 0

/-- The second Chebyshev term `2 · prop (prop X) − X`. -/
def cheb2 (s d : Fin 1600 → Fin 100) (w : Fin 1600 → EReal) (X : Fin 100 → Fin 65536 → EReal)
    (r : Fin 100) (c : Fin 65536) : EReal :=
  two * prop s d w (prop s d w X) r c - X r c

/-- The three matrix products added up, before the bias: `(X·W₀ + prop X·W₁) + cheb2 X·W₂` at `(r, o)`. -/
def pre (s d : Fin 1600 → Fin 100) (w : Fin 1600 → EReal) (X : Fin 100 → Fin 65536 → EReal)
    (W : Fin 3 → Fin 65536 → Fin 60 → EReal) (r : Fin 100) (o : Fin 60) : EReal :=
  ((∑ k : Fin 65536, X r k * W 0 k o) + ∑ k : Fin 65536, prop s d w X r k * W 1 k o)
    + ∑ k : Fin 65536, cheb2 s d w X r k * W 2 k o

/-- The embedding of one head: `tanh (pre + b) + vn` at `(r, o)`. -/
def emb (s d : Fin 1600 → Fin 100) (w : Fin 1600 → EReal) (X : Fin 100 → Fin 65536 → EReal)
    (W : Fin 3 → Fin 65536 → Fin 60 → EReal) (b vn : Fin 60 → EReal) (r : Fin 100) (o : Fin 60) : EReal :=
  Ideal.tanh (pre s d w X W r o + b o) + vn o

end Cert.Spec

end
-- ==== Proof.IdealPayloads.lean ====
/-
  The kernel body's stored values read at an index, over the extended reals.

  One grid step of the kernel holds a tile X (100 nodes by 4096 channels), the dense 100 × 100 propagation matrix L,
  the matching 4096 × 60 tiles of the three weight matrices, and the 100 × 60 accumulator. It forms
  Z1 = L · X and Z2 = 2 · (L · Z1) − X, multiplies X, Z1 and Z2 by their weight tiles, adds the three products and
  adds the result to the accumulator. After the last tile it adds the bias, applies tanh and adds the offset.
  The format changes between the 32-bit and the 16-bit floats are the identity on the extended reals, each matrix
  product into a zero array is the textbook sum over the contracted axis, and the casts that add or drop a leading
  unit axis only rename the index.
-/
import proofs.«132327_j50706383897350_2_alg».proof.Proof.Gen.KernelIdeal.Skeleton
import proofs.«132327_j50706383897350_2_alg».proof.Proof.LibPlainDot
import proofs.«132327_j50706383897350_2_alg».proof.Proof.Spec
import Idealize.ShloMosaic.Lib.ValueLayout
import Idealize.ShloMosaic.Lib.Pipeline.Value

noncomputable section

open scoped BigOperators

namespace Cert.KernelIdeal.Payloads

open Idealize.ShloMosaic Idealize.ShloMosaic.ValueIdx Idealize.SL.Sem Cert.KernelIdeal Cert.KernelIdeal.Gen
open Cert.Proof

/-- Row r of L · X at channel k. -/
def Z1 (x : Vec Ideal S100x4096 .f32) (L : Vec Ideal S100x100 .bf16) (r : Fin 100) (k : Fin 4096) : EReal :=
  ∑ s : Fin 100, L (ix2 r s) * x (ix2 s k)

/-- Row r of 2 · (L · Z1) − X at channel k. -/
def Z2 (x : Vec Ideal S100x4096 .f32) (L : Vec Ideal S100x100 .bf16) (r : Fin 100) (k : Fin 4096) : EReal :=
  Cert.Spec.two * (∑ s : Fin 100, L (ix2 r s) * Z1 x L s k) - x (ix2 r k)

/-- The zero block. -/
theorem pay1_apply (r : Fin 100) (o : Fin 60) : k0_pay1 (F := Ideal) (ix3 0 r o) = 0 := by
  unfold k0_pay1
  refine (shapeCast_ab_1ab_apply _ _ 0 r o).trans ?_
  exact Ideal.ofBits_zero_f32

/-- The tile X in the 16-bit format is X. -/
theorem pay2_apply (x : Vec Ideal S100x4096 .f32) (j : S100x4096.Idx) : k0_pay2 (F := Ideal) x j = x j := rfl

/-- The cast of L to its own shape is L. -/
theorem pay3_apply (L : Vec Ideal S100x100 .bf16) (j : S100x100.Idx) : k0_pay3 (F := Ideal) L j = L j :=
  congrFun (shapeCast_self L _) j

/-- The first propagation: L · X at (r, k). -/
theorem pay4_apply (x : Vec Ideal S100x4096 .f32) (L : Vec Ideal S100x100 .bf16) (r : Fin 100) (k : Fin 4096) :
    k0_pay4 (F := Ideal) x L (ix2 r k) = Z1 x L r k := by
  unfold k0_pay4
  refine (PlainDot.matmul_plain_zero (M := 100) (K := 100) (N := 4096) none (k0_pay3 (F := Ideal) L)
    (k0_pay2 (F := Ideal) x) (ix2 r k)).trans ?_
  exact Finset.sum_congr rfl fun s _ => congrArg₂ (· * ·) (pay3_apply L _) (pay2_apply x _)

/-- The second Chebyshev term: 2 · (L · Z1) − X at (r, k). -/
theorem pay5_apply (x : Vec Ideal S100x4096 .f32) (L : Vec Ideal S100x100 .bf16) (r : Fin 100) (k : Fin 4096) :
    k0_pay5 (F := Ideal) x L (ix2 r k) = Z2 x L r k := by
  unfold k0_pay5
  refine congrArg (fun t : EReal => Cert.Spec.two * t - x (ix2 r k)) ?_
  refine (PlainDot.matmul_plain_zero (M := 100) (K := 100) (N := 4096) none (k0_pay3 (F := Ideal) L)
    (k0_pay4 (F := Ideal) x L) (ix2 r k)).trans ?_
  exact Finset.sum_congr rfl fun s _ => congrArg₂ (· * ·) (pay3_apply L _) (pay4_apply x L s k)

/-- A product of a 100 × 4096 array with a weight tile (cast from [1, 4096, 60] and narrowed) into the zero array:
    entry (r, o) is the sum over the 4096 channels of the tile. -/
theorem wdot_apply (A : FVec Ideal S100x4096 .bf16) (w : Vec Ideal S1x4096x60 .f32) (a : Fin 100 → Fin 4096 → EReal)
    (hA : ∀ r k, A (ix2 r k) = a r k) (r : Fin 100) (o : Fin 60) :
    matmul dot_S100x4096_S4096x60_S100x60_1_0_0_1_n_n none A
        (truncf .bf16 (shapeCast S4096x60 w shapeCasts_S1x4096x60_S4096x60) bitsLt_bf16_f32)
        (constant (F := Ideal) S100x60 .f32 0x00000000#32) (ix2 r o)
      = ∑ k : Fin 4096, a r k * w (ix3 0 k o) := by
  refine (PlainDot.matmul_plain_zero (M := 100) (K := 4096) (N := 60) none A
    (truncf .bf16 (shapeCast S4096x60 w shapeCasts_S1x4096x60_S4096x60) bitsLt_bf16_f32) (ix2 r o)).trans ?_
  exact Finset.sum_congr rfl fun k _ => congrArg₂ (· * ·) (hA r k) (shapeCast_1ab_ab_apply w _ k o)

/-- The accumulator update of the first head: the accumulator plus (X·W₀ + Z1·W₁) + Z2·W₂ over the tile. -/
theorem pay6_apply (x : Vec Ideal S100x4096 .f32) (L : Vec Ideal S100x100 .bf16)
    (w0 w1 w2 : Vec Ideal S1x4096x60 .f32) (acc : Vec Ideal S1x100x60 .f32) (r : Fin 100) (o : Fin 60) :
    k0_pay6 (F := Ideal) x L w0 w1 w2 acc (ix3 0 r o)
      = acc (ix3 0 r o) + (((∑ k : Fin 4096, x (ix2 r k) * w0 (ix3 0 k o))
          + ∑ k : Fin 4096, Z1 x L r k * w1 (ix3 0 k o)) + ∑ k : Fin 4096, Z2 x L r k * w2 (ix3 0 k o)) := by
  unfold k0_pay6
  refine (shapeCast_ab_1ab_apply _ _ 0 r o).trans ?_
  refine (addf_apply _ _ _).trans ?_
  refine congrArg₂ (· + ·) (shapeCast_1ab_ab_apply acc _ r o) ?_
  refine (addf_apply _ _ _).trans ?_
  refine congrArg₂ (· + ·) ?_ (wdot_apply (k0_pay5 (F := Ideal) x L) w2 (Z2 x L) (pay5_apply x L) r o)
  refine (addf_apply _ _ _).trans ?_
  exact congrArg₂ (· + ·) (wdot_apply (k0_pay2 (F := Ideal) x) w0 (fun r k => x (ix2 r k)) (fun _ _ => rfl) r o)
    (wdot_apply (k0_pay4 (F := Ideal) x L) w1 (Z1 x L) (pay4_apply x L) r o)

/-- The accumulator update of the second head: the same function of its loads. -/
theorem pay7_apply (x : Vec Ideal S100x4096 .f32) (L : Vec Ideal S100x100 .bf16)
    (w0 w1 w2 : Vec Ideal S1x4096x60 .f32) (acc : Vec Ideal S1x100x60 .f32) (r : Fin 100) (o : Fin 60) :
    k0_pay7 (F := Ideal) x L w0 w1 w2 acc (ix3 0 r o)
      = acc (ix3 0 r o) + (((∑ k : Fin 4096, x (ix2 r k) * w0 (ix3 0 k o))
          + ∑ k : Fin 4096, Z1 x L r k * w1 (ix3 0 k o)) + ∑ k : Fin 4096, Z2 x L r k * w2 (ix3 0 k o)) :=
  pay6_apply x L w0 w1 w2 acc r o

/-- A [1, 1, 60] row cast to [1, 60] and repeated down the 100 rows reads, at (r, o), the row at o. -/
theorem row_apply (v : Vec Ideal S1x1x60 .f32) (r : Fin 100) (o : Fin 60) :
    broadcastTo S100x60 (shapeCast S1x60 v shapeCasts_S1x1x60_S1x60) broadcasts_S1x60_S100x60 (ix2 r o)
      = v (ix3 0 0 o) := by
  refine (broadcastTo_apply (shapeCast S1x60 v shapeCasts_S1x1x60_S1x60) broadcasts_S1x60_S100x60 (ix2 r o)
    (ix2 (0 : Fin 1) o) fun a => ?_).trans (shapeCast_1ab_ab_apply v _ 0 o)
  match a with
  | ⟨0, _⟩ => rfl
  | ⟨1, _⟩ => rfl

/-- The finishing step: tanh of the accumulator plus the bias, plus the offset. -/
theorem pay8_apply (acc : Vec Ideal S1x100x60 .f32) (b vn : Vec Ideal S1x1x60 .f32) (r : Fin 100) (o : Fin 60) :
    k0_pay8 (F := Ideal) acc b vn (ix3 0 r o) = Ideal.tanh (acc (ix3 0 r o) + b (ix3 0 0 o)) + vn (ix3 0 0 o) := by
  unfold k0_pay8
  refine (shapeCast_ab_1ab_apply _ _ 0 r o).trans ?_
  refine (addf_apply _ _ _).trans ?_
  refine congrArg₂ (· + ·) ?_ (row_apply vn r o)
  refine congrArg Ideal.tanh ?_
  refine (addf_apply _ _ _).trans ?_
  exact congrArg₂ (· + ·) (shapeCast_1ab_ab_apply acc _ r o) (row_apply b r o)

end Cert.KernelIdeal.Payloads

end
-- ==== Proof.IdealBlocks.lean ====
/-
  The windows' blocks of the graph-convolution call at a grid point, coordinate by coordinate.

  The call runs over a 2 × 16 grid: point `t` is head `t / 16` (0 or 1), channel tile `t % 16`. Each input
  window cuts a block out of its array at a position its index map gives; this module evaluates the six index maps
  over the 32 points and reads each block entry as the array's entry at explicit coordinates:

    * the features [100, 65536]: rows all, channels `(t % 16) · 4096 + k`;
    * the propagation matrix [100, 100]: whole;
    * a head's three weight matrices [3, 65536, 60], while that head is current: channels `(t % 16) · 4096 + k`;
    * the bias and offset rows [2, 1, 60]: row `t / 16`.
-/
import proofs.«132327_j50706383897350_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-! ## The index maps over the grid

Point `t` of the 2 × 16 grid is head `t / 16`, channel tile `t % 16`. Each fact below is decided once over the 32
points. -/

/-- The features' window sits at block row 0, block column the channel tile. -/
theorem idx0 : ∀ t : Fin cfg0.N, win0_0.index t 0 = 0 ∧ win0_0.index t 1 = t.val % 16 :=
  (by decide +kernel : ∀ t : Fin grid0.N, win0_0.index t 0 = 0 ∧ win0_0.index t 1 = t.val % 16)

/-- The propagation matrix's window is the whole array at every point. -/
theorem idx1 : ∀ t : Fin cfg0.N, win0_1.index t 0 = 0 ∧ win0_1.index t 1 = 0 :=
  (by decide +kernel : ∀ t : Fin grid0.N, win0_1.index t 0 = 0 ∧ win0_1.index t 1 = 0)

/-- The first head's weights: the channel tile while the head is 0, tile 0 afterwards. -/
theorem idx2 : ∀ t : Fin cfg0.N, win0_2.index t 0 = 0
    ∧ win0_2.index t 1 = (if t.val < 16 then t.val % 16 else 0) ∧ win0_2.index t 2 = 0 :=
  (by decide +kernel : ∀ t : Fin grid0.N, win0_2.index t 0 = 0
    ∧ win0_2.index t 1 = (if t.val < 16 then t.val % 16 else 0) ∧ win0_2.index t 2 = 0)

/-- The second head's weights: tile 0 while the head is 0, the channel tile afterwards. -/
theorem idx3 : ∀ t : Fin cfg0.N, win0_3.index t 0 = 0
    ∧ win0_3.index t 1 = (if 16 ≤ t.val then t.val % 16 else 0) ∧ win0_3.index t 2 = 0 :=
  (by decide +kernel : ∀ t : Fin grid0.N, win0_3.index t 0 = 0
    ∧ win0_3.index t 1 = (if 16 ≤ t.val then t.val % 16 else 0) ∧ win0_3.index t 2 = 0)

/-- The bias rows' window sits at the head's row. -/
theorem idx4 : ∀ t : Fin cfg0.N, win0_4.index t 0 = t.val / 16 ∧ win0_4.index t 1 = 0 ∧ win0_4.index t 2 = 0 :=
  (by decide +kernel : ∀ t : Fin grid0.N, win0_4.index t 0 = t.val / 16 ∧ win0_4.index t 1 = 0 ∧ win0_4.index t 2 = 0)

/-- The offset rows' window sits at the head's row. -/
theorem idx5 : ∀ t : Fin cfg0.N, win0_5.index t 0 = t.val / 16 ∧ win0_5.index t 1 = 0 ∧ win0_5.index t 2 = 0 :=
  (by decide +kernel : ∀ t : Fin grid0.N, win0_5.index t 0 = t.val / 16 ∧ win0_5.index t 1 = 0 ∧ win0_5.index t 2 = 0)

/-! ## The blocks, coordinate by coordinate

A block's coordinate in its array is the index map's value times the block's extent, plus the coordinate inside the
block. -/

/-- The features' block at point `t`: all 100 rows, the 4096 channels of tile `t % 16`. -/
theorem blk0 (c : Dev nD) (t : Fin cfg0.N) (r : Fin 100) (k : Fin 4096) :
    (iblk m c 0 t : Vec F S100x4096 .f32) (ix2 r k)
      = (V m c main_arg0 : S100x65536.Idx → Elt F .f32) (ix2 r ⟨(t.val % 16) * 4096 + k.val, by omega⟩) := by
  have hi := idx0 t
  unfold iblk
  rw [View.read_apply]
  show V m c main_arg0 _ = V m c main_arg0 _
  congr 1
  funext a
  apply Fin.ext
  match a with
  | ⟨0, _⟩ => show win0_0.index t 0 * 100 + 1 * r.val = r.val; rw [hi.1]; omega
  | ⟨1, _⟩ => show win0_0.index t 1 * 4096 + 1 * k.val = (t.val % 16) * 4096 + k.val; rw [hi.2]; omega

/-- The propagation matrix's block at any point is the whole matrix. -/
theorem blk1 (c : Dev nD) (t : Fin cfg0.N) (r u : Fin 100) :
    (iblk m c 1 t : Vec F S100x100 .bf16) (ix2 r u)
      = (V m c main_v45 : S100x100.Idx → Elt F .bf16) (ix2 r u) := by
  have hi := idx1 t
  unfold iblk
  rw [View.read_apply]
  show V m c main_v45 _ = V m c main_v45 _
  congr 1
  funext a
  apply Fin.ext
  match a with
  | ⟨0, _⟩ => show win0_1.index t 0 * 100 + 1 * r.val = r.val; rw [hi.1]; omega
  | ⟨1, _⟩ => show win0_1.index t 1 * 100 + 1 * u.val = u.val; rw [hi.2]; omega

/-- The first head's weight block while the head is 0: all three matrices, the 4096 channels of the tile. -/
theorem blk2 (c : Dev nD) (t : Fin cfg0.N) (ht : t.val < 16) (J : Fin 3) (k : Fin 4096) (o : Fin 60) :
    (iblk m c 2 t : Vec F S3x4096x60 .f32) (ix3 J k o)
      = (V m c main_arg3 : S3x65536x60.Idx → Elt F .f32) (ix3 J ⟨(t.val % 16) * 4096 + k.val, by omega⟩ o) := by
  have hi := idx2 t
  rw [if_pos ht] at hi
  unfold iblk
  rw [View.read_apply]
  show V m c main_arg3 _ = V m c main_arg3 _
  congr 1
  funext a
  apply Fin.ext
  match a with
  | ⟨0, _⟩ => show win0_2.index t 0 * 3 + 1 * J.val = J.val; rw [hi.1]; omega
  | ⟨1, _⟩ => show win0_2.index t 1 * 4096 + 1 * k.val = (t.val % 16) * 4096 + k.val; rw [hi.2.1]; omega
  | ⟨2, _⟩ => show win0_2.index t 2 * 60 + 1 * o.val = o.val; rw [hi.2.2]; omega

/-- The second head's weight block while the head is 1: all three matrices, the 4096 channels of the tile. -/
theorem blk3 (c : Dev nD) (t : Fin cfg0.N) (ht : 16 ≤ t.val) (J : Fin 3) (k : Fin 4096) (o : Fin 60) :
    (iblk m c 3 t : Vec F S3x4096x60 .f32) (ix3 J k o)
      = (V m c main_arg5 : S3x65536x60.Idx → Elt F .f32) (ix3 J ⟨(t.val % 16) * 4096 + k.val, by omega⟩ o) := by
  have hi := idx3 t
  rw [if_pos ht] at hi
  unfold iblk
  rw [View.read_apply]
  show V m c main_arg5 _ = V m c main_arg5 _
  congr 1
  funext a
  apply Fin.ext
  match a with
  | ⟨0, _⟩ => show win0_3.index t 0 * 3 + 1 * J.val = J.val; rw [hi.1]; omega
  | ⟨1, _⟩ => show win0_3.index t 1 * 4096 + 1 * k.val = (t.val % 16) * 4096 + k.val; rw [hi.2.1]; omega
  | ⟨2, _⟩ => show win0_3.index t 2 * 60 + 1 * o.val = o.val; rw [hi.2.2]; omega

/-- The bias block at point `t` is the head's row of biases. -/
theorem blk4 (c : Dev nD) (t : Fin cfg0.N) (o : Fin 60) :
    (iblk m c 4 t : Vec F S1x1x60 .f32) (ix3 0 0 o)
      = (V m c main_v60 : S2x1x60.Idx → Elt F .f32)
          (ix3 ⟨t.val / 16, by have := t.isLt; have : cfg0.N = 32 := N_0; omega⟩ 0 o) := by
  have hi := idx4 t
  unfold iblk
  rw [View.read_apply]
  show V m c main_v60 _ = V m c main_v60 _
  congr 1
  funext a
  apply Fin.ext
  match a with
  | ⟨0, _⟩ => show win0_4.index t 0 * 1 + 1 * 0 = t.val / 16; rw [hi.1]; omega
  | ⟨1, _⟩ => show win0_4.index t 1 * 1 + 1 * 0 = 0; rw [hi.2.1]
  | ⟨2, _⟩ => show win0_4.index t 2 * 60 + 1 * o.val = o.val; rw [hi.2.2]; omega

/-- The offset block at point `t` is the head's row of offsets. -/
theorem blk5 (c : Dev nD) (t : Fin cfg0.N) (o : Fin 60) :
    (iblk m c 5 t : Vec F S1x1x60 .f32) (ix3 0 0 o)
      = (V m c main_v64 : S2x1x60.Idx → Elt F .f32)
          (ix3 ⟨t.val / 16, by have := t.isLt; have : cfg0.N = 32 := N_0; omega⟩ 0 o) := by
  have hi := idx5 t
  unfold iblk
  rw [View.read_apply]
  show V m c main_v64 _ = V m c main_v64 _
  congr 1
  funext a
  apply Fin.ext
  match a with
  | ⟨0, _⟩ => show win0_5.index t 0 * 1 + 1 * 0 = t.val / 16; rw [hi.1]; omega
  | ⟨1, _⟩ => show win0_5.index t 1 * 1 + 1 * 0 = 0; rw [hi.2.1]
  | ⟨2, _⟩ => show win0_5.index t 2 * 60 + 1 * o.val = o.val; rw [hi.2.2]; omega

end Cert.KernelIdeal.Blocks

end
-- ==== Proof.PropLaw.lean ====
/-
  Laws of the propagation step on the extended reals.

  The extended reals are not a ring: products do not distribute over sums when infinities of both signs can meet.
  The weights and the features of the graph convolution are real numbers, and on real numbers the coercion into
  the extended reals carries sums, products and differences to sums, products and differences. This module moves
  the sums it needs through that coercion:

    * `dense_eq_prop`: multiplying by the dense 100 × 100 matrix that adds each edge weight at (end node, start
      node) is the edge-by-edge propagation step;
    * `prop_real`, `cheb2_real`: the propagation step and the second Chebyshev term of real data are real;
    * `sum_tiles`: a sum over 65536 channels is the sum of its 16 tiles of 4096 channels;
    * `acc16`: sixteen three-term partial sums added from zero regroup into three sums.
-/
import Idealize.ShloMosaic.PureOps.Ideal
import Idealize.ShloMosaic.Lib.ValueIdx
import proofs.«132327_j50706383897350_2_alg».proof.Proof.Spec

noncomputable section

open scoped BigOperators

namespace Cert.Spec

open Idealize.ShloMosaic

/-- The coercion of the reals into the extended reals carries finite sums to finite sums. -/
theorem coe_sum {ι : Type*} (S : Finset ι) (f : ι → ℝ) :
    ((∑ i ∈ S, f i : ℝ) : EReal) = ∑ i ∈ S, (f i : EReal) := by
  classical
  refine Finset.induction_on S (by simp) ?_
  intro a S ha ih
  rw [Finset.sum_insert ha, Finset.sum_insert ha, EReal.coe_add, ih]

/-- A real number or zero, chosen by a condition, is the coercion of the real choice. -/
theorem coe_ite (p : Prop) [Decidable p] (x : ℝ) :
    (if p then (x : EReal) else 0) = ((if p then x else 0 : ℝ) : EReal) := by
  split <;> simp

/-- A finite sum of real extended reals is real. -/
theorem sum_real {ι : Type*} (S : Finset ι) (f : ι → EReal) (h : ∀ i ∈ S, ∃ x : ℝ, f i = (x : EReal)) :
    ∃ x : ℝ, ∑ i ∈ S, f i = (x : EReal) := by
  classical
  revert h
  refine Finset.induction_on S (fun _ => ⟨0, by simp⟩) ?_
  intro a S ha ih h
  obtain ⟨x, hx⟩ := h a (Finset.mem_insert_self a S)
  obtain ⟨y, hy⟩ := ih (fun i hi => h i (Finset.mem_insert_of_mem hi))
  exact ⟨x + y, by rw [Finset.sum_insert ha, hx, hy, EReal.coe_add]⟩

/-- The float literal 2.0 denotes the real number 2. -/
theorem two_eq : two = ((2 : ℝ) : EReal) := by
  unfold two
  simp [Ideal.ofBits, Ideal.ieee, -EReal.coe_mul]; norm_num

/-- The dense form of one propagation step: the 100 × 100 matrix that holds, at `(r, t)`, the sum of the weights
    of the edges from `t` to `r`, times `Z`, is the edge-by-edge sum. The weights and the entries of `Z` are real,
    so the products distribute over the sums. -/
theorem dense_eq_prop (s d : Fin 1600 → Fin 100) (w : Fin 1600 → EReal) (Z : Fin 100 → Fin 65536 → EReal)
    (hw : ∀ a, ∃ x : ℝ, w a = (x : EReal)) (hZ : ∀ t c, ∃ x : ℝ, Z t c = (x : EReal))
    (r : Fin 100) (c : Fin 65536) :
    (∑ t : Fin 100, (∑ a : Fin 1600, if d a = r ∧ s a = t then w a else 0) * Z t c) = prop s d w Z r c := by
  choose wr hwr using hw
  choose zr hzr using hZ
  unfold prop
  have hL : ∀ t : Fin 100, (∑ a : Fin 1600, if d a = r ∧ s a = t then w a else 0) * Z t c
      = (((∑ a : Fin 1600, if d a = r ∧ s a = t then wr a else 0) * zr t c : ℝ) : EReal) := by
    intro t
    rw [EReal.coe_mul, coe_sum, hzr]
    congr 1
    apply Finset.sum_congr rfl
    intro a _
    rw [hwr]
    exact coe_ite _ _
  have hR : ∀ a : Fin 1600, (if d a = r then w a * Z (s a) c else 0)
      = ((if d a = r then wr a * zr (s a) c else 0 : ℝ) : EReal) := by
    intro a
    rw [hwr, hzr, ← EReal.coe_mul]
    exact coe_ite _ _
  rw [Finset.sum_congr rfl (fun t _ => hL t), Finset.sum_congr rfl (fun a _ => hR a), ← coe_sum, ← coe_sum]
  congr 1
  simp only [Finset.sum_mul]
  rw [Finset.sum_comm]
  apply Finset.sum_congr rfl
  intro a _
  by_cases h : d a = r
  · simp [h, ite_mul]
  · simp [h]

/-- One propagation step of a real matrix with real weights is real. -/
theorem prop_real (s d : Fin 1600 → Fin 100) (w : Fin 1600 → EReal) (Z : Fin 100 → Fin 65536 → EReal)
    (hw : ∀ a, ∃ x : ℝ, w a = (x : EReal)) (hZ : ∀ t c, ∃ x : ℝ, Z t c = (x : EReal))
    (r : Fin 100) (c : Fin 65536) : ∃ x : ℝ, prop s d w Z r c = (x : EReal) := by
  unfold prop
  apply sum_real
  intro a _
  obtain ⟨x, hx⟩ := hw a
  obtain ⟨y, hy⟩ := hZ (s a) c
  by_cases h : d a = r
  · exact ⟨x * y, by rw [if_pos h, hx, hy, EReal.coe_mul]⟩
  · exact ⟨0, by rw [if_neg h, EReal.coe_zero]⟩

/-- The second Chebyshev term of a real matrix with real weights is real. -/
theorem cheb2_real (s d : Fin 1600 → Fin 100) (w : Fin 1600 → EReal) (X : Fin 100 → Fin 65536 → EReal)
    (hw : ∀ a, ∃ x : ℝ, w a = (x : EReal)) (hX : ∀ t c, ∃ x : ℝ, X t c = (x : EReal))
    (r : Fin 100) (c : Fin 65536) : ∃ x : ℝ, cheb2 s d w X r c = (x : EReal) := by
  unfold cheb2
  obtain ⟨p, hp⟩ := prop_real s d w (prop s d w X) hw (fun t c => prop_real s d w X hw hX t c) r c
  obtain ⟨x, hx⟩ := hX r c
  exact ⟨2 * p - x, by rw [hp, hx, two_eq, EReal.coe_sub, EReal.coe_mul]⟩

/-- A sum over `m · n` terms, cut into `m` consecutive tiles of `n` terms. -/
theorem sum_tiles_gen {M : Type*} [AddCommMonoid M] (m n : Nat) (f : Fin (m * n) → M) :
    (∑ x : Fin m × Fin n, f (finProdFinEquiv x)) = ∑ k : Fin (m * n), f k :=
  Fintype.sum_equiv finProdFinEquiv _ _ (fun _ => rfl)

/-- A sum over 65536 terms is the sum of its 16 consecutive tiles of 4096 terms. -/
theorem sum_tiles (f : Fin 65536 → EReal) :
    (∑ t : Fin 16, ∑ k : Fin 4096, f ⟨t.val * 4096 + k.val, by omega⟩) = ∑ k : Fin 65536, f k := by
  rw [← sum_tiles_gen 16 4096 f, Fintype.sum_prod_type]
  apply Finset.sum_congr rfl
  intro t _
  apply Finset.sum_congr rfl
  intro k _
  congr 1
  apply Fin.ext
  simp only [finProdFinEquiv_apply_val]
  omega

/-- Sixteen partial sums of three terms each, added up from zero, regroup into the three sums. -/
theorem acc16 (a b c : Fin 16 → EReal) :
    (0 + ∑ t : Fin 16, ((a t + b t) + c t)) = ((∑ t, a t) + ∑ t, b t) + ∑ t, c t := by
  rw [zero_add, Finset.sum_add_distrib, Finset.sum_add_distrib]

end Cert.Spec

end
-- ==== Proof.AccLaw.lean ====
/-
  The tiled accumulation of the graph convolution, on the extended reals.

  The 65536 channels are cut into 16 tiles of 4096. For each tile the three products (features, one propagation
  step, second Chebyshev term, each against its own weight matrix) are summed over the tile's channels and the
  sixteen contributions are added, one after the other, onto zero. With the dense 100 × 100 propagation matrix
  `L` (each edge weight added at (end node, start node)) and real weights and features, that running total is the
  untiled value `Spec.pre`, so the tiled pipeline ends in `Spec.emb`.
-/
import Idealize.ShloMosaic.PureOps.Ideal
import Idealize.ShloMosaic.Lib.ValueIdx
import proofs.«132327_j50706383897350_2_alg».proof.Proof.Spec
import proofs.«132327_j50706383897350_2_alg».proof.Proof.PropLaw

noncomputable section

open scoped BigOperators

namespace Cert.Spec

open Idealize.ShloMosaic

/-- The running total of `f 0, f 1, …, f n`, started at zero and extended one term at a time. -/
def accum (f : ℕ → EReal) : ℕ → EReal
  | 0 => 0 + f 0
  | n + 1 => accum f n + f (n + 1)

/-- The running total after term `n` is zero plus the sum of the first `n + 1` terms. -/
theorem accum_eq_gen (f : ℕ → EReal) (n : ℕ) : accum f n = 0 + ∑ t : Fin (n + 1), f t.val := by
  induction n with
  | zero => simp [accum]
  | succ n ih =>
    rw [accum, ih, Fin.sum_univ_castSucc (n := n + 1), add_assoc]
    simp only [Fin.coe_castSucc, Fin.val_last]

/-- The running total after sixteen terms. -/
theorem accum_eq (f : ℕ → EReal) : accum f 15 = 0 + ∑ t : Fin 16, f t.val :=
  accum_eq_gen f 15

/-- Channel `k` of tile `t`. -/
def col (t : Fin 16) (k : Fin 4096) : Fin 65536 := ⟨t.val * 4096 + k.val, by omega⟩

/-- One propagation step through the dense matrix `L`, on tile `t`. -/
def Z1t (L : Fin 100 → Fin 100 → EReal) (X : Fin 100 → Fin 65536 → EReal) (t : Fin 16) (r : Fin 100)
    (k : Fin 4096) : EReal :=
  ∑ u : Fin 100, L r u * X u (col t k)

/-- The second Chebyshev term through the dense matrix `L`, on tile `t`. -/
def Z2t (L : Fin 100 → Fin 100 → EReal) (X : Fin 100 → Fin 65536 → EReal) (t : Fin 16) (r : Fin 100)
    (k : Fin 4096) : EReal :=
  two * (∑ u : Fin 100, L r u * Z1t L X t u k) - X r (col t k)

/-- Tile `t`'s contribution to output `(r, o)`: the three products summed over the tile's channels. -/
def contrib (L : Fin 100 → Fin 100 → EReal) (X : Fin 100 → Fin 65536 → EReal)
    (W : Fin 3 → Fin 65536 → Fin 60 → EReal) (t : Fin 16) (r : Fin 100) (o : Fin 60) : EReal :=
  ((∑ k : Fin 4096, X r (col t k) * W 0 (col t k) o) + ∑ k : Fin 4096, Z1t L X t r k * W 1 (col t k) o)
    + ∑ k : Fin 4096, Z2t L X t r k * W 2 (col t k) o

section tiles
variable (s d : Fin 1600 → Fin 100) (w : Fin 1600 → EReal) (X : Fin 100 → Fin 65536 → EReal)
  (L : Fin 100 → Fin 100 → EReal)
  (hL : ∀ r t, L r t = ∑ a : Fin 1600, if d a = r ∧ s a = t then w a else 0)
  (hw : ∀ a, ∃ x : ℝ, w a = (x : EReal)) (hX : ∀ r c, ∃ x : ℝ, X r c = (x : EReal))
include hL hw hX

/-- Through the dense matrix, the propagation step on a tile is the edge-by-edge one at the tile's channel. -/
theorem Z1t_eq (t : Fin 16) (r : Fin 100) (k : Fin 4096) : Z1t L X t r k = prop s d w X r (col t k) := by
  unfold Z1t
  simp only [hL]
  exact dense_eq_prop s d w X hw hX r (col t k)

/-- Through the dense matrix, the second Chebyshev term on a tile is the edge-by-edge one at the tile's channel. -/
theorem Z2t_eq (t : Fin 16) (r : Fin 100) (k : Fin 4096) : Z2t L X t r k = cheb2 s d w X r (col t k) := by
  unfold Z2t cheb2
  simp only [Z1t_eq s d w X L hL hw hX, hL]
  rw [dense_eq_prop s d w (prop s d w X) hw (fun t c => prop_real s d w X hw hX t c) r (col t k)]

end tiles

/-- The sixteen tile contributions added onto zero are the untiled sum of the three products. -/
theorem tiles_pre (s d : Fin 1600 → Fin 100) (w : Fin 1600 → EReal) (X : Fin 100 → Fin 65536 → EReal)
    (W : Fin 3 → Fin 65536 → Fin 60 → EReal) (L : Fin 100 → Fin 100 → EReal)
    (hL : ∀ r t, L r t = ∑ a : Fin 1600, if d a = r ∧ s a = t then w a else 0)
    (hw : ∀ a, ∃ x : ℝ, w a = (x : EReal)) (hX : ∀ r c, ∃ x : ℝ, X r c = (x : EReal))
    (r : Fin 100) (o : Fin 60) :
    (0 + ∑ t : Fin 16, contrib L X W t r o) = pre s d w X W r o := by
  unfold contrib pre
  simp only [Z1t_eq s d w X L hL hw hX, Z2t_eq s d w X L hL hw hX]
  have hacc := acc16 (fun t => ∑ k : Fin 4096, X r (col t k) * W 0 (col t k) o)
    (fun t => ∑ k : Fin 4096, prop s d w X r (col t k) * W 1 (col t k) o)
    (fun t => ∑ k : Fin 4096, cheb2 s d w X r (col t k) * W 2 (col t k) o)
  have e0 : (∑ t : Fin 16, ∑ k : Fin 4096, X r (col t k) * W 0 (col t k) o)
      = ∑ k : Fin 65536, X r k * W 0 k o := sum_tiles (fun k => X r k * W 0 k o)
  have e1 : (∑ t : Fin 16, ∑ k : Fin 4096, prop s d w X r (col t k) * W 1 (col t k) o)
      = ∑ k : Fin 65536, prop s d w X r k * W 1 k o := sum_tiles (fun k => prop s d w X r k * W 1 k o)
  have e2 : (∑ t : Fin 16, ∑ k : Fin 4096, cheb2 s d w X r (col t k) * W 2 (col t k) o)
      = ∑ k : Fin 65536, cheb2 s d w X r k * W 2 k o := sum_tiles (fun k => cheb2 s d w X r k * W 2 k o)
  rw [← e0, ← e1, ← e2]
  exact hacc

/-- The tiled pipeline ends in the embedding: tanh of the running total plus the bias, plus the offset. -/
theorem tiles_emb (s d : Fin 1600 → Fin 100) (w : Fin 1600 → EReal) (X : Fin 100 → Fin 65536 → EReal)
    (W : Fin 3 → Fin 65536 → Fin 60 → EReal) (b vn : Fin 60 → EReal) (L : Fin 100 → Fin 100 → EReal)
    (hL : ∀ r t, L r t = ∑ a : Fin 1600, if d a = r ∧ s a = t then w a else 0)
    (hw : ∀ a, ∃ x : ℝ, w a = (x : EReal)) (hX : ∀ r c, ∃ x : ℝ, X r c = (x : EReal))
    (r : Fin 100) (o : Fin 60) :
    Ideal.tanh ((0 + ∑ t : Fin 16, contrib L X W t r o) + b o) + vn o = emb s d w X W b vn r o := by
  unfold emb
  rw [tiles_pre s d w X W L hL hw hX r o]

end Cert.Spec

end
-- ==== Proof.IdealUpdate.lean ====
/-
  The idealized kernel's output array in closed form, on the extended reals.

  Head h (0 the actor, 1 the critic) owns block h of the [2,100,60] output. Over the head's 16 channel tiles the block
  accumulates, tile by tile, the tile's share of the three matrix products; after the last tile bias, tanh and offset
  are applied and the block is written back. Reading the body's arithmetic at an index, tile j contributes
  `Spec.contrib` at the columns j·4096 … j·4096 + 4095 of the feature matrix and of the head's weights, so the block
  written back is tanh (0 + the sum of the 16 contributions + bias) + offset.
-/
import proofs.«132327_j50706383897350_2_alg».proof.Proof.IdealPieces
import proofs.«132327_j50706383897350_2_alg».proof.Proof.IdealPayloads
import proofs.«132327_j50706383897350_2_alg».proof.Proof.IdealBlocks
import proofs.«132327_j50706383897350_2_alg».proof.Proof.AccLaw

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.Payloads Cert.KernelIdeal.Blocks
open Cert.Spec (contrib accum col Z1t Z2t)

/-! ## The slabs of a staged weight block, read at an index -/

theorem ld_slab0 (wb : Vec Ideal S3x4096x60 .f32) (k : Fin 4096) (o : Fin 60) :
    View.ld wb slab0 (ix3 0 k o) = wb (ix3 0 k o) := by
  show wb _ = wb _
  congr 1; funext a; apply Fin.ext
  match a with
  | ⟨0, _⟩ => simp only [LoadRect.idx_apply, Rect.off_unit, Rect.stride_unit, Nat.one_mul]; rfl
  | ⟨1, _⟩ => simp only [LoadRect.idx_apply, Rect.off_unit, Rect.stride_unit, Nat.one_mul]; first | rfl | (show 0 + (k : Nat) = k; omega)
  | ⟨2, _⟩ => simp only [LoadRect.idx_apply, Rect.off_unit, Rect.stride_unit, Nat.one_mul]; first | rfl | (show 0 + (o : Nat) = o; omega)

theorem ld_slab1 (wb : Vec Ideal S3x4096x60 .f32) (k : Fin 4096) (o : Fin 60) :
    View.ld wb slab1 (ix3 0 k o) = wb (ix3 1 k o) := by
  show wb _ = wb _
  congr 1; funext a; apply Fin.ext
  match a with
  | ⟨0, _⟩ => simp only [LoadRect.idx_apply, Rect.off_unit, Rect.stride_unit, Nat.one_mul]; rfl
  | ⟨1, _⟩ => simp only [LoadRect.idx_apply, Rect.off_unit, Rect.stride_unit, Nat.one_mul]; first | rfl | (show 0 + (k : Nat) = k; omega)
  | ⟨2, _⟩ => simp only [LoadRect.idx_apply, Rect.off_unit, Rect.stride_unit, Nat.one_mul]; first | rfl | (show 0 + (o : Nat) = o; omega)

theorem ld_slab2 (wb : Vec Ideal S3x4096x60 .f32) (k : Fin 4096) (o : Fin 60) :
    View.ld wb slab2 (ix3 0 k o) = wb (ix3 2 k o) := by
  show wb _ = wb _
  congr 1; funext a; apply Fin.ext
  match a with
  | ⟨0, _⟩ => simp only [LoadRect.idx_apply, Rect.off_unit, Rect.stride_unit, Nat.one_mul]; rfl
  | ⟨1, _⟩ => simp only [LoadRect.idx_apply, Rect.off_unit, Rect.stride_unit, Nat.one_mul]; first | rfl | (show 0 + (k : Nat) = k; omega)
  | ⟨2, _⟩ => simp only [LoadRect.idx_apply, Rect.off_unit, Rect.stride_unit, Nat.one_mul]; first | rfl | (show 0 + (o : Nat) = o; omega)

/-! ## One tile's update of the accumulator -/

/-- The accumulator update of the actor's head on blocks that are tile `j` of the feature matrix `Xf`, the dense
    propagation matrix `Lf` and tile `j` of the weights `W3`: the accumulator so far plus tile `j`'s contribution. -/
theorem upd6_of_blocks (Xf : Fin 100 → Fin 65536 → EReal) (Lf : Fin 100 → Fin 100 → EReal)
    (W3 : Fin 3 → Fin 65536 → Fin 60 → EReal) (j : Fin 16)
    (x0 : Vec Ideal S100x4096 .f32) (x1 : Vec Ideal S100x100 .bf16) (wb : Vec Ideal S3x4096x60 .f32)
    (acc : Vec Ideal S1x100x60 .f32)
    (h0 : ∀ r k, x0 (ix2 r k) = Xf r (col j k)) (h1 : ∀ r u, x1 (ix2 r u) = Lf r u)
    (h2 : ∀ J k o, wb (ix3 J k o) = W3 J (col j k) o) (r : Fin 100) (o : Fin 60) :
    k0_pay6 (F := Ideal) x0 x1 (View.ld wb slab0) (View.ld wb slab1) (View.ld wb slab2) acc (ix3 0 r o)
      = acc (ix3 0 r o) + contrib Lf Xf W3 j r o := by
  have hZ1 : ∀ r k, Z1 x0 x1 r k = Z1t Lf Xf j r k := fun r k => by
    unfold Z1 Z1t; exact Finset.sum_congr rfl fun u _ => by rw [h1, h0]
  have hZ2 : ∀ r k, Z2 x0 x1 r k = Z2t Lf Xf j r k := fun r k => by
    unfold Z2 Z2t; rw [h0]; congr 2; exact Finset.sum_congr rfl fun u _ => by rw [h1, hZ1]
  rw [pay6_apply]
  unfold contrib
  congr 1; congr 1; congr 1
  · exact Finset.sum_congr rfl fun k _ => by rw [h0, ld_slab0, h2]
  · exact Finset.sum_congr rfl fun k _ => by rw [hZ1, ld_slab1, h2]
  · exact Finset.sum_congr rfl fun k _ => by rw [hZ2, ld_slab2, h2]

/-- The same for the critic's head. -/
theorem upd7_of_blocks (Xf : Fin 100 → Fin 65536 → EReal) (Lf : Fin 100 → Fin 100 → EReal)
    (W3 : Fin 3 → Fin 65536 → Fin 60 → EReal) (j : Fin 16)
    (x0 : Vec Ideal S100x4096 .f32) (x1 : Vec Ideal S100x100 .bf16) (wb : Vec Ideal S3x4096x60 .f32)
    (acc : Vec Ideal S1x100x60 .f32)
    (h0 : ∀ r k, x0 (ix2 r k) = Xf r (col j k)) (h1 : ∀ r u, x1 (ix2 r u) = Lf r u)
    (h2 : ∀ J k o, wb (ix3 J k o) = W3 J (col j k) o) (r : Fin 100) (o : Fin 60) :
    k0_pay7 (F := Ideal) x0 x1 (View.ld wb slab0) (View.ld wb slab1) (View.ld wb slab2) acc (ix3 0 r o)
      = acc (ix3 0 r o) + contrib Lf Xf W3 j r o := by
  have hZ1 : ∀ r k, Z1 x0 x1 r k = Z1t Lf Xf j r k := fun r k => by
    unfold Z1 Z1t; exact Finset.sum_congr rfl fun u _ => by rw [h1, h0]
  have hZ2 : ∀ r k, Z2 x0 x1 r k = Z2t Lf Xf j r k := fun r k => by
    unfold Z2 Z2t; rw [h0]; congr 2; exact Finset.sum_congr rfl fun u _ => by rw [h1, hZ1]
  rw [pay7_apply]
  unfold contrib
  congr 1; congr 1; congr 1
  · exact Finset.sum_congr rfl fun k _ => by rw [h0, ld_slab0, h2]
  · exact Finset.sum_congr rfl fun k _ => by rw [hZ1, ld_slab1, h2]
  · exact Finset.sum_congr rfl fun k _ => by rw [hZ2, ld_slab2, h2]

end Cert.KernelIdeal.Body

end
-- ==== Proof.IdealSteps.lean ====
/-
  What the output block holds after each grid point, and the kernel's output array in closed form.

  With `Xf` the feature matrix, `Lf` the dense propagation matrix and `WA`, `WC` the two heads' weights as the kernel
  call finds them, the point on tile j of a head adds `Spec.contrib Lf Xf W j` to the accumulator (reset to zero before
  the head's first tile); the head's last point applies bias, tanh and offset. By induction over a head's points the
  accumulator after tile j is `Spec.accum` of the contributions up to j, and the block written back after the last tile
  is tanh (accum … 15 + bias) + offset.
-/
import proofs.«132327_j50706383897350_2_alg».proof.Proof.IdealUpdate

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.Payloads Cert.KernelIdeal.Blocks
open Cert.Spec (contrib accum col Z1t Z2t)

variable (m : (ℓ : Loc nD τ sig) → Buf (Elt Ideal) ℓ) (c : Dev nD)

/-- The feature matrix, the dense propagation matrix and the two heads' weights, as the kernel call finds them. -/
def Xf (r : Fin 100) (k : Fin 65536) : EReal := (V m c main_arg0 : S100x65536.Idx → Elt Ideal .f32) (ix2 r k)
def Lf (r u : Fin 100) : EReal := (V m c main_v45 : S100x100.Idx → Elt Ideal .bf16) (ix2 r u)
def WA (J : Fin 3) (k : Fin 65536) (o : Fin 60) : EReal := (V m c main_arg3 : S3x65536x60.Idx → Elt Ideal .f32) (ix3 J k o)
def WC (J : Fin 3) (k : Fin 65536) (o : Fin 60) : EReal := (V m c main_arg5 : S3x65536x60.Idx → Elt Ideal .f32) (ix3 J k o)

/-- The channel tile of a grid point. -/
def tile (t : Fin cfg0.N) : Fin 16 := ⟨t.val % 16, Nat.mod_lt _ (by decide)⟩

/-! ## One point's step, kind by kind -/

theorem step_A (t : Fin cfg0.N) (hF : t.val % 16 = 0) (hA : t.val < 16) (prev : Vec Ideal S1x100x60 .f32) (r : Fin 100) (o : Fin 60) :
    stepAt m c t prev (ix3 0 r o) = 0 + contrib (Lf m c) (Xf m c) (WA m c) (tile t) r o := by
  rw [stepAt_A m c t hF hA,
    outA_eq,
    upd6_of_blocks (Xf m c) (Lf m c) (WA m c) (tile t) _ _ _ _ (fun r k => blk0 m c t r k) (fun r u => blk1 m c t r u) (fun J k o => blk2 m c t hA J k o),
    pay1_apply]

theorem step_B (t : Fin cfg0.N) (hF : ¬t.val % 16 = 0) (hL : ¬t.val % 16 = 15) (hA : t.val < 16) (prev : Vec Ideal S1x100x60 .f32) (r : Fin 100) (o : Fin 60) :
    stepAt m c t prev (ix3 0 r o) = prev (ix3 0 r o) + contrib (Lf m c) (Xf m c) (WA m c) (tile t) r o := by
  rw [stepAt_B m c t hF hL hA,
    outB_eq,
    upd6_of_blocks (Xf m c) (Lf m c) (WA m c) (tile t) _ _ _ _ (fun r k => blk0 m c t r k) (fun r u => blk1 m c t r u) (fun J k o => blk2 m c t hA J k o)]

theorem step_C (t : Fin cfg0.N) (hF : ¬t.val % 16 = 0) (hL : t.val % 16 = 15) (hA : t.val < 16) (prev : Vec Ideal S1x100x60 .f32) (r : Fin 100) (o : Fin 60) :
    stepAt m c t prev (ix3 0 r o) = Ideal.tanh ((prev (ix3 0 r o) + contrib (Lf m c) (Xf m c) (WA m c) (tile t) r o) + (iblk m c 4 t : Vec Ideal S1x1x60 .f32) (ix3 0 0 o)) + (iblk m c 5 t : Vec Ideal S1x1x60 .f32) (ix3 0 0 o) := by
  rw [stepAt_C m c t hF hL hA,
    outC_eq,
    pay8_apply,
    upd6_of_blocks (Xf m c) (Lf m c) (WA m c) (tile t) _ _ _ _ (fun r k => blk0 m c t r k) (fun r u => blk1 m c t r u) (fun J k o => blk2 m c t hA J k o)]

theorem step_D (t : Fin cfg0.N) (hF : t.val % 16 = 0) (hA : ¬t.val < 16) (prev : Vec Ideal S1x100x60 .f32) (r : Fin 100) (o : Fin 60) :
    stepAt m c t prev (ix3 0 r o) = 0 + contrib (Lf m c) (Xf m c) (WC m c) (tile t) r o := by
  rw [stepAt_D m c t hF hA,
    outD_eq,
    upd7_of_blocks (Xf m c) (Lf m c) (WC m c) (tile t) _ _ _ _ (fun r k => blk0 m c t r k) (fun r u => blk1 m c t r u) (fun J k o => blk3 m c t (Nat.le_of_not_lt hA) J k o),
    pay1_apply]

theorem step_E (t : Fin cfg0.N) (hF : ¬t.val % 16 = 0) (hL : ¬t.val % 16 = 15) (hA : ¬t.val < 16) (prev : Vec Ideal S1x100x60 .f32) (r : Fin 100) (o : Fin 60) :
    stepAt m c t prev (ix3 0 r o) = prev (ix3 0 r o) + contrib (Lf m c) (Xf m c) (WC m c) (tile t) r o := by
  rw [stepAt_E m c t hF hL hA,
    outE_eq,
    upd7_of_blocks (Xf m c) (Lf m c) (WC m c) (tile t) _ _ _ _ (fun r k => blk0 m c t r k) (fun r u => blk1 m c t r u) (fun J k o => blk3 m c t (Nat.le_of_not_lt hA) J k o)]

theorem step_F (t : Fin cfg0.N) (hF : ¬t.val % 16 = 0) (hL : t.val % 16 = 15) (hA : ¬t.val < 16) (prev : Vec Ideal S1x100x60 .f32) (r : Fin 100) (o : Fin 60) :
    stepAt m c t prev (ix3 0 r o) = Ideal.tanh ((prev (ix3 0 r o) + contrib (Lf m c) (Xf m c) (WC m c) (tile t) r o) + (iblk m c 4 t : Vec Ideal S1x1x60 .f32) (ix3 0 0 o)) + (iblk m c 5 t : Vec Ideal S1x1x60 .f32) (ix3 0 0 o) := by
  rw [stepAt_F m c t hF hL hA,
    outF_eq,
    pay8_apply,
    upd7_of_blocks (Xf m c) (Lf m c) (WC m c) (tile t) _ _ _ _ (fun r k => blk0 m c t r k) (fun r u => blk1 m c t r u) (fun J k o => blk3 m c t (Nat.le_of_not_lt hA) J k o)]

end Cert.KernelIdeal.Body

end
-- ==== Proof.IdealAcc.lean ====
/-
  The accumulator after each tile of a head, and the two blocks written back.

  By induction over a head's points: after tile j the output block holds `Spec.accum` of the head's contributions
  up to j (tile 0 starts from zero); after tile 15 bias, tanh and offset are applied on top.
-/
import proofs.«132327_j50706383897350_2_alg».proof.Proof.IdealSteps

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.Payloads Cert.KernelIdeal.Blocks
open Cert.Spec (contrib accum col)

variable (m : (ℓ : Loc nD τ sig) → Buf (Elt Ideal) ℓ) (c : Dev nD)

/-- The defining equations of the accumulation. -/
theorem outsAt_zero (hn : 0 < cfg0.N) :
    outsAt m c 0 hn = stepAt m c ⟨0, hn⟩ (VO.read (Elt Ideal) VO.junk) := rfl
theorem outsAt_succ (n : ℕ) (hn : n + 1 < cfg0.N) :
    outsAt m c (n + 1) hn = stepAt m c ⟨n + 1, hn⟩ (outsAt m c n (Nat.lt_of_succ_lt hn)) := rfl

/-- The actor's / critic's contribution of tile `j` at `(r, o)`, as a function of the tile's number. -/
def tmA (r : Fin 100) (o : Fin 60) (j : ℕ) : EReal :=
  if hj : j < 16 then contrib (Lf m c) (Xf m c) (WA m c) ⟨j, hj⟩ r o else 0
def tmC (r : Fin 100) (o : Fin 60) (j : ℕ) : EReal :=
  if hj : j < 16 then contrib (Lf m c) (Xf m c) (WC m c) ⟨j, hj⟩ r o else 0

theorem tmA_tile (t : Fin cfg0.N) (r : Fin 100) (o : Fin 60) (j : ℕ) (hj : j < 16) (h : t.val % 16 = j) :
    contrib (Lf m c) (Xf m c) (WA m c) (tile t) r o = tmA m c r o j := by
  unfold tmA; rw [dif_pos hj]; congr 1; exact Fin.ext h
theorem tmC_tile (t : Fin cfg0.N) (r : Fin 100) (o : Fin 60) (j : ℕ) (hj : j < 16) (h : t.val % 16 = j) :
    contrib (Lf m c) (Xf m c) (WC m c) (tile t) r o = tmC m c r o j := by
  unfold tmC; rw [dif_pos hj]; congr 1; exact Fin.ext h

/-- The actor's accumulator after tile `n` (points 0 … 14). -/
theorem accA : ∀ (n : ℕ) (hn : n < cfg0.N), n < 15 → ∀ (r : Fin 100) (o : Fin 60),
    outsAt m c n hn (ix3 0 r o) = accum (tmA m c r o) n := by
  intro n
  induction n with
  | zero =>
    intro hn _ r o
    rw [outsAt_zero, step_A m c ⟨0, hn⟩ (show 0 % 16 = 0 from rfl) (show 0 < 16 from Nat.zero_lt_succ 15),
      tmA_tile m c ⟨0, hn⟩ r o 0 (Nat.zero_lt_succ 15) rfl]
    rfl
  | succ n ih =>
    intro hn h15 r o
    have hF : ¬(n + 1) % 16 = 0 := by omega
    have hL : ¬(n + 1) % 16 = 15 := by omega
    have hA : n + 1 < 16 := by omega
    rw [outsAt_succ, step_B m c ⟨n + 1, hn⟩ hF hL hA, ih (Nat.lt_of_succ_lt hn) (by omega),
      tmA_tile m c ⟨n + 1, hn⟩ r o (n + 1) hA (Nat.mod_eq_of_lt hA)]
    rfl

/-- The critic's accumulator after tile `n − 16` (points 16 … 30). -/
theorem accC : ∀ (n : ℕ) (hn : n < cfg0.N), 16 ≤ n → n < 31 → ∀ (r : Fin 100) (o : Fin 60),
    outsAt m c n hn (ix3 0 r o) = accum (tmC m c r o) (n - 16) := by
  intro n
  induction n with
  | zero => intro hn h16; omega
  | succ n ih =>
    intro hn h16 h31 r o
    by_cases hfirst : n + 1 = 16
    · have hF : (n + 1) % 16 = 0 := by omega
      have hA : ¬n + 1 < 16 := by omega
      rw [outsAt_succ, step_D m c ⟨n + 1, hn⟩ hF hA, tmC_tile m c ⟨n + 1, hn⟩ r o 0 (Nat.zero_lt_succ 15) hF,
        show n + 1 - 16 = 0 from by omega]
      rfl
    · have hF : ¬(n + 1) % 16 = 0 := by omega
      have hL : ¬(n + 1) % 16 = 15 := by omega
      have hA : ¬n + 1 < 16 := by omega
      rw [outsAt_succ, step_E m c ⟨n + 1, hn⟩ hF hL hA, ih (Nat.lt_of_succ_lt hn) (by omega) (by omega),
        tmC_tile m c ⟨n + 1, hn⟩ r o (n - 16 + 1) (by omega) (by show (n + 1) % 16 = n - 16 + 1; omega),
        show n + 1 - 16 = n - 16 + 1 from by omega]
      rfl

/-- The actor's block after its last tile (point 15). -/
theorem lastA_gen (n : ℕ) (hn : n + 1 < cfg0.N) (h15 : n + 1 = 15) (r : Fin 100) (o : Fin 60) :
    outsAt m c (n + 1) hn (ix3 0 r o)
      = Ideal.tanh (accum (tmA m c r o) 15 + (V m c main_v60 : S2x1x60.Idx → Elt Ideal .f32) (ix3 0 0 o))
        + (V m c main_v64 : S2x1x60.Idx → Elt Ideal .f32) (ix3 0 0 o) := by
  have hF : ¬(n + 1) % 16 = 0 := by omega
  have hL : (n + 1) % 16 = 15 := by omega
  have hA : n + 1 < 16 := by omega
  rw [outsAt_succ, step_C m c ⟨n + 1, hn⟩ hF hL hA, accA m c n (Nat.lt_of_succ_lt hn) (by omega),
    tmA_tile m c ⟨n + 1, hn⟩ r o 15 (by omega) hL, blk4 m c ⟨n + 1, hn⟩ o, blk5 m c ⟨n + 1, hn⟩ o]
  have hh : ∀ (p : (n + 1) / 16 < 2), (⟨(n + 1) / 16, p⟩ : Fin 2) = 0 := fun p => Fin.ext (by show (n + 1) / 16 = 0; omega)
  have e : accum (tmA m c r o) 15 = accum (tmA m c r o) n + tmA m c r o 15 := by
    have h14 : n = 14 := by omega
    rw [h14]; rfl
  simp only [hh]
  rw [e]
theorem lastA (hn : 15 < cfg0.N) (r : Fin 100) (o : Fin 60) :
    outsAt m c 15 hn (ix3 0 r o)
      = Ideal.tanh (accum (tmA m c r o) 15 + (V m c main_v60 : S2x1x60.Idx → Elt Ideal .f32) (ix3 0 0 o))
        + (V m c main_v64 : S2x1x60.Idx → Elt Ideal .f32) (ix3 0 0 o) := lastA_gen m c 14 hn rfl r o

/-- The critic's block after its last tile (point 31). -/
theorem lastC_gen (n : ℕ) (hn : n + 1 < cfg0.N) (h31 : n + 1 = 31) (r : Fin 100) (o : Fin 60) :
    outsAt m c (n + 1) hn (ix3 0 r o)
      = Ideal.tanh (accum (tmC m c r o) 15 + (V m c main_v60 : S2x1x60.Idx → Elt Ideal .f32) (ix3 1 0 o))
        + (V m c main_v64 : S2x1x60.Idx → Elt Ideal .f32) (ix3 1 0 o) := by
  have hF : ¬(n + 1) % 16 = 0 := by omega
  have hL : (n + 1) % 16 = 15 := by omega
  have hA : ¬n + 1 < 16 := by omega
  rw [outsAt_succ, step_F m c ⟨n + 1, hn⟩ hF hL hA, accC m c n (Nat.lt_of_succ_lt hn) (by omega) (by omega),
    tmC_tile m c ⟨n + 1, hn⟩ r o 15 (by omega) hL, blk4 m c ⟨n + 1, hn⟩ o, blk5 m c ⟨n + 1, hn⟩ o]
  have hh : ∀ (p : (n + 1) / 16 < 2), (⟨(n + 1) / 16, p⟩ : Fin 2) = 1 := fun p => Fin.ext (by show (n + 1) / 16 = 1; omega)
  have e : accum (tmC m c r o) 15 = accum (tmC m c r o) (n - 16) + tmC m c r o 15 := by
    have h30 : n = 30 := by omega
    rw [h30]; rfl
  simp only [hh]
  rw [e]
theorem lastC (hn : 31 < cfg0.N) (r : Fin 100) (o : Fin 60) :
    outsAt m c 31 hn (ix3 0 r o)
      = Ideal.tanh (accum (tmC m c r o) 15 + (V m c main_v60 : S2x1x60.Idx → Elt Ideal .f32) (ix3 1 0 o))
        + (V m c main_v64 : S2x1x60.Idx → Elt Ideal .f32) (ix3 1 0 o) := lastC_gen m c 30 hn rfl r o

end Cert.KernelIdeal.Body

end
-- ==== Proof.IdealFinal.lean ====
/-
  The output array from the two write-backs.

  The output array has one [100, 60] block per head. The block of head `h` is written back exactly once, after the last
  grid point of that head (point 15 for head 0, point 31 for head 1), with what the output block's buffer holds there.
  The two blocks cover the array, so the array ends holding any function `G` that agrees with the buffer after point 15
  on head 0 and with the buffer after point 31 on head 1.
-/
import proofs.«132327_j50706383897350_2_alg».proof.Proof.IdealBody
import Idealize.ShloMosaic.Lib.Pipeline.Value
import Idealize.ShloMosaic.Lib.ValueIdx

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (c : Dev nD)

/-- The output window's block index at point `t`: the head `t / 16` on the first axis, zero on the other two. -/
theorem idx_facts6 : ∀ t : Fin cfg0.N, win0_6.index t (0 : Fin 3) = t.val / 16
    ∧ win0_6.index t (1 : Fin 3) = 0 ∧ win0_6.index t (2 : Fin 3) = 0 :=
  (by decide +kernel : ∀ t : Fin grid0.N, _)

/-- The buffer's contents after a point depend on the point's number only. -/
theorem outsAt_congr (n n' : ℕ) (h : n = n') (hn : n < cfg0.N) (hn' : n' < cfg0.N) :
    outsAt m c n hn = outsAt m c n' hn' := by
  subst h
  rfl

/-- An index of the array is in point `t`'s block iff each coordinate is in the block's range on its axis. -/
theorem mem_blk6 (t : Fin cfg0.N) (i : S2x100x60.Idx) :
    i ∈ ((cfg0.win 6).blk t).view.set ↔ ∀ a : Fin 3, win0_6.index t a * S1x100x60.size a ≤ (i a).val
      ∧ (i a).val < win0_6.index t a * S1x100x60.size a + S1x100x60.size a := by
  show i ∈ ((View.whole main_v65).slice (win0_6.rect t)).set ↔ _
  rw [View.set_slice_whole, Rect.mem_set_unit]
  exact Iff.rfl

/-- What a write-back of the output window writes is the point's block of `G`. -/
theorem flushed6_eq (G : S2x100x60.Idx → EReal)
    (h15 : ∀ (hn : 15 < cfg0.N) (r : Fin 100) (o : Fin 60), outsAt m c 15 hn (ix3 0 r o) = G (ix3 0 r o))
    (h31 : ∀ (hn : 31 < cfg0.N) (r : Fin 100) (o : Fin 60), outsAt m c 31 hn (ix3 0 r o) = G (ix3 1 r o))
    (t : Fin cfg0.N) (hf : (cfg0.win 6).flush t = true) :
    (dats m 0 c).flushed 6 t = ((cfg0.win 6).blk t).view.read (Elt Ideal) G := by
  have hN : cfg0.N = 32 := N_0
  have hmod : t.val % 16 = 15 := (flush0_6 t).mp hf
  have hlt : t.val < cfg0.N := t.isLt
  obtain ⟨e0, e1, e2⟩ := idx_facts6 t
  show (cfg0.win 6).cut (grid0.coords t) ((dats m 0 c).after 6 t) = _
  rw [after6]
  funext y
  rw [View.read_apply]
  have hy0 : (y 0).val < 1 := (y 0).isLt
  have hy1 : (y 1).val < 100 := (y 1).isLt
  have hy2 : (y 2).val < 60 := (y 2).isLt
  have eL : (cfg0.win 6).xinj (grid0.coords t) y = ix3 (0 : Fin 1) ⟨(y 1).val, hy1⟩ ⟨(y 2).val, hy2⟩ :=
    funext fun a => Fin.ext (by
      match a with
      | ⟨0, _⟩ => show (y 0).val = 0; omega
      | ⟨1, _⟩ => rfl
      | ⟨2, _⟩ => rfl)
  show outsAt m c t.val t.isLt ((cfg0.win 6).xinj (grid0.coords t) y) = G _
  rw [eL]
  rcases (show t.val = 15 ∨ t.val = 31 by omega) with h | h
  · have eR : ((cfg0.win 6).blk t).view.emb y = ix3 (0 : Fin 2) ⟨(y 1).val, hy1⟩ ⟨(y 2).val, hy2⟩ :=
      funext fun a => Fin.ext (by
        match a with
        | ⟨0, _⟩ => show win0_6.index t (0 : Fin 3) * 1 + 1 * (y 0).val = 0; rw [e0, h]; omega
        | ⟨1, _⟩ => show win0_6.index t (1 : Fin 3) * 100 + 1 * (y 1).val = (y 1).val; rw [e1]; omega
        | ⟨2, _⟩ => show win0_6.index t (2 : Fin 3) * 60 + 1 * (y 2).val = (y 2).val; rw [e2]; omega)
    rw [eR, outsAt_congr m c t.val 15 h t.isLt (by omega)]
    exact h15 _ _ _
  · have eR : ((cfg0.win 6).blk t).view.emb y = ix3 (1 : Fin 2) ⟨(y 1).val, hy1⟩ ⟨(y 2).val, hy2⟩ :=
      funext fun a => Fin.ext (by
        match a with
        | ⟨0, _⟩ => show win0_6.index t (0 : Fin 3) * 1 + 1 * (y 0).val = 1; rw [e0, h]; omega
        | ⟨1, _⟩ => show win0_6.index t (1 : Fin 3) * 100 + 1 * (y 1).val = (y 1).val; rw [e1]; omega
        | ⟨2, _⟩ => show win0_6.index t (2 : Fin 3) * 60 + 1 * (y 2).val = (y 2).val; rw [e2]; omega)
    rw [eR, outsAt_congr m c t.val 31 h t.isLt (by omega)]
    exact h31 _ _ _

/-- The block written back at a point with number `n` (15 or 31) holds the array's indices of head `n / 16`. -/
theorem mem_of_head (t : Fin cfg0.N) (i : S2x100x60.Idx) (h : (i 0).val = t.val / 16) :
    i ∈ ((cfg0.win 6).blk t).view.set := by
  obtain ⟨e0, e1, e2⟩ := idx_facts6 t
  have hi1 : (i 1).val < 100 := (i 1).isLt
  have hi2 : (i 2).val < 60 := (i 2).isLt
  rw [mem_blk6]
  intro a
  match a with
  | ⟨0, _⟩ =>
    show win0_6.index t (0 : Fin 3) * 1 ≤ (i 0).val ∧ (i 0).val < win0_6.index t (0 : Fin 3) * 1 + 1
    rw [e0]; omega
  | ⟨1, _⟩ =>
    show win0_6.index t (1 : Fin 3) * 100 ≤ (i 1).val ∧ (i 1).val < win0_6.index t (1 : Fin 3) * 100 + 100
    rw [e1]; omega
  | ⟨2, _⟩ =>
    show win0_6.index t (2 : Fin 3) * 60 ≤ (i 2).val ∧ (i 2).val < win0_6.index t (2 : Fin 3) * 60 + 60
    rw [e2]; omega

/-- THE OUTPUT ARRAY after the run: any `G` that the buffer after point 15 is on head 0 and the buffer after point 31
    is on head 1. -/
theorem final_of_last (G : S2x100x60.Idx → EReal)
    (h15 : ∀ (hn : 15 < cfg0.N) (r : Fin 100) (o : Fin 60), outsAt m c 15 hn (ix3 0 r o) = G (ix3 0 r o))
    (h31 : ∀ (hn : 31 < cfg0.N) (r : Fin 100) (o : Fin 60), outsAt m c 31 hn (ix3 0 r o) = G (ix3 1 r o)) :
    (dats m 0 c).arrAt 6 cfg0.N = G := by
  have hN : cfg0.N = 32 := N_0
  refine (dats m 0 c).arrAt_eq_of_cover 6 G (fun t hf => flushed6_eq m c G h15 h31 t hf) (fun i => ?_)
  have hi0 : (i 0).val < 2 := (i 0).isLt
  by_cases h : (i 0).val = 0
  · refine ⟨⟨15, by omega⟩, (flush0_6 _).mpr (by show (15 : ℕ) % 16 = 15; decide), mem_of_head _ i ?_⟩
    show (i 0).val = 15 / 16
    omega
  · refine ⟨⟨31, by omega⟩, (flush0_6 _).mpr (by show (31 : ℕ) % 16 = 15; decide), mem_of_head _ i ?_⟩
    show (i 0).val = 31 / 16
    omega

end Cert.KernelIdeal.Body

end
-- ==== Proof.IdealG.lean ====
/-
  The idealized kernel's output array is, head by head, the common value `Spec.emb` of the two programs.

  The block written back for a head is tanh (accum of the 16 tiles' contributions + bias) + offset. The 16 tiles'
  contributions add up to the three full matrix products (sums over 16 × 4096 columns regroup freely on the extended
  reals). The dense propagation matrix times a matrix is the edge-by-edge propagation step: this is distributivity,
  and it needs the edge weights and the features to be real numbers — the edge weights are, for every input, and the
  features are by the precondition.
-/
import proofs.«132327_j50706383897350_2_alg».proof.Proof.IdealAcc
import proofs.«132327_j50706383897350_2_alg».proof.Proof.IdealFinal
import proofs.«132327_j50706383897350_2_alg».proof.Proof.AccLaw

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec (contrib accum col)

variable (m : (ℓ : Loc nD τ sig) → Buf (Elt Ideal) ℓ) (c : Dev nD)

/-- The kernel's output array: block 0 the actor's, block 1 the critic's. -/
def G : S2x100x60.Idx → EReal := fun i =>
  if (i 0).val = 0 then
    Ideal.tanh (accum (tmA m c (i 1) (i 2)) 15 + (V m c main_v60 : S2x1x60.Idx → Elt Ideal .f32) (ix3 0 0 (i 2)))
      + (V m c main_v64 : S2x1x60.Idx → Elt Ideal .f32) (ix3 0 0 (i 2))
  else
    Ideal.tanh (accum (tmC m c (i 1) (i 2)) 15 + (V m c main_v60 : S2x1x60.Idx → Elt Ideal .f32) (ix3 1 0 (i 2)))
      + (V m c main_v64 : S2x1x60.Idx → Elt Ideal .f32) (ix3 1 0 (i 2))

/-- `G` on the actor's block and on the critic's block. -/
theorem G_zero (r : Fin 100) (o : Fin 60) :
    G m c (ix3 0 r o)
      = Ideal.tanh (accum (tmA m c r o) 15 + (V m c main_v60 : S2x1x60.Idx → Elt Ideal .f32) (ix3 0 0 o))
        + (V m c main_v64 : S2x1x60.Idx → Elt Ideal .f32) (ix3 0 0 o) := by
  unfold G; exact if_pos rfl
theorem G_one (r : Fin 100) (o : Fin 60) :
    G m c (ix3 1 r o)
      = Ideal.tanh (accum (tmC m c r o) 15 + (V m c main_v60 : S2x1x60.Idx → Elt Ideal .f32) (ix3 1 0 o))
        + (V m c main_v64 : S2x1x60.Idx → Elt Ideal .f32) (ix3 1 0 o) := by
  unfold G; exact if_neg Nat.one_ne_zero

/-- The output array after the run is `G`. -/
theorem final : (dats m 0 c).arrAt 6 cfg0.N = G m c :=
  final_of_last m c (G m c)
    (fun hn r o => (lastA m c hn r o).trans (G_zero m c r o).symm)
    (fun hn r o => (lastC m c hn r o).trans (G_one m c r o).symm)

/-- A tile's contribution as a function of its number, at a tile. -/
theorem tmA_at (r : Fin 100) (o : Fin 60) (t : Fin 16) :
    tmA m c r o t.val = contrib (Lf m c) (Xf m c) (WA m c) t r o := by
  unfold tmA; exact dif_pos t.isLt
theorem tmC_at (r : Fin 100) (o : Fin 60) (t : Fin 16) :
    tmC m c r o t.val = contrib (Lf m c) (Xf m c) (WC m c) t r o := by
  unfold tmC; exact dif_pos t.isLt

/-- The 16 tiles' contributions, summed, are the accumulator after the last tile. -/
theorem accA_sum (r : Fin 100) (o : Fin 60) :
    accum (tmA m c r o) 15 = 0 + ∑ t : Fin 16, contrib (Lf m c) (Xf m c) (WA m c) t r o :=
  (Cert.Spec.accum_eq (tmA m c r o)).trans
    (congrArg (fun x : EReal => 0 + x) (Finset.sum_congr rfl fun t _ => tmA_at m c r o t))
theorem accC_sum (r : Fin 100) (o : Fin 60) :
    accum (tmC m c r o) 15 = 0 + ∑ t : Fin 16, contrib (Lf m c) (Xf m c) (WC m c) t r o :=
  (Cert.Spec.accum_eq (tmC m c r o)).trans
    (congrArg (fun x : EReal => 0 + x) (Finset.sum_congr rfl fun t _ => tmC_at m c r o t))

/-- The actor's block is the common value, given the dense propagation matrix entry by entry (`hL`), real edge weights
    and features, and the head's bias and offset rows. -/
theorem G_actor (s d : Fin 1600 → Fin 100) (w : Fin 1600 → EReal)
    (hL : ∀ r t, Lf m c r t = ∑ a : Fin 1600, if d a = r ∧ s a = t then w a else 0)
    (hw : ∀ a, ∃ x : ℝ, w a = (x : EReal)) (hX : ∀ r k, ∃ x : ℝ, Xf m c r k = (x : EReal))
    (b vn : Fin 60 → EReal)
    (hb : ∀ o, (V m c main_v60 : S2x1x60.Idx → Elt Ideal .f32) (ix3 0 0 o) = b o)
    (hv : ∀ o, (V m c main_v64 : S2x1x60.Idx → Elt Ideal .f32) (ix3 0 0 o) = vn o)
    (r : Fin 100) (o : Fin 60) :
    G m c (ix3 0 r o) = Cert.Spec.emb s d w (Xf m c) (WA m c) b vn r o := by
  rw [G_zero, accA_sum, hb, hv]
  exact Cert.Spec.tiles_emb s d w (Xf m c) (WA m c) b vn (Lf m c) hL hw hX r o

/-- The critic's block likewise. -/
theorem G_critic (s d : Fin 1600 → Fin 100) (w : Fin 1600 → EReal)
    (hL : ∀ r t, Lf m c r t = ∑ a : Fin 1600, if d a = r ∧ s a = t then w a else 0)
    (hw : ∀ a, ∃ x : ℝ, w a = (x : EReal)) (hX : ∀ r k, ∃ x : ℝ, Xf m c r k = (x : EReal))
    (b vn : Fin 60 → EReal)
    (hb : ∀ o, (V m c main_v60 : S2x1x60.Idx → Elt Ideal .f32) (ix3 1 0 o) = b o)
    (hv : ∀ o, (V m c main_v64 : S2x1x60.Idx → Elt Ideal .f32) (ix3 1 0 o) = vn o)
    (r : Fin 100) (o : Fin 60) :
    G m c (ix3 1 r o) = Cert.Spec.emb s d w (Xf m c) (WC m c) b vn r o := by
  rw [G_one, accC_sum, hb, hv]
  exact Cert.Spec.tiles_emb s d w (Xf m c) (WC m c) b vn (Lf m c) hL hw hX r o

end Cert.KernelIdeal.Body

end
-- ==== Proof.LibStages.lean ====
/-
  Reading a straight line of host operations back in stages.

  The contents a line of operations leaves are a fold of the operations' results over the contents it starts from, so a
  line cut in two anywhere is read back in two steps: the head part from the starting contents, then the tail part from
  what the head part leaves. Cutting a long line into short stages, each read back once over ARBITRARY starting
  contents, keeps every term as small as one stage.
-/
import Idealize.ShloMosaic.Lib.StableHlo.Run

noncomputable section

namespace Idealize.ShloMosaic.StableHlo

variable {τ : Topo} {sig : RefSig} {Val : EltTy → Type}

/-- The contents after two lines run one after the other: the second line's, from what the first leaves. -/
theorem after_append (A B : List (HloOp τ sig Val)) (V : Valuation τ sig Val) :
    after (A ++ B) V = after B (after A V) := by
  induction A generalizing V with
  | nil => rfl
  | cons a A ih => exact ih (a.result V)

/-- A line cut after its first `n` operations: the rest, from what the first `n` leave. -/
theorem after_take_drop (n : Nat) (ops : List (HloOp τ sig Val)) (V : Valuation τ sig Val) :
    after ops V = after (ops.drop n) (after (ops.take n) V) := by
  rw [← after_append, List.take_append_drop]

end Idealize.ShloMosaic.StableHlo

end
-- ==== Proof.LibScatterAdd2.lean ====
/-
  The host's accumulating float scatter, for point scatters into a matrix, read at an index on the extended reals.

  A POINT SCATTER into an R × C matrix has scatter indices of shape [N, 2]: row j of the indices holds a pair
  (I (j, 0), I (j, 1)), whose first component names the operand's axis 0 and whose second names its axis 1. Both
  operand axes are inserted, so the updates are a plain vector of N numbers and update j lands on the single
  operand element (I (j, 0), I (j, 1)), the two components read signed; it is dropped when that element is outside
  the operand. On the extended reals the scatter-add is the operand plus the exact sum of the updates landing on
  each element, so

    result (r, c) = Z (r, c) + the sum over the updates j with I (j, 0) = r and I (j, 1) = c of U (j)

  for any sizes R, C (operand), N (updates) and any index width. The lemma is stated for the dimension numbers
  as a record built from any proof of their well-formedness (`dimsP wf`); a program's own record of the same four
  lists is that record, so it applies by unification.
-/
import Idealize.ShloMosaic.Lib.ValueIdx
import Idealize.ShloMosaic.Lib.IdealHost
import Idealize.ShloMosaic.Lib.Pipeline.Value
import Idealize.ShloMosaic.PureOps.Contract

noncomputable section

open scoped BigOperators

namespace Cert.ScatterPoints

open Idealize.ShloMosaic Idealize.ShloMosaic.ValueIdx

theorem coord_val_congr {s : Shape} (j : s.Idx) {a b : Fin s.rank} (h : a = b) : (j a).val = (j b).val := by
  subst h; rfl

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section points
variable {R C N w : Nat}

/-- The point scatter's dimension numbers, over any sizes: the two index components name the operand's two
    axes, both inserted; the updates have no window axes. -/
abbrev dimsP (wf : ScatterDims.WF ⟨2, ![R, C]⟩ ⟨2, ![N, 2]⟩ ⟨1, ![N]⟩ [] [0, 1] [0, 1] 1) :
    ScatterDims ⟨2, ![R, C]⟩ ⟨2, ![N, 2]⟩ ⟨1, ![N]⟩ := ⟨[], [0, 1], [0, 1], 1, wf⟩

theorem startP_0 (wf) (a : Fin N) (I : IVec ⟨2, ![N, 2]⟩ w) :
    (dimsP (R := R) (C := C) wf).start (ix1 a) I 0 = (I (ix2 a 0)).toInt := by
  unfold ScatterDims.start
  rw [dif_pos (by simp)]
  congr 2
  funext b
  match b with
  | ⟨0, _⟩ =>
    apply Fin.ext
    simp only [ScatterDims.siIdx, ScatterDims.siCoord]
    rw [dif_neg (by decide)]
    simp only [Fin.coe_cast]
    exact coord_val_congr (ix1 a) rfl
  | ⟨1, _⟩ =>
    apply Fin.ext
    simp [ScatterDims.siIdx]

theorem startP_1 (wf) (a : Fin N) (I : IVec ⟨2, ![N, 2]⟩ w) :
    (dimsP (R := R) (C := C) wf).start (ix1 a) I 1 = (I (ix2 a 1)).toInt := by
  unfold ScatterDims.start
  rw [dif_pos (by simp)]
  congr 2
  funext b
  match b with
  | ⟨0, _⟩ =>
    apply Fin.ext
    simp only [ScatterDims.siIdx, ScatterDims.siCoord]
    rw [dif_neg (by decide)]
    simp only [Fin.coe_cast]
    exact coord_val_congr (ix1 a) rfl
  | ⟨1, _⟩ =>
    apply Fin.ext
    simp [ScatterDims.siIdx]

theorem windowP (wf) (j : (⟨1, ![N]⟩ : Shape).Idx) (b : Fin 2) :
    (dimsP (R := R) (C := C) wf).window j b = 0 := by
  unfold ScatterDims.window
  rw [dif_neg (by
    match b with
    | ⟨0, _⟩ => simp [Shape.kept]
    | ⟨1, _⟩ => simp [Shape.kept])]

theorem resultIdxP (wf) (a : Fin N) (I : IVec ⟨2, ![N, 2]⟩ w) (r : Fin R) (c : Fin C) :
    (dimsP (R := R) (C := C) wf).resultIdx? (ix1 a) I = some (ix2 r c)
      ↔ (I (ix2 a 0)).toInt = (r.val : ℤ) ∧ (I (ix2 a 1)).toInt = (c.val : ℤ) := by
  unfold ScatterDims.resultIdx?
  constructor
  · intro h
    split at h
    · rename_i hh
      have e := Option.some.inj h
      have h0 := congrArg Fin.val (congrFun e 0)
      have h1 := congrArg Fin.val (congrFun e 1)
      have g0 := hh 0
      have g1 := hh 1
      rw [startP_0, windowP] at g0
      rw [startP_1, windowP] at g1
      change ((dimsP (R := R) (C := C) wf).start (ix1 a) I 0 + ((dimsP (R := R) (C := C) wf).window (ix1 a) 0 : ℤ)).toNat = r.val at h0
      change ((dimsP (R := R) (C := C) wf).start (ix1 a) I 1 + ((dimsP (R := R) (C := C) wf).window (ix1 a) 1 : ℤ)).toNat = c.val at h1
      rw [startP_0, windowP] at h0
      rw [startP_1, windowP] at h1
      refine ⟨by omega, by omega⟩
    · exact absurd h (by simp)
  · rintro ⟨h0, h1⟩
    have hh : ∀ b, 0 ≤ (dimsP (R := R) (C := C) wf).start (ix1 a) I b + ((dimsP (R := R) (C := C) wf).window (ix1 a) b : ℤ)
        ∧ (dimsP (R := R) (C := C) wf).start (ix1 a) I b + ((dimsP (R := R) (C := C) wf).window (ix1 a) b : ℤ)
          < ((⟨2, ![R, C]⟩ : Shape).size b : ℤ) := by
      intro b
      match b with
      | ⟨0, _⟩ =>
        have := r.isLt
        change _ ∧ (dimsP (R := R) (C := C) wf).start (ix1 a) I 0 + ((dimsP (R := R) (C := C) wf).window (ix1 a) 0 : ℤ) < (R : ℤ)
        change 0 ≤ (dimsP (R := R) (C := C) wf).start (ix1 a) I 0 + ((dimsP (R := R) (C := C) wf).window (ix1 a) 0 : ℤ) ∧ _
        rw [startP_0, windowP, h0]
        omega
      | ⟨1, _⟩ =>
        have := c.isLt
        change _ ∧ (dimsP (R := R) (C := C) wf).start (ix1 a) I 1 + ((dimsP (R := R) (C := C) wf).window (ix1 a) 1 : ℤ) < (C : ℤ)
        change 0 ≤ (dimsP (R := R) (C := C) wf).start (ix1 a) I 1 + ((dimsP (R := R) (C := C) wf).window (ix1 a) 1 : ℤ) ∧ _
        rw [startP_1, windowP, h1]
        omega
    rw [dif_pos hh]
    congr 1
    funext b
    match b with
    | ⟨0, _⟩ =>
      apply Fin.ext
      change ((dimsP (R := R) (C := C) wf).start (ix1 a) I 0 + ((dimsP (R := R) (C := C) wf).window (ix1 a) 0 : ℤ)).toNat = r.val
      rw [startP_0, windowP, h0]
      omega
    | ⟨1, _⟩ =>
      apply Fin.ext
      change ((dimsP (R := R) (C := C) wf).start (ix1 a) I 1 + ((dimsP (R := R) (C := C) wf).window (ix1 a) 1 : ℤ)).toNat = c.val
      rw [startP_1, windowP, h1]
      omega

/-- The scatter-add of N point updates into an R × C matrix, at element `(r, c)`: the operand's element plus the
    updates whose index pair, read signed, is `(r, c)`. -/
theorem scatterAddP_apply (wf) (Z : (⟨2, ![R, C]⟩ : Shape).Idx → EReal) (I : IVec ⟨2, ![N, 2]⟩ w)
    (U : (⟨1, ![N]⟩ : Shape).Idx → EReal) (r : Fin R) (c : Fin C) :
    Ideal.hostScatterAdd (dimsP (R := R) (C := C) wf) Z I U (ix2 r c)
      = Z (ix2 r c) + ∑ a : Fin N,
          if (I (ix2 a 0)).toInt = (r.val : ℤ) ∧ (I (ix2 a 1)).toInt = (c.val : ℤ) then U (ix1 a) else 0 := by
  unfold Ideal.hostScatterAdd
  rw [Finset.sum_filter, sum_idx1]
  congr 1
  apply Finset.sum_congr rfl
  intro a _
  exact if_congr (resultIdxP wf a I r c) rfl rfl

end points

end Cert.ScatterPoints

end
-- ==== Proof.IdealHost.lean ====
/-
  The host operations that run before the kernel call, read on the extended reals.

  The graph has 1600 directed edges on 100 nodes; the edge list is a 2 x 1600 integer array whose row 0 holds each
  edge's starting node and row 1 its ending node. Before the kernel call the program
    * counts, for every node, the edges that start there (a scatter-add of ones), and takes
      dinv = 1 / sqrt (max (count, 1)) where the count is positive and 0 elsewhere;
    * gives edge a the weight  w a = (- dinv (start a)) * dinv (end a), the node indices read signed and a negative
      one moved up by 100 first;
    * adds the weights into a zero 100 x 100 matrix, edge a landing on entry (end a, start a).
  This module names the weight vector as the composition of exactly these operations (`wK`), shows that it is the
  vector the kernel call's dense operand is built from, that it is, operation by operation, the weight vector of the
  reference program (both of its heads), and reads the dense matrix at an entry: for an edge list whose entries are node
  numbers, entry (r, t) is the sum of the weights of the edges from t to r.
-/
import proofs.«132327_j50706383897350_2_alg».proof.Proof.Gen.KernelIdeal.Frame
import proofs.«132327_j50706383897350_2_alg».proof.Proof.ReadP
import proofs.«132327_j50706383897350_2_alg».proof.Proof.LibStages
import proofs.«132327_j50706383897350_2_alg».proof.Proof.LibScatterAdd2
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

set_option maxRecDepth 16384

noncomputable section

open scoped BigOperators

namespace Cert.KernelIdeal.HostValue

open Idealize.ShloMosaic Idealize.ShloMosaic.TcCoe Idealize.ShloMosaic.StableHlo Idealize.SL.Sem
open Idealize.ShloMosaic.ValueIdx
open Cert.KernelIdeal Cert.KernelIdeal.Gen

/-! ## The edge weights as the composed operations -/

/-- Row `k` of the edge list as a vector of 1600 node indices. -/
def rowK0 (E : (⟨S2x1600, .i32⟩ : BufTy).Contents (Elt Ideal)) : (⟨S1600, .i32⟩ : BufTy).Contents (Elt Ideal) :=
  shapeCast _ (extractStridedSlice S1x1600 ![0, 0] E slices_S2x1600_S1x1600_0_0) shapeCasts_S1x1600_S1600
def rowK1 (E : (⟨S2x1600, .i32⟩ : BufTy).Contents (Elt Ideal)) : (⟨S1600, .i32⟩ : BufTy).Contents (Elt Ideal) :=
  shapeCast _ (extractStridedSlice S1x1600 ![1, 0] E slices_S2x1600_S1x1600_1_0) shapeCasts_S1x1600_S1600

/-- The number of edges starting at each node: ones added into a zero vector at the starting nodes. -/
def degK (E : (⟨S2x1600, .i32⟩ : BufTy).Contents (Elt Ideal)) : (⟨S100, .f32⟩ : BufTy).Contents (Elt Ideal) :=
  Host.scatterAdd scatter_S100_S1600x1_S1600_n_0_0_1
    (broadcastInDim S100 ![] bcast_S_S100 (constant (F := Ideal) S_ .f32 0x00000000#32))
    (broadcastInDim S1600x1 ![0] bcast_S1600_S1600x1_0 (rowK0 E))
    (broadcastInDim S1600 ![] bcast_S_S1600 (constant (F := Ideal) S_ .f32 0x3F800000#32))

/-- `1 / sqrt (max (count, 1))` where the count is positive, `0` elsewhere. -/
def dinvK (E : (⟨S2x1600, .i32⟩ : BufTy).Contents (Elt Ideal)) : (⟨S100, .f32⟩ : BufTy).Contents (Elt Ideal) :=
  select
    (cmpf .ogt (degK E) (broadcastInDim S100 ![] bcast_S_S100 (constant (F := Ideal) S_ .f32 0x00000000#32)))
    (Host.rsqrt (maximumf (degK E) (broadcastInDim S100 ![] bcast_S_S100 (constant (F := Ideal) S_ .f32 0x3F800000#32))))
    (broadcastInDim S100 ![] bcast_S_S100 (id (constant (F := Ideal) S_ .f32 0x00000000#32)))

/-- A vector of signed node indices with every negative one moved up by 100. -/
def normK (x : (⟨S1600, .i32⟩ : BufTy).Contents (Elt Ideal)) : (⟨S1600, .i32⟩ : BufTy).Contents (Elt Ideal) :=
  select (cmpi .slt x (broadcastInDim S1600 ![] bcast_S_S1600 (constantI S_ 32 0#32)))
    (addi x (broadcastInDim S1600 ![] bcast_S_S1600 (constantI S_ 32 100#32))) x

/-- The edge weights `w a = (- dinv (start a)) * dinv (end a)`. -/
def wK (E : (⟨S2x1600, .i32⟩ : BufTy).Contents (Elt Ideal)) : (⟨S1600, .f32⟩ : BufTy).Contents (Elt Ideal) :=
  mulf (F := Ideal) (φ := .f32)
    (Host.negf (Host.gather gather_S100_S1600x1_S1600_n_0_n_n_0_1_1 (dinvK E)
      (broadcastInDim S1600x1 ![0] bcast_S1600_S1600x1_0 (normK (rowK0 E)))))
    (Host.gather gather_S100_S1600x1_S1600_n_0_n_n_0_1_1 (dinvK E)
      (broadcastInDim S1600x1 ![0] bcast_S1600_S1600x1_0 (normK (rowK1 E))))

/-! ## The dense matrix -/

/-- The scatter indices: row `a` is the pair (end of edge `a`, start of edge `a`), each moved up by 100 when negative. -/
def idxK (E : (⟨S2x1600, .i32⟩ : BufTy).Contents (Elt Ideal)) : (⟨S1600x2, .i32⟩ : BufTy).Contents (Elt Ideal) :=
  concatenate S1600x2 1
    [⟨S1600x1, broadcastInDim S1600x1 ![0] bcast_S1600_S1600x1_0 (normK (rowK1 E))⟩,
     ⟨S1600x1, broadcastInDim S1600x1 ![0] bcast_S1600_S1600x1_0 (normK (rowK0 E))⟩]
    concatenates_S1600x1_S1600x1_S1600x2_d1

/-- The dense 100 x 100 matrix: the edge weights added into a zero matrix at the index pairs. -/
def LK (E : (⟨S2x1600, .i32⟩ : BufTy).Contents (Elt Ideal)) : (⟨S100x100, .bf16⟩ : BufTy).Contents (Elt Ideal) :=
  truncf (F := Ideal) .bf16
    (Host.scatterAdd (F := Ideal) (φ := .f32) scatter_S100x100_S1600x2_S1600_n_01_01_1
      (broadcastInDim S100x100 ![] bcast_S_S100x100 (constant (F := Ideal) S_ .f32 0x00000000#32))
      (idxK E) (wK E))
    bitsLt_bf16_f32

/-- A signed 32-bit integer that is not negative is not below zero. -/
theorem cmpi_slt_zero {b : BitVec 32} (h : 0 ≤ b.toInt) : IntOp.cmpi .slt b 0#32 = 0#1 := by
  have hb : b.slt 0#32 = false := by
    rw [BitVec.slt]
    simp only [BitVec.toInt_zero, decide_eq_false_iff_not, not_lt]
    exact h
  show BitVec.ofBool (b.slt 0#32) = 0#1
  rw [hb]; rfl

/-- Moving negative indices up leaves a node number as it is. -/
theorem normK_apply (x : (⟨S1600, .i32⟩ : BufTy).Contents (Elt Ideal)) (a : Fin 1600) (h : 0 ≤ (x (ix1 a)).toInt) :
    normK x (ix1 a) = x (ix1 a) := by
  show Scalar.select (IntOp.cmpi .slt (x (ix1 a)) 0#32) (IntOp.addi (x (ix1 a)) 100#32) (x (ix1 a)) = _
  rw [cmpi_slt_zero h, select_zero]

theorem rowK0_apply (E : (⟨S2x1600, .i32⟩ : BufTy).Contents (Elt Ideal)) (a : Fin 1600) : rowK0 E (ix1 a) = E (ix2 0 a) := by
  show Cert.ReferenceIdeal.Read.val_main_v1 (F := Ideal) E (ix1 a) = _
  rw [Cert.ReferenceIdeal.Read.val_main_v1_apply, Cert.ReferenceIdeal.Read.val_main_v0_apply]
  exact congrArg E (funext fun b => Fin.ext (by
    match b with
    | ⟨0, _⟩ => rfl
    | ⟨1, _⟩ => show a.val % 1600 = a.val; exact Nat.mod_eq_of_lt a.isLt))

theorem rowK1_apply (E : (⟨S2x1600, .i32⟩ : BufTy).Contents (Elt Ideal)) (a : Fin 1600) : rowK1 E (ix1 a) = E (ix2 1 a) := by
  show Cert.ReferenceIdeal.Read.val_main_v3 (F := Ideal) E (ix1 a) = _
  rw [Cert.ReferenceIdeal.Read.val_main_v3_apply, Cert.ReferenceIdeal.Read.val_main_v2_apply]
  exact congrArg E (funext fun b => Fin.ext (by
    match b with
    | ⟨0, _⟩ => rfl
    | ⟨1, _⟩ => show a.val % 1600 = a.val; exact Nat.mod_eq_of_lt a.isLt))

/-- Column 0 of the index pairs is the vector of ending nodes. -/
theorem idxK_col0 (E : (⟨S2x1600, .i32⟩ : BufTy).Contents (Elt Ideal)) (a : Fin 1600) :
    idxK E (ix2 a 0) = normK (rowK1 E) (ix1 a) := by
  unfold idxK
  refine (concatenate_pair_apply_left (t := S1600x2) (s₁ := S1600x1) (s₂ := S1600x1) (1 : Fin 2) _ _
    concatenates_S1600x1_S1600x1_S1600x2_d1 (ix2 a 0) rfl (ix2 a (0 : Fin 1))
    (fun b => by match b with | ⟨0, _⟩ => rfl | ⟨1, _⟩ => rfl)).trans ?_
  exact broadcastInDim_apply _ bcast_S1600_S1600x1_0 _ (ix2 a 0) (ix1 a) (fun b => match b with
    | ⟨0, _⟩ => by show a.val = if (1600 : Nat) = 1 then 0 else a.val; rw [if_neg (by decide)])

/-- Column 1 of the index pairs is the vector of starting nodes. -/
theorem idxK_col1 (E : (⟨S2x1600, .i32⟩ : BufTy).Contents (Elt Ideal)) (a : Fin 1600) :
    idxK E (ix2 a 1) = normK (rowK0 E) (ix1 a) := by
  unfold idxK
  refine (concatenate_pair_apply_right (t := S1600x2) (s₁ := S1600x1) (s₂ := S1600x1) (1 : Fin 2) _ _
    concatenates_S1600x1_S1600x1_S1600x2_d1 (ix2 a 1) rfl rfl (ix2 a (0 : Fin 1))
    (fun b hb => by match b with | ⟨0, _⟩ => rfl | ⟨1, _⟩ => exact absurd rfl hb) (by show 0 + 1 = 1; rfl)).trans ?_
  exact broadcastInDim_apply _ bcast_S1600_S1600x1_0 _ (ix2 a 0) (ix1 a) (fun b => match b with
    | ⟨0, _⟩ => by show a.val = if (1600 : Nat) = 1 then 0 else a.val; rw [if_neg (by decide)])

/-- The dense matrix at an entry, for an edge list of node numbers: entry `(r, t)` is the sum of the weights of the
    edges that end at `r` and start at `t`. -/
theorem LK_apply (E : (⟨S2x1600, .i32⟩ : BufTy).Contents (Elt Ideal)) (s d : Fin 1600 → Fin 100)
    (hs : ∀ a, (E (ix2 0 a)).toInt = ((s a).val : ℤ)) (hd : ∀ a, (E (ix2 1 a)).toInt = ((d a).val : ℤ))
    (r t : Fin 100) :
    LK E (ix2 r t) = ∑ a : Fin 1600, if d a = r ∧ s a = t then wK E (ix1 a) else 0 := by
  have h0 : ∀ a : Fin 1600, (idxK E (ix2 a 0)).toInt = ((d a).val : ℤ) := fun a => by
    rw [idxK_col0, normK_apply _ _ (by rw [rowK1_apply, hd]; exact Int.natCast_nonneg _), rowK1_apply, hd]
  have h1 : ∀ a : Fin 1600, (idxK E (ix2 a 1)).toInt = ((s a).val : ℤ) := fun a => by
    rw [idxK_col1, normK_apply _ _ (by rw [rowK0_apply, hs]; exact Int.natCast_nonneg _), rowK0_apply, hs]
  have key : LK E (ix2 r t)
      = Ideal.hostScatterAdd (Cert.ScatterPoints.dimsP (R := 100) (C := 100) (N := 1600) scatter_S100x100_S1600x2_S1600_n_01_01_1_wf)
          (broadcastInDim S100x100 ![] bcast_S_S100x100 (constant (F := Ideal) S_ .f32 0x00000000#32)) (idxK E) (wK E) (ix2 r t) := rfl
  rw [key, Cert.ScatterPoints.scatterAddP_apply]
  rw [show (broadcastInDim S100x100 ![] bcast_S_S100x100 (constant (F := Ideal) S_ .f32 0x00000000#32)) (ix2 r t)
      = (0 : EReal) from Ideal.ofBits_zero_f32, zero_add]
  refine Finset.sum_congr rfl fun a _ => ?_
  rw [h0 a, h1 a]
  refine if_congr ?_ rfl rfl
  constructor
  · rintro ⟨e1, e2⟩; exact ⟨Fin.ext (by exact_mod_cast e1), Fin.ext (by exact_mod_cast e2)⟩
  · rintro ⟨e1, e2⟩; exact ⟨by rw [e1], by rw [e2]⟩

/-! ## What the kernel call finds -/

variable (m : (ℓ : Loc nD τ sig) → Buf (Elt Ideal) ℓ) (c : Dev nD)

set_option maxHeartbeats 2000000 in
/-- The weight vector the host leaves for the dense matrix is `wK` of the edge list as launched. -/
theorem V_w : (V m c main_v29 : S1600.Idx → EReal) = wK (m ((c : Thread nD τ).loc main_arg1)) := by
  show StableHlo.after (hostOps0 ++ (hostOps0_1 ++ (hostOps0_2 ++ []))) (fun b => m (c, b)) (Proc.devRef .tc main_v29) = _
  rw [after_append, after_append, List.append_nil]
  after_results_simp
  rfl

/-- The reference program computes the actor head's edge weights by the same operations in the same order. -/
theorem wK_eq_ref (E : (⟨S2x1600, .i32⟩ : BufTy).Contents (Elt Ideal)) :
    wK E = Cert.ReferenceIdeal.Read.val_main_v30 (F := Ideal) E := rfl

/-- The reference program computes them once more, by the same operations, for the critic head. -/
theorem wK_eq_ref_c (E : (⟨S2x1600, .i32⟩ : BufTy).Contents (Elt Ideal)) :
    wK E = Cert.ReferenceIdeal.Read.val_main_v112 (F := Ideal) E := rfl

set_option maxHeartbeats 4000000 in
/-- The dense operand of the kernel call is `LK` of the edge list as launched. -/
theorem V_L : (V m c main_v45 : S100x100.Idx → EReal) = LK (m ((c : Thread nD τ).loc main_arg1)) := by
  show StableHlo.after (hostOps0 ++ (hostOps0_1 ++ (hostOps0_2 ++ []))) (fun b => m (c, b)) (Proc.devRef .tc main_v45) = _
  rw [after_append, after_append, List.append_nil]
  after_results_simp
  rfl

/-- The dense operand of the kernel call at an entry, for an edge list of node numbers `s` (starting nodes) and `d`
    (ending nodes): entry `(r, t)` is the sum of the weights of the edges from `t` to `r`. -/
theorem L_apply (s d : Fin 1600 → Fin 100)
    (hs : ∀ a, ((m ((c : Thread nD τ).loc main_arg1) : S2x1600.Idx → BitVec 32) (ix2 0 a)).toInt = ((s a).val : ℤ))
    (hd : ∀ a, ((m ((c : Thread nD τ).loc main_arg1) : S2x1600.Idx → BitVec 32) (ix2 1 a)).toInt = ((d a).val : ℤ))
    (r t : Fin 100) :
    (V m c main_v45 : S100x100.Idx → EReal) (ix2 r t)
      = ∑ a : Fin 1600, if d a = r ∧ s a = t then wK (m ((c : Thread nD τ).loc main_arg1)) (ix1 a) else 0 := by
  rw [V_L]
  exact LK_apply _ s d hs hd r t

end Cert.KernelIdeal.HostValue

end
-- ==== Proof.LibScatterAdd.lean ====
/-
  The host's accumulating float scatter, for row scatters, read at an index on the extended reals.

  A ROW SCATTER has scatter indices of shape [N, 1] holding one row number each; that number names the
  operand's axis 0, which is inserted; the update's remaining axes (none, or one axis of C columns) go to the
  operand's remaining axes. Update row j then lands on operand row (I j), the index read signed, column for
  column, and is dropped when that row is outside the operand. On the extended reals the scatter-add is the
  operand plus the exact sum of the updates landing on each element, so

    result (r)    = Z (r)    + the sum over the update rows j with I j = r of U (j)        (no columns)
    result (r, c) = Z (r, c) + the sum over the update rows j with I j = r of U (j, c)     (C columns)

  for any sizes R (operand rows), N (update rows), C (columns) and any index width. The lemmas are stated for
  the dimension numbers as a record built from any proof of their well-formedness (`dims1 wf`, `dims2 wf`); a
  program's own record of the same four lists is that record, so they apply to it by unification.
-/
import Idealize.ShloMosaic.Lib.ValueIdx
import Idealize.ShloMosaic.Lib.IdealHost
import Idealize.ShloMosaic.Lib.Pipeline.Value
import Idealize.ShloMosaic.PureOps.Contract

noncomputable section

open scoped BigOperators

namespace Cert.ScatterRows

open Idealize.ShloMosaic Idealize.ShloMosaic.ValueIdx

theorem coord_val_congr {s : Shape} (j : s.Idx) {a b : Fin s.rank} (h : a = b) : (j a).val = (j b).val := by
  subst h; rfl

section rank1
variable {R N w : Nat}

/-- The 1-D scatter's dimension numbers, over any sizes. -/
abbrev dims1 (wf : ScatterDims.WF ⟨1, ![R]⟩ ⟨2, ![N, 1]⟩ ⟨1, ![N]⟩ [] [0] [0] 1) :
    ScatterDims ⟨1, ![R]⟩ ⟨2, ![N, 1]⟩ ⟨1, ![N]⟩ := ⟨[], [0], [0], 1, wf⟩

theorem start1 (wf) (a : Fin N) (I : IVec ⟨2, ![N, 1]⟩ w) :
    (dims1 (R := R) wf).start (ix1 a) I 0 = (I (ix2 a 0)).toInt := by
  unfold ScatterDims.start
  rw [dif_pos (List.mem_singleton.2 rfl)]
  congr 2
  funext b
  match b with
  | ⟨0, _⟩ =>
    apply Fin.ext
    simp only [ScatterDims.siIdx, ScatterDims.siCoord]
    rw [dif_neg (by decide)]
    simp only [Fin.coe_cast]
    exact coord_val_congr (ix1 a) rfl
  | ⟨1, _⟩ =>
    apply Fin.ext
    simp [ScatterDims.siIdx]

theorem window1 (wf) (j : (⟨1, ![N]⟩ : Shape).Idx) :
    (dims1 (R := R) wf).window j 0 = 0 := by
  unfold ScatterDims.window
  rw [dif_neg (by simp [Shape.kept])]

theorem resultIdx1 (wf) (a : Fin N) (I : IVec ⟨2, ![N, 1]⟩ w) (r : Fin R) :
    (dims1 (R := R) wf).resultIdx? (ix1 a) I = some (ix1 r) ↔ (I (ix2 a 0)).toInt = (r.val : ℤ) := by
  unfold ScatterDims.resultIdx?
  constructor
  · intro h
    split at h
    · rename_i hh
      have h0 := congrFun (Option.some.inj h) 0
      have h1 := congrArg Fin.val h0
      have h2 := hh 0
      rw [start1, window1] at h2
      change ((dims1 (R := R) wf).start (ix1 a) I 0 + ((dims1 (R := R) wf).window (ix1 a) 0 : ℤ)).toNat = r.val at h1
      rw [start1, window1] at h1
      omega
    · exact absurd h (by simp)
  · intro h
    have hh : ∀ b, 0 ≤ (dims1 (R := R) wf).start (ix1 a) I b + ((dims1 (R := R) wf).window (ix1 a) b : ℤ)
        ∧ (dims1 (R := R) wf).start (ix1 a) I b + ((dims1 (R := R) wf).window (ix1 a) b : ℤ)
          < ((⟨1, ![R]⟩ : Shape).size b : ℤ) := by
      intro b
      match b with
      | ⟨0, _⟩ =>
        have := r.isLt
        change _ ∧ (dims1 (R := R) wf).start (ix1 a) I 0 + ((dims1 (R := R) wf).window (ix1 a) 0 : ℤ) < (R : ℤ)
        change 0 ≤ (dims1 (R := R) wf).start (ix1 a) I 0 + ((dims1 (R := R) wf).window (ix1 a) 0 : ℤ) ∧ _
        rw [start1, window1, h]
        omega
    rw [dif_pos hh]
    congr 1
    funext b
    match b with
    | ⟨0, _⟩ =>
      apply Fin.ext
      change ((dims1 (R := R) wf).start (ix1 a) I 0 + ((dims1 (R := R) wf).window (ix1 a) 0 : ℤ)).toNat = r.val
      rw [start1, window1, h]
      omega

end rank1

section rank1sum
variable {R N w : Nat}

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem scatterAdd1_apply (wf) (Z : (⟨1, ![R]⟩ : Shape).Idx → EReal) (I : IVec ⟨2, ![N, 1]⟩ w)
    (U : (⟨1, ![N]⟩ : Shape).Idx → EReal) (r : Fin R) :
    Ideal.hostScatterAdd (dims1 (R := R) wf) Z I U (ix1 r)
      = Z (ix1 r) + ∑ a : Fin N, if (I (ix2 a 0)).toInt = (r.val : ℤ) then U (ix1 a) else 0 := by
  unfold Ideal.hostScatterAdd
  rw [Finset.sum_filter, sum_idx1]
  congr 1
  apply Finset.sum_congr rfl
  intro a _
  exact if_congr (resultIdx1 wf a I r) rfl rfl

end rank1sum

section rank2
variable {R N C w : Nat}

/-- The row scatter's dimension numbers, over any sizes: the update's rows go to the operand's rows
    the indices name, its columns to the same columns. -/
abbrev dims2 (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ := ⟨[1], [0], [0], 1, wf⟩

theorem start2_0 (wf) (a : Fin N) (c : Fin C) (I : IVec ⟨2, ![N, 1]⟩ w) :
    (dims2 (R := R) wf).start (ix2 a c) I 0 = (I (ix2 a 0)).toInt := by
  unfold ScatterDims.start
  rw [dif_pos (List.mem_singleton.2 rfl)]
  congr 2
  funext b
  match b with
  | ⟨0, _⟩ =>
    apply Fin.ext
    simp only [ScatterDims.siIdx, ScatterDims.siCoord]
    rw [dif_neg (by decide)]
    simp only [Fin.coe_cast]
    exact coord_val_congr (ix2 a c) rfl
  | ⟨1, _⟩ =>
    apply Fin.ext
    simp [ScatterDims.siIdx]

theorem start2_1 (wf) (j : (⟨2, ![N, C]⟩ : Shape).Idx) (I : IVec ⟨2, ![N, 1]⟩ w) :
    (dims2 (R := R) wf).start j I 1 = 0 := by
  unfold ScatterDims.start
  rw [dif_neg (by simp)]

theorem window2_0 (wf) (j : (⟨2, ![N, C]⟩ : Shape).Idx) :
    (dims2 (R := R) wf).window j 0 = 0 := by
  unfold ScatterDims.window
  rw [dif_neg (by simp [Shape.kept])]

theorem window2_1 (wf) (a : Fin N) (c : Fin C) :
    (dims2 (R := R) wf).window (ix2 a c) 1 = c.val := by
  unfold ScatterDims.window
  rw [dif_pos (by simp [Shape.kept])]
  exact coord_val_congr (ix2 a c) rfl

end rank2

section rank2sum
variable {R N C w : Nat}

theorem resultIdx2 (wf) (a : Fin N) (c : Fin C) (I : IVec ⟨2, ![N, 1]⟩ w) (r : Fin R) (c' : Fin C) :
    (dims2 (R := R) wf).resultIdx? (ix2 a c) I = some (ix2 r c')
      ↔ (I (ix2 a 0)).toInt = (r.val : ℤ) ∧ c = c' := by
  unfold ScatterDims.resultIdx?
  constructor
  · intro h
    split at h
    · rename_i hh
      have e := Option.some.inj h
      have h0 := congrArg Fin.val (congrFun e 0)
      have h1 := congrArg Fin.val (congrFun e 1)
      have g0 := hh 0
      rw [start2_0, window2_0] at g0
      change ((dims2 (R := R) wf).start (ix2 a c) I 0 + ((dims2 (R := R) wf).window (ix2 a c) 0 : ℤ)).toNat = r.val at h0
      change ((dims2 (R := R) wf).start (ix2 a c) I 1 + ((dims2 (R := R) wf).window (ix2 a c) 1 : ℤ)).toNat = c'.val at h1
      rw [start2_0, window2_0] at h0
      rw [start2_1, window2_1] at h1
      refine ⟨by omega, Fin.ext (by omega)⟩
    · exact absurd h (by simp)
  · rintro ⟨h, rfl⟩
    have hh : ∀ b, 0 ≤ (dims2 (R := R) wf).start (ix2 a c) I b + ((dims2 (R := R) wf).window (ix2 a c) b : ℤ)
        ∧ (dims2 (R := R) wf).start (ix2 a c) I b + ((dims2 (R := R) wf).window (ix2 a c) b : ℤ)
          < ((⟨2, ![R, C]⟩ : Shape).size b : ℤ) := by
      intro b
      match b with
      | ⟨0, _⟩ =>
        have := r.isLt
        change _ ∧ (dims2 (R := R) wf).start (ix2 a c) I 0 + ((dims2 (R := R) wf).window (ix2 a c) 0 : ℤ) < (R : ℤ)
        change 0 ≤ (dims2 (R := R) wf).start (ix2 a c) I 0 + ((dims2 (R := R) wf).window (ix2 a c) 0 : ℤ) ∧ _
        rw [start2_0, window2_0, h]
        omega
      | ⟨1, _⟩ =>
        have := c.isLt
        change _ ∧ (dims2 (R := R) wf).start (ix2 a c) I 1 + ((dims2 (R := R) wf).window (ix2 a c) 1 : ℤ) < (C : ℤ)
        change 0 ≤ (dims2 (R := R) wf).start (ix2 a c) I 1 + ((dims2 (R := R) wf).window (ix2 a c) 1 : ℤ) ∧ _
        rw [start2_1, window2_1]
        omega
    rw [dif_pos hh]
    congr 1
    funext b
    match b with
    | ⟨0, _⟩ =>
      apply Fin.ext
      change ((dims2 (R := R) wf).start (ix2 a c) I 0 + ((dims2 (R := R) wf).window (ix2 a c) 0 : ℤ)).toNat = r.val
      rw [start2_0, window2_0, h]
      omega
    | ⟨1, _⟩ =>
      apply Fin.ext
      change ((dims2 (R := R) wf).start (ix2 a c) I 1 + ((dims2 (R := R) wf).window (ix2 a c) 1 : ℤ)).toNat = c.val
      rw [start2_1, window2_1]
      omega

/-- Of a row of terms, the ones at one column under a condition that does not depend on the column. -/
theorem sum_and_eq (p : Prop) [Decidable p] (c : Fin C) (f : Fin C → EReal) :
    ∑ c' : Fin C, (if p ∧ c' = c then f c' else 0) = if p then f c else 0 := by
  by_cases hp : p
  · simp [hp]
  · simp [hp]

theorem scatterAdd2_apply (wf) (Z : (⟨2, ![R, C]⟩ : Shape).Idx → EReal) (I : IVec ⟨2, ![N, 1]⟩ w)
    (U : (⟨2, ![N, C]⟩ : Shape).Idx → EReal) (r : Fin R) (c : Fin C) :
    Ideal.hostScatterAdd (dims2 (R := R) wf) Z I U (ix2 r c)
      = Z (ix2 r c) + ∑ a : Fin N, if (I (ix2 a 0)).toInt = (r.val : ℤ) then U (ix2 a c) else 0 := by
  unfold Ideal.hostScatterAdd
  rw [Finset.sum_filter, sum_idx2]
  congr 1
  apply Finset.sum_congr rfl
  intro a _
  rw [← sum_and_eq ((I (ix2 a 0)).toInt = (r.val : ℤ)) c (fun c' => U (ix2 a c'))]
  apply Finset.sum_congr rfl
  intro c' _
  exact if_congr (resultIdx2 wf a c' I r c) rfl rfl

end rank2sum

end Cert.ScatterRows

end
-- ==== Proof.RefGather.lean ====
/-
  Reading a row gather at an index.

  A row gather of a matrix `x : [R, C]` at a column of start indices `idx : [N, 1]` has the result `[N, C]` whose
  row `a` is the row of `x` at the start index `idx[a, 0]`, read as a signed integer and clamped into `[0, R − 1]`.
-/
import Idealize.ShloMosaic.PureOps.Ideal
import Idealize.ShloMosaic.Lib.ValueIdx

noncomputable section

namespace Cert.GatherRows

open Idealize.ShloMosaic Idealize.ShloMosaic.ValueIdx

variable {R N C w : Nat} {α : Type}

/-- The row gather's dimension numbers, over any sizes: the one start-index component names the operand's row, the
    row axis is collapsed and the whole row of `C` columns is the slice. -/
abbrev rowDims (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- The row gather read at `(a, c)`: the operand at row `idx[a, 0]` (signed, clamped into `[0, R − 1]`), column `c`. -/
theorem gatherRows_apply (hR : 0 < R) (wf) (x : (⟨2, ![R, C]⟩ : Shape).Idx → α) (idx : IVec ⟨2, ![N, 1]⟩ w)
    (a : Fin N) (c : Fin C) :
    Host.gather (rowDims (R := R) (N := N) (C := C) wf) x idx (ix2 a c)
      = x (ix2 ⟨min (idx (ix2 a 0)).toInt.toNat (R - 1), by omega⟩ c) := by
  unfold Host.gather
  congr 1
  funext b
  refine Fin.ext ?_
  match b with
  | ⟨0, _⟩ =>
    show (rowDims wf).start (ix2 a c) idx 0 + (rowDims wf).batchCoord (ix2 a c) 0 + (rowDims wf).offCoord (ix2 a c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims (R := R) (N := N) (C := C) wf).startIndexMap from List.mem_singleton.mpr rfl)]
    have hsi : (rowDims (R := R) (N := N) (C := C) wf).siIdx (ix2 a c)
        ⟨List.idxOf (0 : Fin 2) (rowDims (R := R) (N := N) (C := C) wf).startIndexMap,
          List.idxOf_lt_length_iff.2 (List.mem_singleton.mpr rfl)⟩ = ix2 a 0 := by
      funext b; refine Fin.ext ?_
      match b with
      | ⟨0, _⟩ => rfl
      | ⟨1, _⟩ => rfl
    rw [hsi]
    rfl
  | ⟨1, _⟩ =>
    show (rowDims wf).start (ix2 a c) idx 1 + (rowDims wf).batchCoord (ix2 a c) 1 + (rowDims wf).offCoord (ix2 a c) 1 = c.val
    rw [GatherDims.batchCoord_eq_zero _ _ _ List.not_mem_nil]
    unfold GatherDims.start
    rw [dif_neg (by simp)]
    unfold GatherDims.offCoord
    rw [dif_pos (by simp [GatherDims.sKept, Shape.kept])]
    simp only [Nat.add_zero, Nat.zero_add]
    rfl

end Cert.GatherRows

end
-- ==== Proof.RefProp.lean ====
/-
  One propagation step of the graph convolution, as the reference writes it, read at an index.

  The reference gathers the rows of a feature matrix `Z` at the edges' starting nodes, scales row `a` by the edge
  weight `w a` and scatter-adds the scaled rows into a zero matrix at the edges' end nodes. Read at `(r, c)` this is
  the sum over the edges `a` ending at `r` of `w a · Z (s a, c)`.
-/
import proofs.«132327_j50706383897350_2_alg».proof.Proof.Spec
import proofs.«132327_j50706383897350_2_alg».proof.Proof.LibScatterAdd
import proofs.«132327_j50706383897350_2_alg».proof.Proof.RefGather
import Idealize.ShloMosaic.PureOps.Ideal.Laws

noncomputable section

namespace Cert.RefProp

open Idealize.ShloMosaic Idealize.ShloMosaic.ValueIdx

/-- "If `x` is negative take `y`, else `x`" is `x` where `x`, read signed, is not negative. -/
theorem select_nonneg (x y : BitVec 32) (hx : 0 ≤ x.toInt) :
    Scalar.select (IntOp.cmpi .slt x 0#32) y x = x := by
  have hlt : x.slt 0#32 = false := by
    simp only [BitVec.slt, BitVec.toInt_zero, decide_eq_false_iff_not, Int.not_lt]
    exact hx
  show (if BitVec.ofBool (x.slt 0#32) = 1 then _ else _) = _
  rw [hlt]
  rfl

/-- A word that reads, signed, as the number of a row is left alone by the clamp into the rows' range. -/
theorem clamp_row {R : Nat} (v : BitVec 32) (r : Fin R) (h : v.toInt = (r.val : ℤ)) :
    min v.toInt.toNat (R - 1) = r.val := by
  have := r.isLt
  rw [h, Int.toNat_natCast]
  omega

/-- Equal as integers, equal as nodes. -/
theorem node_eq_iff {R : Nat} (p q : Fin R) : ((p.val : ℤ) = (q.val : ℤ)) ↔ p = q := by
  rw [Int.natCast_inj, Fin.val_inj]

/-- The row gather at start indices that read as the nodes `s a`: row `a` is the operand's row `s a`. -/
theorem gather_row (gwf) (Z : FVec Ideal ⟨2, ![100, 65536]⟩ .f32) (src : IVec ⟨2, ![1600, 1]⟩ 32)
    (s : Fin 1600 → Fin 100) (hs : ∀ a, (src (ix2 a 0)).toInt = ((s a).val : ℤ)) (a : Fin 1600) (c : Fin 65536) :
    Host.gather (Cert.GatherRows.rowDims (R := 100) (N := 1600) (C := 65536) gwf) Z src (ix2 a c) = Z (ix2 (s a) c) := by
  rw [Cert.GatherRows.gatherRows_apply (by decide) gwf]
  exact congrArg (fun q => Z (ix2 q c)) (Fin.ext (clamp_row _ _ (hs a)))

/-- One propagation step read at `(r, c)`. -/
theorem prop_step (gwf) (swf) (Z zero : FVec Ideal ⟨2, ![100, 65536]⟩ .f32)
    (wcol : FVec Ideal ⟨2, ![1600, 65536]⟩ .f32) (w : Fin 1600 → EReal)
    (src dst : IVec ⟨2, ![1600, 1]⟩ 32) (s d : Fin 1600 → Fin 100)
    (hz : ∀ i, zero i = 0) (hw : ∀ a c, wcol (ix2 a c) = w a)
    (hs : ∀ a, (src (ix2 a 0)).toInt = ((s a).val : ℤ)) (hd : ∀ a, (dst (ix2 a 0)).toInt = ((d a).val : ℤ))
    (r : Fin 100) (c : Fin 65536) :
    Host.scatterAdd (F := Ideal) (Cert.ScatterRows.dims2 (R := 100) (N := 1600) (C := 65536) swf) zero dst
        (mulf wcol (Host.gather (Cert.GatherRows.rowDims (R := 100) (N := 1600) (C := 65536) gwf) Z src)) (ix2 r c)
      = Cert.Spec.prop s d w (fun r c => Z (ix2 r c)) r c := by
  show Ideal.hostScatterAdd _ _ _ _ _ = _
  rw [Cert.ScatterRows.scatterAdd2_apply, hz, zero_add]
  unfold Cert.Spec.prop
  refine Finset.sum_congr rfl fun a _ => ?_
  rw [hd a, mulf_apply, hw, gather_row gwf Z src s hs]
  exact if_congr (node_eq_iff (d a) r) rfl rfl

end Cert.RefProp

end
-- ==== Proof.RefStagesA.lean ====
/-
  The reference's propagation stages read at an index (actor head).

  Under the hypotheses that the edge array's two rows read, signed, as the nodes `s a` and `d a`, the stage after the
  first scatter is one propagation step of the feature matrix, the stage after the second scatter is two steps, and the
  stage after the subtraction is the second Chebyshev term.
-/
import proofs.«132327_j50706383897350_2_alg».proof.Proof.ReadP
import proofs.«132327_j50706383897350_2_alg».proof.Proof.RefProp

noncomputable section

namespace Cert.ReferenceIdeal.RefValue.A

open Cert.ReferenceIdeal Cert.ReferenceIdeal.Gen Idealize.ShloMosaic Idealize.ShloMosaic.ValueIdx

variable (x0 : (⟨S100x65536, .f32⟩ : BufTy).Contents (Elt Ideal)) (x1 : (⟨S2x1600, .i32⟩ : BufTy).Contents (Elt Ideal))
  (s d : Fin 1600 → Fin 100)

/-- The source row of the edge array, flattened: entry `a` is the array's `(0, a)`. -/
theorem src_at (a : Fin 1600) : Read.val_main_v1 (F := Ideal) x1 (ix1 a) = x1 (ix2 0 a) := by
  rw [Read.val_main_v1_apply, Read.val_main_v0_apply]
  refine congrArg x1 (funext fun b => Fin.ext ?_)
  match b with
  | ⟨0, _⟩ => rfl
  | ⟨1, _⟩ => exact Nat.mod_eq_of_lt a.isLt

/-- The target row of the edge array, flattened: entry `a` is the array's `(1, a)`. -/
theorem dst_at (a : Fin 1600) : Read.val_main_v3 (F := Ideal) x1 (ix1 a) = x1 (ix2 1 a) := by
  rw [Read.val_main_v3_apply, Read.val_main_v2_apply]
  refine congrArg x1 (funext fun b => Fin.ext ?_)
  match b with
  | ⟨0, _⟩ => rfl
  | ⟨1, _⟩ => exact Nat.mod_eq_of_lt a.isLt

/-- The start indices of the first gather read as the source nodes: a source word is not negative, so the
    wrap-around of negative indices leaves it alone. -/
theorem gsrc1_at (hs : ∀ a : Fin 1600, BitVec.toInt (x1 (ix2 0 a)) = ((s a).val : ℤ)) (a : Fin 1600) :
    BitVec.toInt (Read.val_main_v37 (F := Ideal) x1 (ix2 a 0)) = ((s a).val : ℤ) := by
  have hnn : 0 ≤ BitVec.toInt (x1 (ix2 0 a)) := by rw [hs a]; exact Int.natCast_nonneg _
  have e : Read.idx_main_v37 (ix2 a (0 : Fin 1)) = ix1 a :=
    funext fun b => Fin.ext (by match b with | ⟨0, _⟩ => rfl)
  rw [Read.val_main_v37_apply, e, Read.val_main_v36_apply, Read.val_main_v33_apply, Read.val_main_v32_apply, Read.val_main_c_7_apply, src_at,
    Cert.RefProp.select_nonneg _ _ hnn]
  exact hs a

/-- The start indices of the second gather read as the source nodes. -/
theorem gsrc2_at (hs : ∀ a : Fin 1600, BitVec.toInt (x1 (ix2 0 a)) = ((s a).val : ℤ)) (a : Fin 1600) :
    BitVec.toInt (Read.val_main_v50 (F := Ideal) x1 (ix2 a 0)) = ((s a).val : ℤ) := by
  have hnn : 0 ≤ BitVec.toInt (x1 (ix2 0 a)) := by rw [hs a]; exact Int.natCast_nonneg _
  have e : Read.idx_main_v50 (ix2 a (0 : Fin 1)) = ix1 a :=
    funext fun b => Fin.ext (by match b with | ⟨0, _⟩ => rfl)
  rw [Read.val_main_v50_apply, e, Read.val_main_v49_apply, Read.val_main_v46_apply, Read.val_main_v45_apply, Read.val_main_c_10_apply, src_at,
    Cert.RefProp.select_nonneg _ _ hnn]
  exact hs a

/-- The first scatter's indices read as the target nodes. -/
theorem sdst1_at (hd : ∀ a : Fin 1600, BitVec.toInt (x1 (ix2 1 a)) = ((d a).val : ℤ)) (a : Fin 1600) :
    BitVec.toInt (Read.val_main_v42 (F := Ideal) x1 (ix2 a 0)) = ((d a).val : ℤ) := by
  have e : Read.idx_main_v42 (ix2 a (0 : Fin 1)) = ix1 a :=
    funext fun b => Fin.ext (by match b with | ⟨0, _⟩ => rfl)
  rw [Read.val_main_v42_apply, e, dst_at]
  exact hd a

/-- The second scatter's indices read as the target nodes. -/
theorem sdst2_at (hd : ∀ a : Fin 1600, BitVec.toInt (x1 (ix2 1 a)) = ((d a).val : ℤ)) (a : Fin 1600) :
    BitVec.toInt (Read.val_main_v55 (F := Ideal) x1 (ix2 a 0)) = ((d a).val : ℤ) := by
  have e : Read.idx_main_v55 (ix2 a (0 : Fin 1)) = ix1 a :=
    funext fun b => Fin.ext (by match b with | ⟨0, _⟩ => rfl)
  rw [Read.val_main_v55_apply, e, dst_at]
  exact hd a

/-- The edge weights spread over the columns (first step): entry `(a, c)` is the weight of edge `a`. -/
theorem wcol1_at (a : Fin 1600) (c : Fin 65536) :
    Read.val_main_v39 (F := Ideal) x1 (ix2 a c) = Read.val_main_v30 (F := Ideal) x1 (ix1 a) := by
  rw [Read.val_main_v39_apply, Read.val_main_v31_apply]
  exact congrArg _ (funext fun b => Fin.ext (by match b with | ⟨0, _⟩ => rfl))

/-- The edge weights spread over the columns (second step). -/
theorem wcol2_at (a : Fin 1600) (c : Fin 65536) :
    Read.val_main_v52 (F := Ideal) x1 (ix2 a c) = Read.val_main_v30 (F := Ideal) x1 (ix1 a) := by
  rw [Read.val_main_v52_apply, Read.val_main_v44_apply]
  exact congrArg _ (funext fun b => Fin.ext (by match b with | ⟨0, _⟩ => rfl))

/-- The first scatter's operand is the zero matrix. -/
theorem zero1_at (i : S100x65536.Idx) : Read.val_main_v41 (F := Ideal) i = (0 : EReal) := by
  rw [Read.val_main_v41_apply, Read.val_main_cst_9_apply]
  exact Ideal.ofBits_zero_f32

/-- The second scatter's operand is the zero matrix. -/
theorem zero2_at (i : S100x65536.Idx) : Read.val_main_v54 (F := Ideal) i = (0 : EReal) := by
  rw [Read.val_main_v54_apply, Read.val_main_cst_12_apply]
  exact Ideal.ofBits_zero_f32

/-- The stage after the first scatter is one propagation step of the feature matrix. -/
theorem prop1_at (hs : ∀ a : Fin 1600, BitVec.toInt (x1 (ix2 0 a)) = ((s a).val : ℤ))
    (hd : ∀ a : Fin 1600, BitVec.toInt (x1 (ix2 1 a)) = ((d a).val : ℤ)) (r : Fin 100) (c : Fin 65536) :
    Read.val_main_v43 (F := Ideal) x0 x1 (ix2 r c)
      = Cert.Spec.prop s d (fun a => Read.val_main_v30 (F := Ideal) x1 (ix1 a)) (fun r c => x0 (ix2 r c)) r c := by
  unfold Read.val_main_v43 Read.val_main_v40 Read.val_main_v38
  exact Cert.RefProp.prop_step _ _ x0 _ _ (fun a => Read.val_main_v30 (F := Ideal) x1 (ix1 a)) _ _ s d
    (zero1_at) (wcol1_at x1) (gsrc1_at x1 s hs) (sdst1_at x1 d hd) r c

/-- The stage after the second scatter is two propagation steps of the feature matrix. -/
theorem prop2_at (hs : ∀ a : Fin 1600, BitVec.toInt (x1 (ix2 0 a)) = ((s a).val : ℤ))
    (hd : ∀ a : Fin 1600, BitVec.toInt (x1 (ix2 1 a)) = ((d a).val : ℤ)) (r : Fin 100) (c : Fin 65536) :
    Read.val_main_v56 (F := Ideal) x0 x1 (ix2 r c)
      = Cert.Spec.prop s d (fun a => Read.val_main_v30 (F := Ideal) x1 (ix1 a))
          (Cert.Spec.prop s d (fun a => Read.val_main_v30 (F := Ideal) x1 (ix1 a)) (fun r c => x0 (ix2 r c))) r c := by
  unfold Read.val_main_v56 Read.val_main_v53 Read.val_main_v51
  refine (Cert.RefProp.prop_step _ _ (Read.val_main_v43 (F := Ideal) x0 x1) _ _ (fun a => Read.val_main_v30 (F := Ideal) x1 (ix1 a)) _ _ s d
    (zero2_at) (wcol2_at x1) (gsrc2_at x1 s hs) (sdst2_at x1 d hd) r c).trans ?_
  exact congrArg (fun Z => Cert.Spec.prop s d (fun a => Read.val_main_v30 (F := Ideal) x1 (ix1 a)) Z r c)
    (funext fun r' => funext fun c' => prop1_at x0 x1 s d hs hd r' c')

/-- The stage after the subtraction is the second Chebyshev term. -/
theorem cheb2_at (hs : ∀ a : Fin 1600, BitVec.toInt (x1 (ix2 0 a)) = ((s a).val : ℤ))
    (hd : ∀ a : Fin 1600, BitVec.toInt (x1 (ix2 1 a)) = ((d a).val : ℤ)) (r : Fin 100) (c : Fin 65536) :
    Read.val_main_v59 (F := Ideal) x0 x1 (ix2 r c)
      = Cert.Spec.cheb2 s d (fun a => Read.val_main_v30 (F := Ideal) x1 (ix1 a)) (fun r c => x0 (ix2 r c)) r c := by
  rw [Read.val_main_v59_apply, Read.val_main_v58_apply, Read.val_main_v57_apply, Read.val_main_cst_13_apply, prop2_at x0 x1 s d hs hd]
  rfl

end Cert.ReferenceIdeal.RefValue.A

end
-- ==== Proof.RefEmbA.lean ====
/-
  The actor head's embedding, as the reference computes it, read at an index.

  The three matrix products are sums over the 65536 channels of the feature matrix, of its one propagation step and of
  its second Chebyshev term against the three weight matrices; their sum plus the bias goes through tanh and the
  per-column offset is added.
-/
import proofs.«132327_j50706383897350_2_alg».proof.Proof.RefStagesA

noncomputable section

namespace Cert.ReferenceIdeal.RefValue

open Cert.ReferenceIdeal Cert.ReferenceIdeal.Gen Idealize.ShloMosaic Idealize.ShloMosaic.ValueIdx Idealize.ShloMosaic.TcCoe
  Idealize.SL.Sem Idealize.ShloMosaic.StableHlo

namespace A

variable (x0 : (⟨S100x65536, .f32⟩ : BufTy).Contents (Elt Ideal)) (x1 : (⟨S2x1600, .i32⟩ : BufTy).Contents (Elt Ideal))
  (x2 : (⟨S1x3, .f32⟩ : BufTy).Contents (Elt Ideal)) (x3 : (⟨S3x65536x60, .f32⟩ : BufTy).Contents (Elt Ideal))
  (x4 : (⟨S60, .f32⟩ : BufTy).Contents (Elt Ideal)) (x7 x8 : (⟨S3x60, .f32⟩ : BufTy).Contents (Elt Ideal))
  (s d : Fin 1600 → Fin 100)

/-- The weight matrix of term 0: entry `(k, o)` is the weight array's `(0, k, o)`. -/
theorem w0_at (k : Fin 65536) (o : Fin 60) :
    Read.val_main_v61 (F := Ideal) x3 (ix2 k o) = x3 (ix3 (0 : Fin 3) k o) := by
  rw [Read.val_main_v61_apply, Read.val_main_v60_apply]
  refine congrArg x3 (funext fun b => Fin.ext ?_)
  have hk := k.isLt
  have ho := o.isLt
  match b with
  | ⟨0, _⟩ => rfl
  | ⟨1, _⟩ => show (k.val * 60 + o.val) / 60 % 65536 = k.val; omega
  | ⟨2, _⟩ => show (k.val * 60 + o.val) % 60 = o.val; omega

/-- The weight matrix of term 1: entry `(k, o)` is the weight array's `(1, k, o)`. -/
theorem w1_at (k : Fin 65536) (o : Fin 60) :
    Read.val_main_v64 (F := Ideal) x3 (ix2 k o) = x3 (ix3 (1 : Fin 3) k o) := by
  rw [Read.val_main_v64_apply, Read.val_main_v63_apply]
  refine congrArg x3 (funext fun b => Fin.ext ?_)
  have hk := k.isLt
  have ho := o.isLt
  match b with
  | ⟨0, _⟩ => rfl
  | ⟨1, _⟩ => show (k.val * 60 + o.val) / 60 % 65536 = k.val; omega
  | ⟨2, _⟩ => show (k.val * 60 + o.val) % 60 = o.val; omega

/-- The weight matrix of term 2: entry `(k, o)` is the weight array's `(2, k, o)`. -/
theorem w2_at (k : Fin 65536) (o : Fin 60) :
    Read.val_main_v68 (F := Ideal) x3 (ix2 k o) = x3 (ix3 (2 : Fin 3) k o) := by
  rw [Read.val_main_v68_apply, Read.val_main_v67_apply]
  refine congrArg x3 (funext fun b => Fin.ext ?_)
  have hk := k.isLt
  have ho := o.isLt
  match b with
  | ⟨0, _⟩ => rfl
  | ⟨1, _⟩ => show (k.val * 60 + o.val) / 60 % 65536 = k.val; omega
  | ⟨2, _⟩ => show (k.val * 60 + o.val) % 60 = o.val; omega

/-- The first matrix product read at `(r, o)`. -/
theorem dot0_at (r : Fin 100) (o : Fin 60) :
    Read.val_main_v62 (F := Ideal) x0 x3 (ix2 r o) = ∑ k : Fin 65536, x0 (ix2 r k) * x3 (ix3 (0 : Fin 3) k o) := by
  rw [Read.val_main_v62_apply]
  refine Finset.sum_congr rfl fun k _ => ?_
  have el : Read.lidx_main_v62 (ix2 r o) k = ix2 r k :=
    funext fun b => Fin.ext (by match b with | ⟨0, _⟩ => rfl | ⟨1, _⟩ => rfl)
  have er : Read.ridx_main_v62 (ix2 r o) k = ix2 k o :=
    funext fun b => Fin.ext (by match b with | ⟨0, _⟩ => rfl | ⟨1, _⟩ => rfl)
  rw [el, er, w0_at]

/-- The second matrix product read at `(r, o)`. -/
theorem dot1_at (hs : ∀ a : Fin 1600, BitVec.toInt (x1 (ix2 0 a)) = ((s a).val : ℤ))
    (hd : ∀ a : Fin 1600, BitVec.toInt (x1 (ix2 1 a)) = ((d a).val : ℤ)) (r : Fin 100) (o : Fin 60) :
    Read.val_main_v65 (F := Ideal) x0 x1 x3 (ix2 r o)
      = ∑ k : Fin 65536, Cert.Spec.prop s d (fun a => Read.val_main_v30 (F := Ideal) x1 (ix1 a)) (fun r c => x0 (ix2 r c)) r k
          * x3 (ix3 (1 : Fin 3) k o) := by
  rw [Read.val_main_v65_apply]
  refine Finset.sum_congr rfl fun k _ => ?_
  have el : Read.lidx_main_v65 (ix2 r o) k = ix2 r k :=
    funext fun b => Fin.ext (by match b with | ⟨0, _⟩ => rfl | ⟨1, _⟩ => rfl)
  have er : Read.ridx_main_v65 (ix2 r o) k = ix2 k o :=
    funext fun b => Fin.ext (by match b with | ⟨0, _⟩ => rfl | ⟨1, _⟩ => rfl)
  rw [el, er, w1_at, prop1_at x0 x1 s d hs hd]

/-- The third matrix product read at `(r, o)`. -/
theorem dot2_at (hs : ∀ a : Fin 1600, BitVec.toInt (x1 (ix2 0 a)) = ((s a).val : ℤ))
    (hd : ∀ a : Fin 1600, BitVec.toInt (x1 (ix2 1 a)) = ((d a).val : ℤ)) (r : Fin 100) (o : Fin 60) :
    Read.val_main_v69 (F := Ideal) x0 x1 x3 (ix2 r o)
      = ∑ k : Fin 65536, Cert.Spec.cheb2 s d (fun a => Read.val_main_v30 (F := Ideal) x1 (ix1 a)) (fun r c => x0 (ix2 r c)) r k
          * x3 (ix3 (2 : Fin 3) k o) := by
  rw [Read.val_main_v69_apply]
  refine Finset.sum_congr rfl fun k _ => ?_
  have el : Read.lidx_main_v69 (ix2 r o) k = ix2 r k :=
    funext fun b => Fin.ext (by match b with | ⟨0, _⟩ => rfl | ⟨1, _⟩ => rfl)
  have er : Read.ridx_main_v69 (ix2 r o) k = ix2 k o :=
    funext fun b => Fin.ext (by match b with | ⟨0, _⟩ => rfl | ⟨1, _⟩ => rfl)
  rw [el, er, w2_at, cheb2_at x0 x1 s d hs hd]

/-- The bias spread over the rows: entry `(r, o)` is the bias at `o`. -/
theorem bias_at (r : Fin 100) (o : Fin 60) : Read.val_main_v72 (F := Ideal) x4 (ix2 r o) = x4 (ix1 o) := by
  rw [Read.val_main_v72_apply, Read.val_main_v71_apply]
  exact congrArg x4 (funext fun b => Fin.ext (by match b with | ⟨0, _⟩ => rfl))

/-- The offset spread over the rows: entry `(r, o)` is the offset at `o`. -/
theorem off_at (r : Fin 100) (o : Fin 60) :
    Read.val_main_v81 (F := Ideal) x2 x7 x8 (ix2 r o) = Read.val_main_v79 (F := Ideal) x2 x7 x8 (ix1 o) := by
  rw [Read.val_main_v81_apply, Read.val_main_v80_apply]
  exact congrArg _ (funext fun b => Fin.ext (by match b with | ⟨0, _⟩ => rfl))

end A

/-- The actor head's embedding stage is the common value's embedding, index by index. -/
theorem emb_a_apply
    (x0 : (⟨S100x65536, .f32⟩ : BufTy).Contents (Elt Ideal)) (x1 : (⟨S2x1600, .i32⟩ : BufTy).Contents (Elt Ideal))
    (x2 : (⟨S1x3, .f32⟩ : BufTy).Contents (Elt Ideal)) (x3 : (⟨S3x65536x60, .f32⟩ : BufTy).Contents (Elt Ideal))
    (x4 : (⟨S60, .f32⟩ : BufTy).Contents (Elt Ideal)) (x7 x8 : (⟨S3x60, .f32⟩ : BufTy).Contents (Elt Ideal))
    (s d : Fin 1600 → Fin 100)
    (hs : ∀ a : Fin 1600, BitVec.toInt (x1 (ix2 0 a)) = ((s a).val : ℤ))
    (hd : ∀ a : Fin 1600, BitVec.toInt (x1 (ix2 1 a)) = ((d a).val : ℤ)) (r : Fin 100) (o : Fin 60) :
    Read.val_main_v82 (F := Ideal) x0 x1 x2 x3 x4 x7 x8 (ix2 r o)
      = Cert.Spec.emb s d (fun a => Read.val_main_v30 (F := Ideal) x1 (ix1 a)) (fun r c => x0 (ix2 r c))
          (fun j k o => x3 (ix3 j k o)) (fun o => x4 (ix1 o))
          (fun o => Read.val_main_v79 (F := Ideal) x2 x7 x8 (ix1 o)) r o := by
  rw [Read.val_main_v82_apply, Read.val_main_v74_apply, Read.val_main_v73_apply, Read.val_main_v70_apply, Read.val_main_v66_apply,
    A.dot0_at, A.dot1_at x0 x1 x3 s d hs hd, A.dot2_at x0 x1 x3 s d hs hd, A.bias_at, A.off_at]
  unfold Cert.Spec.emb Cert.Spec.pre
  simp only [Ideal.addf_def, Ideal.hostUnary_tanh_def]

/-- The actor head's result as a function of its embedding: flatten the embedding to one row of 6000, multiply by the
    final layer's weights and add its bias. -/
def tailA (emb : (⟨S100x60, .f32⟩ : BufTy).Contents (Elt Ideal)) (fcw : (⟨S6000x100, .f32⟩ : BufTy).Contents (Elt Ideal))
    (fcb : (⟨S100, .f32⟩ : BufTy).Contents (Elt Ideal)) : (⟨S1x100, .f32⟩ : BufTy).Contents (Elt Ideal) :=
  addf (F := Ideal) (Host.dotGeneral (F := Ideal) (φ₁ := .f32) (φ₂ := .f32) dot_S1x6000_S6000x100_S1x100_1_0_0_1_n_n none (shapeCast (α := Ideal .f32) _ emb shapeCasts_S100x60_S1x6000) fcw)
    (broadcastInDim S1x100 ![1] bcast_S100_S1x100_1 fcb)

/-- The actor head's result is that function of the embedding stage. -/
theorem res_a_tail (m : (ℓ : Loc nD τ sig) → Buf (Elt Ideal) ℓ) (c : Dev nD) :
    Cert.ReferenceIdeal.Value.res_main_v86 m c
      = tailA (Read.val_main_v82 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg7)) (m ((c.tc : Thread nD τ).loc main_arg8)))
        (m ((c.tc : Thread nD τ).loc main_arg11)) (m ((c.tc : Thread nD τ).loc main_arg12)) := by
  rw [Read.val_main_v86_eq]
  rfl

end Cert.ReferenceIdeal.RefValue

end
-- ==== Proof.RefStagesC.lean ====
/-
  The reference's propagation stages read at an index (critic head).

  Under the hypotheses that the edge array's two rows read, signed, as the nodes `s a` and `d a`, the stage after the
  first scatter is one propagation step of the feature matrix, the stage after the second scatter is two steps, and the
  stage after the subtraction is the second Chebyshev term.
-/
import proofs.«132327_j50706383897350_2_alg».proof.Proof.ReadP
import proofs.«132327_j50706383897350_2_alg».proof.Proof.RefProp

noncomputable section

namespace Cert.ReferenceIdeal.RefValue.C

open Cert.ReferenceIdeal Cert.ReferenceIdeal.Gen Idealize.ShloMosaic Idealize.ShloMosaic.ValueIdx

variable (x0 : (⟨S100x65536, .f32⟩ : BufTy).Contents (Elt Ideal)) (x1 : (⟨S2x1600, .i32⟩ : BufTy).Contents (Elt Ideal))
  (s d : Fin 1600 → Fin 100)

/-- The source row of the edge array, flattened: entry `a` is the array's `(0, a)`. -/
theorem src_at (a : Fin 1600) : Read.val_main_v1 (F := Ideal) x1 (ix1 a) = x1 (ix2 0 a) := by
  rw [Read.val_main_v1_apply, Read.val_main_v0_apply]
  refine congrArg x1 (funext fun b => Fin.ext ?_)
  match b with
  | ⟨0, _⟩ => rfl
  | ⟨1, _⟩ => exact Nat.mod_eq_of_lt a.isLt

/-- The target row of the edge array, flattened: entry `a` is the array's `(1, a)`. -/
theorem dst_at (a : Fin 1600) : Read.val_main_v3 (F := Ideal) x1 (ix1 a) = x1 (ix2 1 a) := by
  rw [Read.val_main_v3_apply, Read.val_main_v2_apply]
  refine congrArg x1 (funext fun b => Fin.ext ?_)
  match b with
  | ⟨0, _⟩ => rfl
  | ⟨1, _⟩ => exact Nat.mod_eq_of_lt a.isLt

/-- The start indices of the first gather read as the source nodes: a source word is not negative, so the
    wrap-around of negative indices leaves it alone. -/
theorem gsrc1_at (hs : ∀ a : Fin 1600, BitVec.toInt (x1 (ix2 0 a)) = ((s a).val : ℤ)) (a : Fin 1600) :
    BitVec.toInt (Read.val_main_v119 (F := Ideal) x1 (ix2 a 0)) = ((s a).val : ℤ) := by
  have hnn : 0 ≤ BitVec.toInt (x1 (ix2 0 a)) := by rw [hs a]; exact Int.natCast_nonneg _
  have e : Read.idx_main_v119 (ix2 a (0 : Fin 1)) = ix1 a :=
    funext fun b => Fin.ext (by match b with | ⟨0, _⟩ => rfl)
  rw [Read.val_main_v119_apply, e, Read.val_main_v118_apply, Read.val_main_v115_apply, Read.val_main_v114_apply, Read.val_main_c_24_apply, src_at,
    Cert.RefProp.select_nonneg _ _ hnn]
  exact hs a

/-- The start indices of the second gather read as the source nodes. -/
theorem gsrc2_at (hs : ∀ a : Fin 1600, BitVec.toInt (x1 (ix2 0 a)) = ((s a).val : ℤ)) (a : Fin 1600) :
    BitVec.toInt (Read.val_main_v132 (F := Ideal) x1 (ix2 a 0)) = ((s a).val : ℤ) := by
  have hnn : 0 ≤ BitVec.toInt (x1 (ix2 0 a)) := by rw [hs a]; exact Int.natCast_nonneg _
  have e : Read.idx_main_v132 (ix2 a (0 : Fin 1)) = ix1 a :=
    funext fun b => Fin.ext (by match b with | ⟨0, _⟩ => rfl)
  rw [Read.val_main_v132_apply, e, Read.val_main_v131_apply, Read.val_main_v128_apply, Read.val_main_v127_apply, Read.val_main_c_27_apply, src_at,
    Cert.RefProp.select_nonneg _ _ hnn]
  exact hs a

/-- The first scatter's indices read as the target nodes. -/
theorem sdst1_at (hd : ∀ a : Fin 1600, BitVec.toInt (x1 (ix2 1 a)) = ((d a).val : ℤ)) (a : Fin 1600) :
    BitVec.toInt (Read.val_main_v124 (F := Ideal) x1 (ix2 a 0)) = ((d a).val : ℤ) := by
  have e : Read.idx_main_v124 (ix2 a (0 : Fin 1)) = ix1 a :=
    funext fun b => Fin.ext (by match b with | ⟨0, _⟩ => rfl)
  rw [Read.val_main_v124_apply, e, dst_at]
  exact hd a

/-- The second scatter's indices read as the target nodes. -/
theorem sdst2_at (hd : ∀ a : Fin 1600, BitVec.toInt (x1 (ix2 1 a)) = ((d a).val : ℤ)) (a : Fin 1600) :
    BitVec.toInt (Read.val_main_v137 (F := Ideal) x1 (ix2 a 0)) = ((d a).val : ℤ) := by
  have e : Read.idx_main_v137 (ix2 a (0 : Fin 1)) = ix1 a :=
    funext fun b => Fin.ext (by match b with | ⟨0, _⟩ => rfl)
  rw [Read.val_main_v137_apply, e, dst_at]
  exact hd a

/-- The edge weights spread over the columns (first step): entry `(a, c)` is the weight of edge `a`. -/
theorem wcol1_at (a : Fin 1600) (c : Fin 65536) :
    Read.val_main_v121 (F := Ideal) x1 (ix2 a c) = Read.val_main_v112 (F := Ideal) x1 (ix1 a) := by
  rw [Read.val_main_v121_apply, Read.val_main_v113_apply]
  exact congrArg _ (funext fun b => Fin.ext (by match b with | ⟨0, _⟩ => rfl))

/-- The edge weights spread over the columns (second step). -/
theorem wcol2_at (a : Fin 1600) (c : Fin 65536) :
    Read.val_main_v134 (F := Ideal) x1 (ix2 a c) = Read.val_main_v112 (F := Ideal) x1 (ix1 a) := by
  rw [Read.val_main_v134_apply, Read.val_main_v126_apply]
  exact congrArg _ (funext fun b => Fin.ext (by match b with | ⟨0, _⟩ => rfl))

/-- The first scatter's operand is the zero matrix. -/
theorem zero1_at (i : S100x65536.Idx) : Read.val_main_v123 (F := Ideal) i = (0 : EReal) := by
  rw [Read.val_main_v123_apply, Read.val_main_cst_26_apply]
  exact Ideal.ofBits_zero_f32

/-- The second scatter's operand is the zero matrix. -/
theorem zero2_at (i : S100x65536.Idx) : Read.val_main_v136 (F := Ideal) i = (0 : EReal) := by
  rw [Read.val_main_v136_apply, Read.val_main_cst_29_apply]
  exact Ideal.ofBits_zero_f32

/-- The stage after the first scatter is one propagation step of the feature matrix. -/
theorem prop1_at (hs : ∀ a : Fin 1600, BitVec.toInt (x1 (ix2 0 a)) = ((s a).val : ℤ))
    (hd : ∀ a : Fin 1600, BitVec.toInt (x1 (ix2 1 a)) = ((d a).val : ℤ)) (r : Fin 100) (c : Fin 65536) :
    Read.val_main_v125 (F := Ideal) x0 x1 (ix2 r c)
      = Cert.Spec.prop s d (fun a => Read.val_main_v112 (F := Ideal) x1 (ix1 a)) (fun r c => x0 (ix2 r c)) r c := by
  unfold Read.val_main_v125 Read.val_main_v122 Read.val_main_v120
  exact Cert.RefProp.prop_step _ _ x0 _ _ (fun a => Read.val_main_v112 (F := Ideal) x1 (ix1 a)) _ _ s d
    (zero1_at) (wcol1_at x1) (gsrc1_at x1 s hs) (sdst1_at x1 d hd) r c

/-- The stage after the second scatter is two propagation steps of the feature matrix. -/
theorem prop2_at (hs : ∀ a : Fin 1600, BitVec.toInt (x1 (ix2 0 a)) = ((s a).val : ℤ))
    (hd : ∀ a : Fin 1600, BitVec.toInt (x1 (ix2 1 a)) = ((d a).val : ℤ)) (r : Fin 100) (c : Fin 65536) :
    Read.val_main_v138 (F := Ideal) x0 x1 (ix2 r c)
      = Cert.Spec.prop s d (fun a => Read.val_main_v112 (F := Ideal) x1 (ix1 a))
          (Cert.Spec.prop s d (fun a => Read.val_main_v112 (F := Ideal) x1 (ix1 a)) (fun r c => x0 (ix2 r c))) r c := by
  unfold Read.val_main_v138 Read.val_main_v135 Read.val_main_v133
  refine (Cert.RefProp.prop_step _ _ (Read.val_main_v125 (F := Ideal) x0 x1) _ _ (fun a => Read.val_main_v112 (F := Ideal) x1 (ix1 a)) _ _ s d
    (zero2_at) (wcol2_at x1) (gsrc2_at x1 s hs) (sdst2_at x1 d hd) r c).trans ?_
  exact congrArg (fun Z => Cert.Spec.prop s d (fun a => Read.val_main_v112 (F := Ideal) x1 (ix1 a)) Z r c)
    (funext fun r' => funext fun c' => prop1_at x0 x1 s d hs hd r' c')

/-- The stage after the subtraction is the second Chebyshev term. -/
theorem cheb2_at (hs : ∀ a : Fin 1600, BitVec.toInt (x1 (ix2 0 a)) = ((s a).val : ℤ))
    (hd : ∀ a : Fin 1600, BitVec.toInt (x1 (ix2 1 a)) = ((d a).val : ℤ)) (r : Fin 100) (c : Fin 65536) :
    Read.val_main_v141 (F := Ideal) x0 x1 (ix2 r c)
      = Cert.Spec.cheb2 s d (fun a => Read.val_main_v112 (F := Ideal) x1 (ix1 a)) (fun r c => x0 (ix2 r c)) r c := by
  rw [Read.val_main_v141_apply, Read.val_main_v140_apply, Read.val_main_v139_apply, Read.val_main_cst_30_apply, prop2_at x0 x1 s d hs hd]
  rfl

end Cert.ReferenceIdeal.RefValue.C

end
-- ==== Proof.RefEmbC.lean ====
/-
  The critic head's embedding, as the reference computes it, read at an index.

  The three matrix products are sums over the 65536 channels of the feature matrix, of its one propagation step and of
  its second Chebyshev term against the three weight matrices; their sum plus the bias goes through tanh and the
  per-column offset is added.
-/
import proofs.«132327_j50706383897350_2_alg».proof.Proof.RefStagesC

noncomputable section

namespace Cert.ReferenceIdeal.RefValue

open Cert.ReferenceIdeal Cert.ReferenceIdeal.Gen Idealize.ShloMosaic Idealize.ShloMosaic.ValueIdx Idealize.ShloMosaic.TcCoe
  Idealize.SL.Sem Idealize.ShloMosaic.StableHlo

namespace C

variable (x0 : (⟨S100x65536, .f32⟩ : BufTy).Contents (Elt Ideal)) (x1 : (⟨S2x1600, .i32⟩ : BufTy).Contents (Elt Ideal))
  (x2 : (⟨S1x3, .f32⟩ : BufTy).Contents (Elt Ideal)) (x5 : (⟨S3x65536x60, .f32⟩ : BufTy).Contents (Elt Ideal))
  (x6 : (⟨S60, .f32⟩ : BufTy).Contents (Elt Ideal)) (x9 x10 : (⟨S3x60, .f32⟩ : BufTy).Contents (Elt Ideal))
  (s d : Fin 1600 → Fin 100)

/-- The weight matrix of term 0: entry `(k, o)` is the weight array's `(0, k, o)`. -/
theorem w0_at (k : Fin 65536) (o : Fin 60) :
    Read.val_main_v143 (F := Ideal) x5 (ix2 k o) = x5 (ix3 (0 : Fin 3) k o) := by
  rw [Read.val_main_v143_apply, Read.val_main_v142_apply]
  refine congrArg x5 (funext fun b => Fin.ext ?_)
  have hk := k.isLt
  have ho := o.isLt
  match b with
  | ⟨0, _⟩ => rfl
  | ⟨1, _⟩ => show (k.val * 60 + o.val) / 60 % 65536 = k.val; omega
  | ⟨2, _⟩ => show (k.val * 60 + o.val) % 60 = o.val; omega

/-- The weight matrix of term 1: entry `(k, o)` is the weight array's `(1, k, o)`. -/
theorem w1_at (k : Fin 65536) (o : Fin 60) :
    Read.val_main_v146 (F := Ideal) x5 (ix2 k o) = x5 (ix3 (1 : Fin 3) k o) := by
  rw [Read.val_main_v146_apply, Read.val_main_v145_apply]
  refine congrArg x5 (funext fun b => Fin.ext ?_)
  have hk := k.isLt
  have ho := o.isLt
  match b with
  | ⟨0, _⟩ => rfl
  | ⟨1, _⟩ => show (k.val * 60 + o.val) / 60 % 65536 = k.val; omega
  | ⟨2, _⟩ => show (k.val * 60 + o.val) % 60 = o.val; omega

/-- The weight matrix of term 2: entry `(k, o)` is the weight array's `(2, k, o)`. -/
theorem w2_at (k : Fin 65536) (o : Fin 60) :
    Read.val_main_v150 (F := Ideal) x5 (ix2 k o) = x5 (ix3 (2 : Fin 3) k o) := by
  rw [Read.val_main_v150_apply, Read.val_main_v149_apply]
  refine congrArg x5 (funext fun b => Fin.ext ?_)
  have hk := k.isLt
  have ho := o.isLt
  match b with
  | ⟨0, _⟩ => rfl
  | ⟨1, _⟩ => show (k.val * 60 + o.val) / 60 % 65536 = k.val; omega
  | ⟨2, _⟩ => show (k.val * 60 + o.val) % 60 = o.val; omega

/-- The first matrix product read at `(r, o)`. -/
theorem dot0_at (r : Fin 100) (o : Fin 60) :
    Read.val_main_v144 (F := Ideal) x0 x5 (ix2 r o) = ∑ k : Fin 65536, x0 (ix2 r k) * x5 (ix3 (0 : Fin 3) k o) := by
  rw [Read.val_main_v144_apply]
  refine Finset.sum_congr rfl fun k _ => ?_
  have el : Read.lidx_main_v144 (ix2 r o) k = ix2 r k :=
    funext fun b => Fin.ext (by match b with | ⟨0, _⟩ => rfl | ⟨1, _⟩ => rfl)
  have er : Read.ridx_main_v144 (ix2 r o) k = ix2 k o :=
    funext fun b => Fin.ext (by match b with | ⟨0, _⟩ => rfl | ⟨1, _⟩ => rfl)
  rw [el, er, w0_at]

/-- The second matrix product read at `(r, o)`. -/
theorem dot1_at (hs : ∀ a : Fin 1600, BitVec.toInt (x1 (ix2 0 a)) = ((s a).val : ℤ))
    (hd : ∀ a : Fin 1600, BitVec.toInt (x1 (ix2 1 a)) = ((d a).val : ℤ)) (r : Fin 100) (o : Fin 60) :
    Read.val_main_v147 (F := Ideal) x0 x1 x5 (ix2 r o)
      = ∑ k : Fin 65536, Cert.Spec.prop s d (fun a => Read.val_main_v112 (F := Ideal) x1 (ix1 a)) (fun r c => x0 (ix2 r c)) r k
          * x5 (ix3 (1 : Fin 3) k o) := by
  rw [Read.val_main_v147_apply]
  refine Finset.sum_congr rfl fun k _ => ?_
  have el : Read.lidx_main_v147 (ix2 r o) k = ix2 r k :=
    funext fun b => Fin.ext (by match b with | ⟨0, _⟩ => rfl | ⟨1, _⟩ => rfl)
  have er : Read.ridx_main_v147 (ix2 r o) k = ix2 k o :=
    funext fun b => Fin.ext (by match b with | ⟨0, _⟩ => rfl | ⟨1, _⟩ => rfl)
  rw [el, er, w1_at, prop1_at x0 x1 s d hs hd]

/-- The third matrix product read at `(r, o)`. -/
theorem dot2_at (hs : ∀ a : Fin 1600, BitVec.toInt (x1 (ix2 0 a)) = ((s a).val : ℤ))
    (hd : ∀ a : Fin 1600, BitVec.toInt (x1 (ix2 1 a)) = ((d a).val : ℤ)) (r : Fin 100) (o : Fin 60) :
    Read.val_main_v151 (F := Ideal) x0 x1 x5 (ix2 r o)
      = ∑ k : Fin 65536, Cert.Spec.cheb2 s d (fun a => Read.val_main_v112 (F := Ideal) x1 (ix1 a)) (fun r c => x0 (ix2 r c)) r k
          * x5 (ix3 (2 : Fin 3) k o) := by
  rw [Read.val_main_v151_apply]
  refine Finset.sum_congr rfl fun k _ => ?_
  have el : Read.lidx_main_v151 (ix2 r o) k = ix2 r k :=
    funext fun b => Fin.ext (by match b with | ⟨0, _⟩ => rfl | ⟨1, _⟩ => rfl)
  have er : Read.ridx_main_v151 (ix2 r o) k = ix2 k o :=
    funext fun b => Fin.ext (by match b with | ⟨0, _⟩ => rfl | ⟨1, _⟩ => rfl)
  rw [el, er, w2_at, cheb2_at x0 x1 s d hs hd]

/-- The bias spread over the rows: entry `(r, o)` is the bias at `o`. -/
theorem bias_at (r : Fin 100) (o : Fin 60) : Read.val_main_v154 (F := Ideal) x6 (ix2 r o) = x6 (ix1 o) := by
  rw [Read.val_main_v154_apply, Read.val_main_v153_apply]
  exact congrArg x6 (funext fun b => Fin.ext (by match b with | ⟨0, _⟩ => rfl))

/-- The offset spread over the rows: entry `(r, o)` is the offset at `o`. -/
theorem off_at (r : Fin 100) (o : Fin 60) :
    Read.val_main_v163 (F := Ideal) x2 x9 x10 (ix2 r o) = Read.val_main_v161 (F := Ideal) x2 x9 x10 (ix1 o) := by
  rw [Read.val_main_v163_apply, Read.val_main_v162_apply]
  exact congrArg _ (funext fun b => Fin.ext (by match b with | ⟨0, _⟩ => rfl))

end C

/-- The critic head's embedding stage is the common value's embedding, index by index. -/
theorem emb_c_apply
    (x0 : (⟨S100x65536, .f32⟩ : BufTy).Contents (Elt Ideal)) (x1 : (⟨S2x1600, .i32⟩ : BufTy).Contents (Elt Ideal))
    (x2 : (⟨S1x3, .f32⟩ : BufTy).Contents (Elt Ideal)) (x5 : (⟨S3x65536x60, .f32⟩ : BufTy).Contents (Elt Ideal))
    (x6 : (⟨S60, .f32⟩ : BufTy).Contents (Elt Ideal)) (x9 x10 : (⟨S3x60, .f32⟩ : BufTy).Contents (Elt Ideal))
    (s d : Fin 1600 → Fin 100)
    (hs : ∀ a : Fin 1600, BitVec.toInt (x1 (ix2 0 a)) = ((s a).val : ℤ))
    (hd : ∀ a : Fin 1600, BitVec.toInt (x1 (ix2 1 a)) = ((d a).val : ℤ)) (r : Fin 100) (o : Fin 60) :
    Read.val_main_v164 (F := Ideal) x0 x1 x2 x5 x6 x9 x10 (ix2 r o)
      = Cert.Spec.emb s d (fun a => Read.val_main_v112 (F := Ideal) x1 (ix1 a)) (fun r c => x0 (ix2 r c))
          (fun j k o => x5 (ix3 j k o)) (fun o => x6 (ix1 o))
          (fun o => Read.val_main_v161 (F := Ideal) x2 x9 x10 (ix1 o)) r o := by
  rw [Read.val_main_v164_apply, Read.val_main_v156_apply, Read.val_main_v155_apply, Read.val_main_v152_apply, Read.val_main_v148_apply,
    C.dot0_at, C.dot1_at x0 x1 x5 s d hs hd, C.dot2_at x0 x1 x5 s d hs hd, C.bias_at, C.off_at]
  unfold Cert.Spec.emb Cert.Spec.pre
  simp only [Ideal.addf_def, Ideal.hostUnary_tanh_def]

/-- The critic head's result as a function of its embedding: flatten the embedding to one row of 6000, multiply by the
    final layer's weights and add its bias. -/
def tailC (emb : (⟨S100x60, .f32⟩ : BufTy).Contents (Elt Ideal)) (fcw : (⟨S6000x1, .f32⟩ : BufTy).Contents (Elt Ideal))
    (fcb : (⟨S1, .f32⟩ : BufTy).Contents (Elt Ideal)) : (⟨S1x1, .f32⟩ : BufTy).Contents (Elt Ideal) :=
  addf (F := Ideal) (Host.dotGeneral (F := Ideal) (φ₁ := .f32) (φ₂ := .f32) dot_S1x6000_S6000x1_S1x1_1_0_0_1_n_n none (shapeCast (α := Ideal .f32) _ emb shapeCasts_S100x60_S1x6000) fcw)
    (broadcastInDim S1x1 ![1] bcast_S1_S1x1_1 fcb)

/-- The critic head's result is that function of the embedding stage. -/
theorem res_c_tail (m : (ℓ : Loc nD τ sig) → Buf (Elt Ideal) ℓ) (c : Dev nD) :
    Cert.ReferenceIdeal.Value.res_main_v168 m c
      = tailC (Read.val_main_v164 (F := Ideal) (m ((c.tc : Thread nD τ).loc main_arg0)) (m ((c.tc : Thread nD τ).loc main_arg1))
          (m ((c.tc : Thread nD τ).loc main_arg2)) (m ((c.tc : Thread nD τ).loc main_arg5)) (m ((c.tc : Thread nD τ).loc main_arg6))
          (m ((c.tc : Thread nD τ).loc main_arg9)) (m ((c.tc : Thread nD τ).loc main_arg10)))
        (m ((c.tc : Thread nD τ).loc main_arg13)) (m ((c.tc : Thread nD τ).loc main_arg14)) := by
  rw [Read.val_main_v168_eq]
  rfl

end Cert.ReferenceIdeal.RefValue

end
-- ==== Proof.RefEmb.lean ====
/-
  The reference's two heads: each head's embedding stage is the common value's embedding index by index, and each
  result is the final linear layer applied to that stage.
-/
import proofs.«132327_j50706383897350_2_alg».proof.Proof.RefEmbA
import proofs.«132327_j50706383897350_2_alg».proof.Proof.RefEmbC
-- ==== Proof.IdealHostB.lean ====
/-
  The small host stages around the kernel call of the idealized kernel program, at the extended reals.

  Before the call the program prepares, for each of the two heads, an offset row of 60: the three scalars of v spread
  over 60 columns, multiplied entrywise by a 3 × 60 matrix vw, added to a 3 × 60 matrix vb, and summed over the three
  rows. These are the same operations in the same order as the reference's, so the rows are the reference's rows. The
  two bias rows, and the two offset rows, are each stacked into a [2, 1, 60] array (each row spread to [1, 60], the two
  concatenated along the first axis, a unit middle axis put in); read at (h, 0, o) the stack is row h at o.

  After the call the program takes head h of the [2, 100, 60] array the call leaves (a slice and a reshape: the
  [100, 60] array whose (r, o) entry is the array's (h, r, o) entry), flattens it to one row of 6000, multiplies by the
  final layer's weights and adds its bias: again the reference's operations in the reference's order.
-/
import proofs.«132327_j50706383897350_2_alg».proof.Proof.Gen.KernelIdeal.Frame
import proofs.«132327_j50706383897350_2_alg».proof.Proof.ReadP
import proofs.«132327_j50706383897350_2_alg».proof.Proof.RefEmb
import Idealize.ShloMosaic.Lib.Pipeline.Value
import Idealize.ShloMosaic.Lib.ValueIdx
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Rounds
open Idealize.ShloMosaic.Pipeline (Dat Cfg Window cellOf)

/-- The offset row of the first head: the three scalars of v spread over the columns, times vw, plus vb, summed over
    the three rows. -/
def vnKa (v : S1x3.Idx → EReal) (vw vb : S3x60.Idx → EReal) : S60.Idx → EReal :=
  Host.reduceAdd (F := Ideal) (φ := .f32)
    (addf (F := Ideal) (φ := .f32)
      (mulf (F := Ideal) (φ := .f32)
        (broadcastInDim S3x60 ![0, 1] bcast_S3x1_S3x60_0_1 (broadcastInDim S3x1 ![0] bcast_S3_S3x1_0 (shapeCast S3 v shapeCasts_S1x3_S3)))
        vw)
      vb)
    (constant (F := Ideal) S_ .f32 0x00000000#32) reducesTo_S3x60_S60_d0 h_S_

/-- The offset row of the second head: the same operations on the second head's vw and vb. -/
def vnKc (v : S1x3.Idx → EReal) (vw vb : S3x60.Idx → EReal) : S60.Idx → EReal :=
  Host.reduceAdd (F := Ideal) (φ := .f32)
    (addf (F := Ideal) (φ := .f32)
      (mulf (F := Ideal) (φ := .f32)
        (broadcastInDim S3x60 ![0, 1] bcast_S3x1_S3x60_0_1 (broadcastInDim S3x1 ![0] bcast_S3_S3x1_0 (shapeCast S3 v shapeCasts_S1x3_S3)))
        vw)
      vb)
    (constant (F := Ideal) S_ .f32 0x00000000#32) reducesTo_S3x60_S60_d0 h_S_

/-- The first head's offset row is the reference's. -/
theorem vnKa_eq_ref (v : S1x3.Idx → EReal) (vw vb : S3x60.Idx → EReal) :
    vnKa v vw vb = Cert.ReferenceIdeal.Read.val_main_v79 (F := Ideal) v vw vb := rfl

/-- The second head's offset row is the reference's. -/
theorem vnKc_eq_ref (v : S1x3.Idx → EReal) (vw vb : S3x60.Idx → EReal) :
    vnKc v vw vb = Cert.ReferenceIdeal.Read.val_main_v161 (F := Ideal) v vw vb := rfl

/-- Two rows of 60 stacked into a [2, 1, 60] array: each row spread to [1, 60], the two concatenated along the first
    axis, and a unit middle axis put in. -/
def stack2 (a b : S60.Idx → EReal) : S2x1x60.Idx → EReal :=
  broadcastInDim S2x1x60 ![0, 2] bcast_S2x60_S2x1x60_0_2
    (concatenate S2x60 0 [⟨S1x60, broadcastInDim S1x60 ![1] bcast_S60_S1x60_1 a⟩, ⟨S1x60, broadcastInDim S1x60 ![1] bcast_S60_S1x60_1 b⟩]
      concatenates_S1x60_S1x60_S2x60_d0)

/-- A row spread to [1, 60] read at (0, o) is the row at o. -/
theorem row_apply (a : S60.Idx → EReal) (o : Fin 60) :
    broadcastInDim S1x60 ![1] bcast_S60_S1x60_1 a (ix2 0 o) = a (ix1 o) :=
  broadcastInDim_apply _ bcast_S60_S1x60_1 a (ix2 (0 : Fin 1) o) (ix1 o) (fun k => match k with
    | ⟨0, _⟩ => by show o.val = if (60 : Nat) = 1 then 0 else o.val; rw [if_neg (by decide)])

/-- The stack read at head 0 is the first row. -/
theorem stack2_zero (a b : S60.Idx → EReal) (o : Fin 60) : stack2 a b (ix3 0 0 o) = a (ix1 o) := by
  unfold stack2
  rw [broadcastInDim_apply _ bcast_S2x60_S2x1x60_0_2 _ (ix3 (0 : Fin 2) (0 : Fin 1) o) (ix2 (0 : Fin 2) o) (fun k => match k with
    | ⟨0, _⟩ => by show (0 : Nat) = if (2 : Nat) = 1 then 0 else 0; rw [if_neg (by decide)]
    | ⟨1, _⟩ => by show o.val = if (60 : Nat) = 1 then 0 else o.val; rw [if_neg (by decide)])]
  rw [concatenate_pair_apply_left (t := S2x60) (s₁ := S1x60) (s₂ := S1x60) (0 : Fin 2) _ _ concatenates_S1x60_S1x60_S2x60_d0 (ix2 (0 : Fin 2) o) rfl (ix2 (0 : Fin 1) o) (fun k => match k with
    | ⟨0, _⟩ => rfl
    | ⟨1, _⟩ => rfl)]
  exact row_apply a o

/-- The stack read at head 1 is the second row. -/
theorem stack2_one (a b : S60.Idx → EReal) (o : Fin 60) : stack2 a b (ix3 1 0 o) = b (ix1 o) := by
  unfold stack2
  rw [broadcastInDim_apply _ bcast_S2x60_S2x1x60_0_2 _ (ix3 (1 : Fin 2) (0 : Fin 1) o) (ix2 (1 : Fin 2) o) (fun k => match k with
    | ⟨0, _⟩ => by show (1 : Nat) = if (2 : Nat) = 1 then 0 else 1; rw [if_neg (by decide)]
    | ⟨1, _⟩ => by show o.val = if (60 : Nat) = 1 then 0 else o.val; rw [if_neg (by decide)])]
  rw [concatenate_pair_apply_right (t := S2x60) (s₁ := S1x60) (s₂ := S1x60) (0 : Fin 2) _ _ concatenates_S1x60_S1x60_S2x60_d0 (ix2 (1 : Fin 2) o) rfl rfl (ix2 (0 : Fin 1) o)
    (fun k => match k with
      | ⟨0, _⟩ => fun hne => absurd rfl hne
      | ⟨1, _⟩ => fun _ => rfl)
    rfl]
  exact row_apply b o

/-- Head 0 of a [2, 100, 60] array, sliced out and reshaped to [100, 60], read at (r, o) is the array at (0, r, o). -/
theorem slice_head0 (G : S2x100x60.Idx → EReal) :
    shapeCast S100x60 (extractStridedSlice S1x100x60 ![0, 0, 0] G slices_S2x100x60_S1x100x60_0_0_0) shapeCasts_S1x100x60_S100x60
      = fun i => G (ix3 0 (i 0) (i 1)) := by
  funext i
  rw [shapeCast_apply _ shapeCasts_S1x100x60_S100x60 i (ix3 (0 : Fin 1) (i 0) (i 1)) (by
        rewrite [Shape.rowMajor_val_three, Shape.rowMajor_val_two]
        show (0 * 100 + (i 0).val) * 60 + (i 1).val = (i 0).val * 60 + (i 1).val; omega)]
  exact extractStridedSlice_apply ![0, 0, 0] G slices_S2x100x60_S1x100x60_0_0_0 (ix3 (0 : Fin 1) (i 0) (i 1)) (ix3 (0 : Fin 2) (i 0) (i 1))
    (fun a => match a with
      | ⟨0, _⟩ => by show (0 : Nat) = 0 + 0; rfl
      | ⟨1, _⟩ => by show (i 0).val = 0 + (i 0).val; omega
      | ⟨2, _⟩ => by show (i 1).val = 0 + (i 1).val; omega)

/-- Head 1 likewise: the array at (1, r, o). -/
theorem slice_head1 (G : S2x100x60.Idx → EReal) :
    shapeCast S100x60 (extractStridedSlice S1x100x60 ![1, 0, 0] G slices_S2x100x60_S1x100x60_1_0_0) shapeCasts_S1x100x60_S100x60
      = fun i => G (ix3 1 (i 0) (i 1)) := by
  funext i
  rw [shapeCast_apply _ shapeCasts_S1x100x60_S100x60 i (ix3 (0 : Fin 1) (i 0) (i 1)) (by
        rewrite [Shape.rowMajor_val_three, Shape.rowMajor_val_two]
        show (0 * 100 + (i 0).val) * 60 + (i 1).val = (i 0).val * 60 + (i 1).val; omega)]
  exact extractStridedSlice_apply ![1, 0, 0] G slices_S2x100x60_S1x100x60_1_0_0 (ix3 (0 : Fin 1) (i 0) (i 1)) (ix3 (1 : Fin 2) (i 0) (i 1))
    (fun a => match a with
      | ⟨0, _⟩ => by show (1 : Nat) = 1 + 0; rfl
      | ⟨1, _⟩ => by show (i 0).val = 0 + (i 0).val; omega
      | ⟨2, _⟩ => by show (i 1).val = 0 + (i 1).val; omega)

/-- The first head's result from its embedding: the embedding flattened to one row of 6000, times the final layer's
    weights, plus its bias. -/
def tailKa (emb : S100x60.Idx → EReal) (fcw : S6000x100.Idx → EReal) (fcb : S100.Idx → EReal) : S1x100.Idx → EReal :=
  addf (F := Ideal) (φ := .f32)
    (Host.dotGeneral (F := Ideal) (φ₁ := .f32) (φ₂ := .f32) dot_S1x6000_S6000x100_S1x100_1_0_0_1_n_n none
      (shapeCast (α := Ideal .f32) S1x6000 emb shapeCasts_S100x60_S1x6000) fcw)
    (broadcastInDim S1x100 ![1] bcast_S100_S1x100_1 fcb)

/-- The second head's result from its embedding. -/
def tailKc (emb : S100x60.Idx → EReal) (fcw : S6000x1.Idx → EReal) (fcb : S1.Idx → EReal) : S1x1.Idx → EReal :=
  addf (F := Ideal) (φ := .f32)
    (Host.dotGeneral (F := Ideal) (φ₁ := .f32) (φ₂ := .f32) dot_S1x6000_S6000x1_S1x1_1_0_0_1_n_n none
      (shapeCast (α := Ideal .f32) S1x6000 emb shapeCasts_S100x60_S1x6000) fcw)
    (broadcastInDim S1x1 ![1] bcast_S1_S1x1_1 fcb)

variable (m : (ℓ : Loc nD τ sig) → Buf (Elt Ideal) ℓ)

/-- What the kernel call finds in its bias operand: the two heads' bias rows stacked. -/
theorem v60_eq (c : Dev nD) :
    (V m c main_v60 : S2x1x60.Idx → EReal)
      = stack2 (m ((c : Thread nD τ).loc main_arg4)) (m ((c : Thread nD τ).loc main_arg6)) := by
  dsimp only [Gen.V, Gen.V0]
  simp only [Gen.hostOps0, Gen.hostOps0_1, Gen.hostOps0_2, List.flatten_cons, List.flatten_nil, List.append_nil, List.cons_append, List.nil_append]
  after_results_simp
  rfl

/-- What the kernel call finds in its offset operand: the two heads' offset rows stacked. -/
theorem v64_eq (c : Dev nD) :
    (V m c main_v64 : S2x1x60.Idx → EReal)
      = stack2 (vnKa (m ((c : Thread nD τ).loc main_arg2)) (m ((c : Thread nD τ).loc main_arg7)) (m ((c : Thread nD τ).loc main_arg8)))
          (vnKc (m ((c : Thread nD τ).loc main_arg2)) (m ((c : Thread nD τ).loc main_arg9)) (m ((c : Thread nD τ).loc main_arg10))) := by
  dsimp only [Gen.V, Gen.V0]
  simp only [Gen.hostOps0, Gen.hostOps0_1, Gen.hostOps0_2, List.flatten_cons, List.flatten_nil, List.append_nil, List.cons_append, List.nil_append]
  after_results_simp
  rfl

/-- The bias operand at head 0 is the first head's bias. -/
theorem bias_apply_zero (c : Dev nD) (o : Fin 60) :
    (V m c main_v60 : S2x1x60.Idx → EReal) (ix3 0 0 o) = (m ((c : Thread nD τ).loc main_arg4) : S60.Idx → EReal) (ix1 o) := by
  rw [v60_eq]; exact stack2_zero _ _ o

/-- The bias operand at head 1 is the second head's bias. -/
theorem bias_apply_one (c : Dev nD) (o : Fin 60) :
    (V m c main_v60 : S2x1x60.Idx → EReal) (ix3 1 0 o) = (m ((c : Thread nD τ).loc main_arg6) : S60.Idx → EReal) (ix1 o) := by
  rw [v60_eq]; exact stack2_one _ _ o

/-- The bias operand at head h. -/
theorem bias_apply (c : Dev nD) (h : Fin 2) (o : Fin 60) :
    (V m c main_v60 : S2x1x60.Idx → EReal) (ix3 h 0 o)
      = if h = 0 then (m ((c : Thread nD τ).loc main_arg4) : S60.Idx → EReal) (ix1 o)
        else (m ((c : Thread nD τ).loc main_arg6) : S60.Idx → EReal) (ix1 o) := by
  match h with
  | ⟨0, _⟩ => exact bias_apply_zero m c o
  | ⟨1, _⟩ => exact bias_apply_one m c o

/-- The offset operand at head 0 is the first head's offset row. -/
theorem offs_apply_zero (c : Dev nD) (o : Fin 60) :
    (V m c main_v64 : S2x1x60.Idx → EReal) (ix3 0 0 o)
      = vnKa (m ((c : Thread nD τ).loc main_arg2)) (m ((c : Thread nD τ).loc main_arg7)) (m ((c : Thread nD τ).loc main_arg8)) (ix1 o) := by
  rw [v64_eq]; exact stack2_zero _ _ o

/-- The offset operand at head 1 is the second head's offset row. -/
theorem offs_apply_one (c : Dev nD) (o : Fin 60) :
    (V m c main_v64 : S2x1x60.Idx → EReal) (ix3 1 0 o)
      = vnKc (m ((c : Thread nD τ).loc main_arg2)) (m ((c : Thread nD τ).loc main_arg9)) (m ((c : Thread nD τ).loc main_arg10)) (ix1 o) := by
  rw [v64_eq]; exact stack2_one _ _ o

set_option maxHeartbeats 4000000 in
/-- The first head's result after the call: the final layer applied to head 0 of the array the call leaves. -/
theorem tail_a_K (dats : (p : Fin _) → (c : Dev nD) → Dat τ (Elt Ideal) Unit ℕ (UR sig nD τ) ℕ (cfgs p) c) (c : Dev nD) :
    Pipeline.afterTail₀ cfgs dats 0 (V0 m) [hostOps1] c main_v73
      = tailKa (fun i => ((dats 0 c).arrAt 6 cfg0.N : S2x100x60.Idx → EReal) (ix3 0 (i 0) (i 1)))
          (m ((c : Thread nD τ).loc main_arg11)) (m ((c : Thread nD τ).loc main_arg12)) := by
  unfold Pipeline.afterTail₀
  generalize hW : Pipeline.withArrays _ c _ _ = W
  have h65 : W (Proc.devRef .tc main_v65) = (dats 0 c).arrAt 6 cfg0.N := by
    rw [← hW]; exact Pipeline.withArrays_arr spec0 launch0.win.arr_inj c _ _ 6
  have h11 : W (Proc.devRef .tc main_arg11) = m ((c : Thread nD τ).loc main_arg11) := by
    rw [← hW, Pipeline.withArrays_of_ne _ c (V0 m c) _ main_arg11 (by exact (by decide : ∀ w, Pipeline.arrRef spec0 w ≠ main_arg11))]
    exact V_main_arg11 m c
  have h12 : W (Proc.devRef .tc main_arg12) = m ((c : Thread nD τ).loc main_arg12) := by
    rw [← hW, Pipeline.withArrays_of_ne _ c (V0 m c) _ main_arg12 (by exact (by decide : ∀ w, Pipeline.arrRef spec0 w ≠ main_arg12))]
    exact V_main_arg12 m c
  show StableHlo.after hostOps1 W (Proc.devRef .tc main_v73) = _
  after_results
  rw [h65, h11, h12]
  show tailKa (shapeCast S100x60 (extractStridedSlice S1x100x60 ![0, 0, 0] ((dats 0 c).arrAt 6 cfg0.N : S2x100x60.Idx → EReal)
      slices_S2x100x60_S1x100x60_0_0_0) shapeCasts_S1x100x60_S100x60) _ _ = _
  rw [slice_head0]

set_option maxHeartbeats 4000000 in
/-- The second head's result after the call: the final layer applied to head 1 of the array the call leaves. -/
theorem tail_c_K (dats : (p : Fin _) → (c : Dev nD) → Dat τ (Elt Ideal) Unit ℕ (UR sig nD τ) ℕ (cfgs p) c) (c : Dev nD) :
    Pipeline.afterTail₀ cfgs dats 0 (V0 m) [hostOps1] c main_v77
      = tailKc (fun i => ((dats 0 c).arrAt 6 cfg0.N : S2x100x60.Idx → EReal) (ix3 1 (i 0) (i 1)))
          (m ((c : Thread nD τ).loc main_arg13)) (m ((c : Thread nD τ).loc main_arg14)) := by
  unfold Pipeline.afterTail₀
  generalize hW : Pipeline.withArrays _ c _ _ = W
  have h65 : W (Proc.devRef .tc main_v65) = (dats 0 c).arrAt 6 cfg0.N := by
    rw [← hW]; exact Pipeline.withArrays_arr spec0 launch0.win.arr_inj c _ _ 6
  have h13 : W (Proc.devRef .tc main_arg13) = m ((c : Thread nD τ).loc main_arg13) := by
    rw [← hW, Pipeline.withArrays_of_ne _ c (V0 m c) _ main_arg13 (by exact (by decide : ∀ w, Pipeline.arrRef spec0 w ≠ main_arg13))]
    exact V_main_arg13 m c
  have h14 : W (Proc.devRef .tc main_arg14) = m ((c : Thread nD τ).loc main_arg14) := by
    rw [← hW, Pipeline.withArrays_of_ne _ c (V0 m c) _ main_arg14 (by exact (by decide : ∀ w, Pipeline.arrRef spec0 w ≠ main_arg14))]
    exact V_main_arg14 m c
  show StableHlo.after hostOps1 W (Proc.devRef .tc main_v77) = _
  after_results
  rw [h65, h13, h14]
  show tailKc (shapeCast S100x60 (extractStridedSlice S1x100x60 ![1, 0, 0] ((dats 0 c).arrAt 6 cfg0.N : S2x100x60.Idx → EReal)
      slices_S2x100x60_S1x100x60_1_0_0) shapeCasts_S1x100x60_S100x60) _ _ = _
  rw [slice_head1]

/-- The first head's final layer is the reference's: the same operations on the same shapes. -/
theorem tailKa_eq_ref (emb : S100x60.Idx → EReal) (fcw : S6000x100.Idx → EReal) (fcb : S100.Idx → EReal) :
    tailKa emb fcw fcb = Cert.ReferenceIdeal.RefValue.tailA emb fcw fcb := rfl

/-- The second head's final layer is the reference's. -/
theorem tailKc_eq_ref (emb : S100x60.Idx → EReal) (fcw : S6000x1.Idx → EReal) (fcb : S1.Idx → EReal) :
    tailKc emb fcw fcb = Cert.ReferenceIdeal.RefValue.tailC emb fcw fcb := rfl

/-- The first head's result after the call, in the reference's terms. -/
theorem tail_a (dats : (p : Fin _) → (c : Dev nD) → Dat τ (Elt Ideal) Unit ℕ (UR sig nD τ) ℕ (cfgs p) c) (c : Dev nD) :
    Pipeline.afterTail₀ cfgs dats 0 (V0 m) [hostOps1] c main_v73
      = Cert.ReferenceIdeal.RefValue.tailA (fun i => ((dats 0 c).arrAt 6 cfg0.N : S2x100x60.Idx → EReal) (ix3 0 (i 0) (i 1)))
          (m ((c : Thread nD τ).loc main_arg11)) (m ((c : Thread nD τ).loc main_arg12)) :=
  (tail_a_K m dats c).trans (tailKa_eq_ref _ _ _)

/-- The second head's result after the call, in the reference's terms. -/
theorem tail_c (dats : (p : Fin _) → (c : Dev nD) → Dat τ (Elt Ideal) Unit ℕ (UR sig nD τ) ℕ (cfgs p) c) (c : Dev nD) :
    Pipeline.afterTail₀ cfgs dats 0 (V0 m) [hostOps1] c main_v77
      = Cert.ReferenceIdeal.RefValue.tailC (fun i => ((dats 0 c).arrAt 6 cfg0.N : S2x100x60.Idx → EReal) (ix3 1 (i 0) (i 1)))
          (m ((c : Thread nD τ).loc main_arg13)) (m ((c : Thread nD τ).loc main_arg14)) :=
  (tail_c_K m dats c).trans (tailKc_eq_ref _ _ _)

end Cert.KernelIdeal.HostValue

end
-- ==== Proof.IdealRunPost.lean ====
/-
  The run of the convolution program read at its two results and its fifteen arguments.

  The run of the whole program ends with every array of the pipeline at what the proof data says and every other
  unscoped buffer at what the host operations after the region leave. Read at the two result buffers this is the
  host operations' value there; read at an argument it is the argument's contents at the start: an input the
  pipeline stages is never written, and no host operation writes an argument.
-/
import proofs.«132327_j50706383897350_2_alg».proof.Proof.IdealBody
import Idealize.ShloMosaic.PureOps.Ideal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

/-- Every weakly fair execution of the program terminates with the two results at the value of the host operations
    after the region, over the pipeline's final arrays, and with the arguments unchanged. -/
theorem run_post (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v73) = Pipeline.afterTail₀ cfgs (dats m) 0 (V0 m) [hostOps1] c main_v73
      ∧ r.2.mem ((c.tc : Thread nD τ).loc main_v77) = Pipeline.afterTail₀ cfgs (dats m) 0 (V0 m) [hostOps1] c main_v77
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c).2 main_v73 (Pipeline.mem_restRefs_of main_v73 (by decide) (by decide)),
      (h c).2 main_v77 (Pipeline.mem_restRefs_of main_v77 (by decide) (by decide)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c)),
      ((h c).1 3).trans (((dats m 0 c).arrAt_in 3 rfl _).trans ((A_eq m c 3).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c))⟩) (run_main m ρ)

end Cert.KernelIdeal.Body

end
-- ==== Proof.WeightsReal.lean ====
/-
  The reference's edge weights are reals, whatever the edge index array holds.

  For each head the reference computes the degree of every node (a sum of ones over the edges leaving it), then
  dinv = rsqrt (max (deg, 1)) where deg > 0 and 0 elsewhere, and gives edge a the weight
  w a = (−dinv at one endpoint) · (dinv at the other endpoint), each endpoint read by a gather.

  max (deg, 1) is at least one: a real at least one, whose reciprocal square root is a real, or +∞, whose reciprocal
  square root is 0. So dinv is a real at every node, with nothing assumed of deg. A gather reads its operand at some
  index, so both factors of w a are reals, and minus a real times a real is a real.
-/
import proofs.«132327_j50706383897350_2_alg».proof.Proof.ReadP
import Idealize.ShloMosaic.PureOps.Ideal.Laws
import Idealize.ShloMosaic.Lib.IdealHost
import Idealize.ShloMosaic.Lib.ValueIdx

noncomputable section

namespace Cert.Proof.WeightsReal

open Idealize.ShloMosaic Idealize.ShloMosaic.ValueIdx
open Cert.ReferenceIdeal Cert.ReferenceIdeal.Gen Cert.ReferenceIdeal.Read

/-- The reciprocal square root of a real at least one is a real. -/
theorem rsqrt_real_of_one_le (m : ℝ) (hm : 1 ≤ m) : ∃ r : ℝ, Ideal.rsqrt (m : EReal) = (r : EReal) := by
  refine ⟨(Real.sqrt m)⁻¹, ?_⟩
  rw [Ideal.rsqrt_coe, if_neg (not_lt.2 (by linarith)), if_neg (by linarith : (0 : ℝ) < m).ne']

/-- The reciprocal square root of max (y, 1) is a real whatever y is: max (y, 1) is either a real at least one or +∞,
    and the reciprocal square root of +∞ is 0. -/
theorem rsqrt_max_one_real (y : EReal) : ∃ r : ℝ, Ideal.rsqrt (max y 1) = (r : EReal) := by
  induction y using EReal.rec with
  | bot => rw [max_eq_right bot_le, ← EReal.coe_one]; exact rsqrt_real_of_one_le 1 le_rfl
  | top => rw [max_eq_left le_top, Ideal.rsqrt_top]; exact ⟨0, EReal.coe_zero.symm⟩
  | coe r =>
    rcases le_total (r : EReal) 1 with h | h
    · rw [max_eq_right h, ← EReal.coe_one]; exact rsqrt_real_of_one_le 1 le_rfl
    · rw [max_eq_left h]; exact rsqrt_real_of_one_le r (by exact_mod_cast h)

/-- rsqrt (max (y, 1)) or zero: a real whichever the condition word selects. -/
theorem dinv_real (c : BitVec 1) (y : EReal) :
    ∃ r : ℝ, Scalar.select c (FloatOps.hostUnary (F := Ideal) (φ := .f32) .rsqrt
        (FloatOps.maximumf (F := Ideal) (φ := .f32) y (FloatOps.ofBits (F := Ideal) .f32 0x3F800000#32)))
      (FloatOps.ofBits (F := Ideal) .f32 0x00000000#32) = (r : EReal) := by
  rw [Ideal.hostUnary_rsqrt_def, Ideal.maximumf_def, Ideal.ofBits_def, Ideal.ofBits_def, Ideal.ofBits_one_f32, Ideal.ofBits_zero_f32]
  unfold Scalar.select
  split
  · exact rsqrt_max_one_real y
  · exact ⟨0, EReal.coe_zero.symm⟩

/-- Minus a real times a real is a real. -/
theorem neg_mul_real (p q : EReal) (hp : ∃ r : ℝ, p = (r : EReal)) (hq : ∃ r : ℝ, q = (r : EReal)) :
    ∃ r : ℝ, FloatOps.mulf (F := Ideal) (φ := .f32) (FloatOps.hostNegf (F := Ideal) (φ := .f32) p) q = (r : EReal) := by
  obtain ⟨a, rfl⟩ := hp
  obtain ⟨b, rfl⟩ := hq
  exact ⟨-a * b, by rw [Ideal.hostNegf_def, Ideal.negf_def, Ideal.mulf_def, EReal.coe_mul, EReal.coe_neg]⟩

variable (E : (⟨S2x1600, .i32⟩ : BufTy).Contents (Elt Ideal))

/-! ### The first head -/

/-- dinv of the first head is a real at every node. -/
theorem v14_real (i : S100.Idx) : ∃ r : ℝ, val_main_v14 (F := Ideal) E i = (r : EReal) := by
  rw [val_main_v14_apply, val_main_v13_apply, val_main_v12_apply, val_main_v11_apply, val_main_cst_2_apply,
    val_main_call0_v1_apply, val_main_call0_v0_apply, val_main_cst_3_apply]
  exact dinv_real _ _

/-- The first gather reads dinv at some node. -/
theorem v21_eq (i : S1600.Idx) :
    val_main_v21 (F := Ideal) E i
      = val_main_v14 (F := Ideal) E (gather_S100_S1600x1_S1600_n_0_n_n_0_1_1.operandIdx i (val_main_v20 (F := Ideal) E)) := rfl

/-- The second gather reads dinv at some node. -/
theorem v29_eq (i : S1600.Idx) :
    val_main_v29 (F := Ideal) E i
      = val_main_v14 (F := Ideal) E (gather_S100_S1600x1_S1600_n_0_n_n_0_1_1.operandIdx i (val_main_v28 (F := Ideal) E)) := rfl

/-- The first head's weight of every edge is a real. -/
theorem v30_real_idx (i : S1600.Idx) : ∃ x : ℝ, val_main_v30 (F := Ideal) E i = (x : EReal) := by
  rw [val_main_v30_apply, val_main_v22_apply, v21_eq, v29_eq]
  exact neg_mul_real _ _ (v14_real E _) (v14_real E _)

theorem v30_real (a : Fin 1600) : ∃ x : ℝ, val_main_v30 (F := Ideal) E (ix1 a) = (x : EReal) :=
  v30_real_idx E (ix1 a)

/-! ### The second head -/

/-- dinv of the second head is a real at every node. -/
theorem v96_real (i : S100.Idx) : ∃ r : ℝ, val_main_v96 (F := Ideal) E i = (r : EReal) := by
  rw [val_main_v96_apply, val_main_v95_apply, val_main_v94_apply, val_main_v93_apply, val_main_cst_18_apply,
    val_main_call1_v1_apply, val_main_call1_v0_apply, val_main_cst_19_apply]
  exact dinv_real _ _

theorem v103_eq (i : S1600.Idx) :
    val_main_v103 (F := Ideal) E i
      = val_main_v96 (F := Ideal) E (gather_S100_S1600x1_S1600_n_0_n_n_0_1_1.operandIdx i (val_main_v102 (F := Ideal) E)) := rfl

theorem v111_eq (i : S1600.Idx) :
    val_main_v111 (F := Ideal) E i
      = val_main_v96 (F := Ideal) E (gather_S100_S1600x1_S1600_n_0_n_n_0_1_1.operandIdx i (val_main_v110 (F := Ideal) E)) := rfl

/-- The second head's weight of every edge is a real. -/
theorem v112_real_idx (i : S1600.Idx) : ∃ x : ℝ, val_main_v112 (F := Ideal) E i = (x : EReal) := by
  rw [val_main_v112_apply, val_main_v104_apply, v103_eq, v111_eq]
  exact neg_mul_real _ _ (v96_real E _) (v96_real E _)

theorem v112_real (a : Fin 1600) : ∃ x : ℝ, val_main_v112 (F := Ideal) E (ix1 a) = (x : EReal) :=
  v112_real_idx E (ix1 a)

end Cert.Proof.WeightsReal

end
-- ==== Proof.PreFacts.lean ====
/-
  What the precondition says of the two arrays the graph convolution reads first.

  The precondition is a conjunction of fifteen tests, each the reduction by "and" of an array of bits: for every float
  array, the bit "|x| < +∞" of each entry; for the edge index array, the bit "0 ≤ e and e < 100" of each entry. It is
  stated as "the conjunction is 1". A reduction by "and" that is 1 met only 1s, so every entry passes its test; an
  extended real whose absolute value is below +∞ is a real, and a 32-bit word that reads, signed, at least 0 and below
  100 is the value of an element of Fin 100.

  The lemmas are stated over the precondition's own fifteen arguments, so they apply to whichever memory the arrays are
  read from.
-/
import proofs.«132327_j50706383897350_2_alg».proof.Pre_finite_inputs
import Idealize.ShloMosaic.Lib.ReduceAll
import Idealize.ShloMosaic.Lib.ValueIdx

set_option maxRecDepth 16384

noncomputable section

namespace Cert.Proof.PreFacts

open Idealize.ShloMosaic Idealize.ShloMosaic.ValueIdx
open Cert.Pre_finite_inputs

/-- The scalar shape has one index. -/
instance : Subsingleton S_.Idx := ⟨fun a b => funext fun d => d.elim0⟩

/-- The pattern 0x7F800000 denotes +∞. -/
theorem inf_eq_top : Ideal.ofBits .f32 0x7F800000#32 = (⊤ : EReal) := by
  simp [Ideal.ofBits, Ideal.ieee]

/-- An extended real whose absolute value is below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- One element of a finiteness test: if the bit "|a i| < +∞" is 1 then a i is a real. -/
theorem real_of_test {s : Shape} (a : FVec Ideal s .f32) (dims : Fin S_.rank → Fin s.rank) (hb : S_.BroadcastsInDim s dims) (i : s.Idx)
    (h : cmpf CmpFPredicate.olt (Host.absf a) (broadcastInDim s dims hb (constant (F := Ideal) S_ .f32 0x7F800000#32)) i = 1#1) :
    ∃ r : ℝ, a i = (r : EReal) := by
  apply real_of_abs_lt_top
  have h2 : BitVec.ofBool (decide (max (a i) (-a i) < Ideal.ofBits .f32 0x7F800000#32)) = 1#1 := h
  rw [inf_eq_top] at h2
  by_contra hn
  rw [decide_eq_false hn] at h2
  exact absurd h2 (by decide)

/-- One element of the index test: if the bit "0 ≤ e i and e i < 100" is 1 then e i, read signed, lies in [0, 100). -/
theorem range_of_test {s : Shape} (e : IVec s 32) (dims : Fin S_.rank → Fin s.rank) (hb : S_.BroadcastsInDim s dims) (i : s.Idx)
    (h : andi (cmpi CmpIPredicate.sge e (broadcastInDim s dims hb (constantI S_ 32 0#32)))
          (cmpi CmpIPredicate.slt e (broadcastInDim s dims hb (constantI S_ 32 100#32))) i = 1#1) :
    0 ≤ (e i).toInt ∧ (e i).toInt < 100 := by
  have h2 : IntOp.andi (IntOp.cmpi .sge (e i) 0#32) (IntOp.cmpi .slt (e i) 100#32) = 1#1 := h
  rw [IntOp.andi_eq_one, IntOp.cmpi_sge, IntOp.cmpi_slt] at h2
  have z : (0#32 : BitVec 32).toInt = 0 := by decide
  have c : (100#32 : BitVec 32).toInt = 100 := by decide
  rw [z] at h2; rw [c] at h2
  exact h2

variable [Cert.Pre_finite_inputs.Facts]

/-- The precondition, decoded: every float array holds reals only and every edge index lies in [0, 100). -/
theorem decode
    (a0 : FVec Ideal S100x65536 .f32) (a1 : IVec S2x1600 32) (a2 : FVec Ideal S1x3 .f32)
    (a3 : FVec Ideal S3x65536x60 .f32) (a4 : FVec Ideal S60 .f32) (a5 : FVec Ideal S3x65536x60 .f32)
    (a6 : FVec Ideal S60 .f32) (a7 : FVec Ideal S3x60 .f32) (a8 : FVec Ideal S3x60 .f32) (a9 : FVec Ideal S3x60 .f32)
    (a10 : FVec Ideal S3x60 .f32) (a11 : FVec Ideal S6000x100 .f32) (a12 : FVec Ideal S100 .f32)
    (a13 : FVec Ideal S6000x1 .f32) (a14 : FVec Ideal S1 .f32)
    (h : Cert.Pre_finite_inputs.fn (F := Ideal) a0 a1 a2 a3 a4 a5 a6 a7 a8 a9 a10 a11 a12 a13 a14 = fun _ => 1#1) :
    (∀ i, ∃ r : ℝ, a0 i = (r : EReal)) ∧ (∀ i, 0 ≤ (a1 i).toInt ∧ (a1 i).toInt < 100) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) ∧ (∀ i, ∃ r : ℝ, a8 i = (r : EReal))
    ∧ (∀ i, ∃ r : ℝ, a9 i = (r : EReal)) ∧ (∀ i, ∃ r : ℝ, a10 i = (r : EReal)) ∧ (∀ i, ∃ r : ℝ, a11 i = (r : EReal))
    ∧ (∀ i, ∃ r : ℝ, a12 i = (r : EReal)) ∧ (∀ i, ∃ r : ℝ, a13 i = (r : EReal)) ∧ (∀ i, ∃ r : ℝ, a14 i = (r : EReal)) := by
  have e := congrFun h ValueIdx.ix0
  dsimp only [fn, fn_part1, fn_part2, fn_part3, fn_part4] at e
  simp only [andi, IntOp.andi_eq_one] at e
  obtain ⟨⟨⟨⟨⟨⟨⟨⟨⟨⟨⟨⟨⟨⟨h0, h2⟩, h3⟩, h4⟩, h5⟩, h6⟩, h7⟩, h8⟩, h9⟩, h10⟩, h11⟩, h12⟩, h13⟩, h14⟩, h1⟩ := e
  refine ⟨?_, ?_, ?_, ?_, ?_, ?_, ?_, ?_, ?_, ?_, ?_, ?_, ?_, ?_, ?_⟩
  · exact fun i => real_of_test a0 _ _ i (Host.reduce_andi_all _ _ _ _ ValueIdx.ix0 h0 i)
  · exact fun i => range_of_test a1 _ _ i (Host.reduce_andi_all _ _ _ _ ValueIdx.ix0 h1 i)
  · exact fun i => real_of_test a2 _ _ i (Host.reduce_andi_all _ _ _ _ ValueIdx.ix0 h2 i)
  · exact fun i => real_of_test a3 _ _ i (Host.reduce_andi_all _ _ _ _ ValueIdx.ix0 h3 i)
  · exact fun i => real_of_test a4 _ _ i (Host.reduce_andi_all _ _ _ _ ValueIdx.ix0 h4 i)
  · exact fun i => real_of_test a5 _ _ i (Host.reduce_andi_all _ _ _ _ ValueIdx.ix0 h5 i)
  · exact fun i => real_of_test a6 _ _ i (Host.reduce_andi_all _ _ _ _ ValueIdx.ix0 h6 i)
  · exact fun i => real_of_test a7 _ _ i (Host.reduce_andi_all _ _ _ _ ValueIdx.ix0 h7 i)
  · exact fun i => real_of_test a8 _ _ i (Host.reduce_andi_all _ _ _ _ ValueIdx.ix0 h8 i)
  · exact fun i => real_of_test a9 _ _ i (Host.reduce_andi_all _ _ _ _ ValueIdx.ix0 h9 i)
  · exact fun i => real_of_test a10 _ _ i (Host.reduce_andi_all _ _ _ _ ValueIdx.ix0 h10 i)
  · exact fun i => real_of_test a11 _ _ i (Host.reduce_andi_all _ _ _ _ ValueIdx.ix0 h11 i)
  · exact fun i => real_of_test a12 _ _ i (Host.reduce_andi_all _ _ _ _ ValueIdx.ix0 h12 i)
  · exact fun i => real_of_test a13 _ _ i (Host.reduce_andi_all _ _ _ _ ValueIdx.ix0 h13 i)
  · exact fun i => real_of_test a14 _ _ i (Host.reduce_andi_all _ _ _ _ ValueIdx.ix0 h14 i)

/-- The edge endpoints as functions into Fin 100: a word in [0, 100) signed is the value of an element of Fin 100. -/
theorem endpoints (E : IVec S2x1600 32) (hE : ∀ i, 0 ≤ (E i).toInt ∧ (E i).toInt < 100) :
    ∃ s d : Fin 1600 → Fin 100, (∀ a : Fin 1600, (E (ix2 0 a)).toInt = ((s a).val : ℤ))
      ∧ (∀ a : Fin 1600, (E (ix2 1 a)).toInt = ((d a).val : ℤ)) := by
  refine ⟨fun a => ⟨(E (ix2 0 a)).toInt.toNat, ?_⟩, fun a => ⟨(E (ix2 1 a)).toInt.toNat, ?_⟩, fun a => ?_, fun a => ?_⟩
  · have := hE (ix2 0 a); omega
  · have := hE (ix2 1 a); omega
  · have := hE (ix2 0 a); show _ = ((E (ix2 0 a)).toInt.toNat : ℤ); omega
  · have := hE (ix2 1 a); show _ = ((E (ix2 1 a)).toInt.toNat : ℤ); omega

/-- (i) Under the precondition every entry of the feature array is a real. -/
theorem arg0_real
    (a0 : FVec Ideal S100x65536 .f32) (a1 : IVec S2x1600 32) (a2 : FVec Ideal S1x3 .f32)
    (a3 : FVec Ideal S3x65536x60 .f32) (a4 : FVec Ideal S60 .f32) (a5 : FVec Ideal S3x65536x60 .f32)
    (a6 : FVec Ideal S60 .f32) (a7 : FVec Ideal S3x60 .f32) (a8 : FVec Ideal S3x60 .f32) (a9 : FVec Ideal S3x60 .f32)
    (a10 : FVec Ideal S3x60 .f32) (a11 : FVec Ideal S6000x100 .f32) (a12 : FVec Ideal S100 .f32)
    (a13 : FVec Ideal S6000x1 .f32) (a14 : FVec Ideal S1 .f32)
    (h : Cert.Pre_finite_inputs.fn (F := Ideal) a0 a1 a2 a3 a4 a5 a6 a7 a8 a9 a10 a11 a12 a13 a14 = fun _ => 1#1) :
    ∀ i, ∃ x : ℝ, a0 i = (x : EReal) :=
  (decode a0 a1 a2 a3 a4 a5 a6 a7 a8 a9 a10 a11 a12 a13 a14 h).1

/-- (ii) Under the precondition the two rows of the edge index array are the values of functions into Fin 100. -/
theorem edges
    (a0 : FVec Ideal S100x65536 .f32) (a1 : IVec S2x1600 32) (a2 : FVec Ideal S1x3 .f32)
    (a3 : FVec Ideal S3x65536x60 .f32) (a4 : FVec Ideal S60 .f32) (a5 : FVec Ideal S3x65536x60 .f32)
    (a6 : FVec Ideal S60 .f32) (a7 : FVec Ideal S3x60 .f32) (a8 : FVec Ideal S3x60 .f32) (a9 : FVec Ideal S3x60 .f32)
    (a10 : FVec Ideal S3x60 .f32) (a11 : FVec Ideal S6000x100 .f32) (a12 : FVec Ideal S100 .f32)
    (a13 : FVec Ideal S6000x1 .f32) (a14 : FVec Ideal S1 .f32)
    (h : Cert.Pre_finite_inputs.fn (F := Ideal) a0 a1 a2 a3 a4 a5 a6 a7 a8 a9 a10 a11 a12 a13 a14 = fun _ => 1#1) :
    ∃ s d : Fin 1600 → Fin 100, (∀ a : Fin 1600, (a1 (ix2 0 a)).toInt = ((s a).val : ℤ))
      ∧ (∀ a : Fin 1600, (a1 (ix2 1 a)).toInt = ((d a).val : ℤ)) :=
  endpoints a1 (decode a0 a1 a2 a3 a4 a5 a6 a7 a8 a9 a10 a11 a12 a13 a14 h).2.1

end Cert.Proof.PreFacts

end
-- ==== Proof.Bridge.lean ====
/-
  The two programs' results agree: the assembly of the value proof.

  Under the precondition the features are real numbers and every edge index is a node, so the edge list is two maps
  `s d : Fin 1600 → Fin 100`. The reference's embedding of a head is `Spec.emb` edge by edge; the kernel's output block
  of the head is `Spec.emb` through the dense propagation matrix (its entry (r, t) is the sum of the weights of the
  edges from t to r) and the 16 channel tiles. Both programs then apply the same final linear layer.
-/
import proofs.«132327_j50706383897350_2_alg».proof.Defs
import proofs.«132327_j50706383897350_2_alg».proof.Proof.Gen.KernelIdeal
import proofs.«132327_j50706383897350_2_alg».proof.Proof.Gen.ReferenceIdeal
import proofs.«132327_j50706383897350_2_alg».proof.Proof.Gen.Pre_finite_inputs
import proofs.«132327_j50706383897350_2_alg».proof.Proof.IdealG
import proofs.«132327_j50706383897350_2_alg».proof.Proof.IdealHost
import proofs.«132327_j50706383897350_2_alg».proof.Proof.IdealHostB
import proofs.«132327_j50706383897350_2_alg».proof.Proof.IdealRunPost
import proofs.«132327_j50706383897350_2_alg».proof.Proof.RefEmb
import proofs.«132327_j50706383897350_2_alg».proof.Proof.WeightsReal
import proofs.«132327_j50706383897350_2_alg».proof.Proof.PreFacts

set_option maxRecDepth 16384

noncomputable section

namespace Cert.Proof.Bridge

open Idealize.ShloMosaic Idealize.ShloMosaic.TcCoe Idealize.ShloMosaic.ValueIdx
open Idealize.SL Idealize.SL.Sem
open Cert.KernelIdeal Cert.KernelIdeal.Gen Cert.KernelIdeal.Body Cert.KernelIdeal.HostValue

variable (m : (ℓ : Loc nD τ sig) → Buf (Elt Ideal) ℓ) (c : Dev nD)

/-- The features as the kernel call finds them are the argument. -/
theorem Xf_eq : Xf m c = fun r k => (m ((c.tc : Thread nD τ).loc main_arg0) : S100x65536.Idx → EReal) (ix2 r k) := by
  funext r k; unfold Xf; rw [V_main_arg0]
theorem WA_eq : WA m c = fun J k o => (m ((c.tc : Thread nD τ).loc main_arg3) : S3x65536x60.Idx → EReal) (ix3 J k o) := by
  funext J k o; unfold WA; rw [V_main_arg3]
theorem WC_eq : WC m c = fun J k o => (m ((c.tc : Thread nD τ).loc main_arg5) : S3x65536x60.Idx → EReal) (ix3 J k o) := by
  funext J k o; unfold WC; rw [V_main_arg5]

open Cert.ReferenceIdeal.RefValue in
/-- The actor's block of the kernel's output array is the reference's actor embedding, index by index. -/
theorem emb_actor (hpre : Cert.Pre_KernelIdeal m) :
    (fun i : S100x60.Idx => G m c (ix3 0 (i 0) (i 1)))
      = Cert.ReferenceIdeal.Read.val_main_v82 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg7)) (m ((c.tc : Thread nD τ).loc main_arg8)) := by
  obtain ⟨s, d, hs, hd⟩ := Cert.Proof.PreFacts.edges _ _ _ _ _ _ _ _ _ _ _ _ _ _ _ (hpre c)
  have hX := Cert.Proof.PreFacts.arg0_real _ _ _ _ _ _ _ _ _ _ _ _ _ _ _ (hpre c)
  funext i
  obtain ⟨r, o, rfl⟩ : ∃ (r : Fin 100) (o : Fin 60), i = ix2 r o := ⟨i 0, i 1, eq_ix2 i⟩
  show G m c (ix3 0 r o) = _
  rw [emb_a_apply _ _ _ _ _ _ _ s d hs hd r o]
  rw [G_actor m c s d (fun a => Cert.ReferenceIdeal.Read.val_main_v30 (F := Ideal) (m ((c.tc : Thread nD τ).loc main_arg1)) (ix1 a))
    (fun r t => by
      unfold Lf
      rw [L_apply m c s d hs hd r t, wK_eq_ref])
    (fun a => Cert.Proof.WeightsReal.v30_real _ a)
    (fun r k => by rw [Xf_eq]; exact hX (ix2 r k))
    (fun o => (m ((c.tc : Thread nD τ).loc main_arg4) : S60.Idx → EReal) (ix1 o))
    (fun o => Cert.ReferenceIdeal.Read.val_main_v79 (F := Ideal) (m ((c.tc : Thread nD τ).loc main_arg2)) (m ((c.tc : Thread nD τ).loc main_arg7)) (m ((c.tc : Thread nD τ).loc main_arg8)) (ix1 o))
    (fun o => bias_apply_zero m c o)
    (fun o => by rw [offs_apply_zero m c o, vnKa_eq_ref])
    r o]
  rw [Xf_eq, WA_eq]

open Cert.ReferenceIdeal.RefValue in
/-- The critic's block likewise. -/
theorem emb_critic (hpre : Cert.Pre_KernelIdeal m) :
    (fun i : S100x60.Idx => G m c (ix3 1 (i 0) (i 1)))
      = Cert.ReferenceIdeal.Read.val_main_v164 (F := Ideal) (m ((c.tc : Thread nD τ).loc main_arg0)) (m ((c.tc : Thread nD τ).loc main_arg1))
          (m ((c.tc : Thread nD τ).loc main_arg2)) (m ((c.tc : Thread nD τ).loc main_arg5)) (m ((c.tc : Thread nD τ).loc main_arg6))
          (m ((c.tc : Thread nD τ).loc main_arg9)) (m ((c.tc : Thread nD τ).loc main_arg10)) := by
  obtain ⟨s, d, hs, hd⟩ := Cert.Proof.PreFacts.edges _ _ _ _ _ _ _ _ _ _ _ _ _ _ _ (hpre c)
  have hX := Cert.Proof.PreFacts.arg0_real _ _ _ _ _ _ _ _ _ _ _ _ _ _ _ (hpre c)
  funext i
  obtain ⟨r, o, rfl⟩ : ∃ (r : Fin 100) (o : Fin 60), i = ix2 r o := ⟨i 0, i 1, eq_ix2 i⟩
  show G m c (ix3 1 r o) = _
  rw [emb_c_apply _ _ _ _ _ _ _ s d hs hd r o]
  rw [G_critic m c s d (fun a => Cert.ReferenceIdeal.Read.val_main_v112 (F := Ideal) (m ((c.tc : Thread nD τ).loc main_arg1)) (ix1 a))
    (fun r t => by
      unfold Lf
      rw [L_apply m c s d hs hd r t, wK_eq_ref_c])
    (fun a => Cert.Proof.WeightsReal.v112_real _ a)
    (fun r k => by rw [Xf_eq]; exact hX (ix2 r k))
    (fun o => (m ((c.tc : Thread nD τ).loc main_arg6) : S60.Idx → EReal) (ix1 o))
    (fun o => Cert.ReferenceIdeal.Read.val_main_v161 (F := Ideal) (m ((c.tc : Thread nD τ).loc main_arg2)) (m ((c.tc : Thread nD τ).loc main_arg9)) (m ((c.tc : Thread nD τ).loc main_arg10)) (ix1 o))
    (fun o => bias_apply_one m c o)
    (fun o => by rw [offs_apply_one m c o, vnKc_eq_ref])
    r o]
  rw [Xf_eq, WC_eq]

/-- THE VALUE CLAIM: run from memories agreeing on the arguments, the idealized kernel and the idealized reference
    both terminate with equal results. -/
theorem algebraic : Cert.algebraic_KernelIdeal_ReferenceIdeal := by
  intro m g m' g' hpre hagree
  refine ⟨fun c => Pipeline.afterTail₀ cfgs (dats m) 0 (V0 m) [hostOps1] c main_v73,
    fun c => Pipeline.afterTail₀ cfgs (dats m) 0 (V0 m) [hostOps1] c main_v77, run_post m g, ?_⟩
  refine (θ_run Cert.ReferenceIdeal.defs _ _).mono (fun _ h c => ⟨(h c).1.trans ?_, (h c).2.1.trans ?_, (h c).2.2⟩)
    (Cert.ReferenceIdeal.Value.run (F := Ideal) m' g')
  · rw [Cert.ReferenceIdeal.RefValue.res_a_tail]
    show _ = Pipeline.afterTail₀ cfgs (dats m) 0 (V0 m) [hostOps1] c main_v73
    rw [tail_a m (dats m) c, final]
    obtain ⟨h0, h1, h2, h3, h4, h5, h6, h7, h8, h9, h10, h11, h12, h13, h14⟩ := hagree c
    rw [h0, h1, h2, h3, h4, h7, h8, h11, h12, emb_actor m c hpre]
  · rw [Cert.ReferenceIdeal.RefValue.res_c_tail]
    show _ = Pipeline.afterTail₀ cfgs (dats m) 0 (V0 m) [hostOps1] c main_v77
    rw [tail_c m (dats m) c, final]
    obtain ⟨h0, h1, h2, h3, h4, h5, h6, h7, h8, h9, h10, h11, h12, h13, h14⟩ := hagree c
    rw [h0, h1, h2, h5, h6, h9, h10, h13, h14, emb_critic m c hpre]

end Cert.Proof.Bridge

end
-- ==== Proof.lean ====
/-
  A Chebyshev graph convolution of order 3 on 100 nodes and 65536 channels, for two heads, followed by tanh, a
  per-column offset and a final linear layer: the Pallas kernel against its jnp reference, on the extended reals.

  The kernel builds the dense 100 × 100 propagation matrix by adding each edge's weight at (destination, source),
  multiplies by it twice inside the kernel, tile by tile over the channels, and accumulates the three matrix products
  over 16 channel tiles per head; the reference propagates edge by edge (gather the source rows, scale, add at the
  destination rows) and multiplies the full matrices once. The two agree because a sum of weights times a row is the
  sum of the weighted rows — distributivity, which on the extended reals needs real numbers: the edge weights are
  products of reciprocal square roots of numbers ≥ 1, hence real for every input, and the features are finite by the
  precondition — and because sums over 16 × 4096 columns regroup freely. Every edge index is a node by the
  precondition, so gathers read the named rows and no scatter update is dropped.

  The three frames: the kernel's body is run at each of the six kinds of grid point (first / middle / last channel
  tile of either head), for the word-level program and for its idealization; the reference is a straight line of host
  operations.
-/
import proofs.«132327_j50706383897350_2_alg».proof.Defs
import proofs.«132327_j50706383897350_2_alg».proof.Proof.Gen.Kernel
import proofs.«132327_j50706383897350_2_alg».proof.Proof.Gen.KernelIdeal
import proofs.«132327_j50706383897350_2_alg».proof.Proof.Gen.ReferenceIdeal
import proofs.«132327_j50706383897350_2_alg».proof.Proof.Gen.Pre_finite_inputs
import proofs.«132327_j50706383897350_2_alg».proof.Proof.BitsBody
import proofs.«132327_j50706383897350_2_alg».proof.Proof.IdealBody
import proofs.«132327_j50706383897350_2_alg».proof.Proof.RefFrame
import proofs.«132327_j50706383897350_2_alg».proof.Proof.Bridge
import Idealize.ShloMosaic.Adequacy
import Idealize.ShloMosaic.Init

noncomputable section

namespace Cert.Proof

open Idealize.ShloMosaic Idealize.SL.Sem

/-- The word-level kernel program terminates, faults nowhere and leaves its arguments unchanged. -/
theorem frame_k : Cert.frame_Kernel := fun m ρ _ =>
  Cert.Kernel.Gen.frame_of m ρ (Cert.Kernel.Body.dats m) (Cert.Kernel.Body.A_eq m) (Cert.Kernel.Body.run_main (F := Bits) m ρ)

/-- So does its idealization. -/
theorem frame_ki : Cert.frame_KernelIdeal := fun m ρ _ =>
  Cert.KernelIdeal.Gen.frame_of m ρ (Cert.KernelIdeal.Body.dats m) (Cert.KernelIdeal.Body.A_eq m) (Cert.KernelIdeal.Body.run_main (F := Ideal) m ρ)

theorem claim : Cert.Claim := ⟨Cert.Kernel.Gen.facts, Cert.KernelIdeal.Gen.facts, Cert.ReferenceIdeal.Gen.facts, Cert.Pre_finite_inputs.Gen.facts,
  frame_k, frame_ki, Cert.Proof.Ref.frame_ref, trivial, Cert.Proof.Bridge.algebraic⟩

end Cert.Proof

end
